-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S1024x3072 : Shape := ⟨2, ![1024, 3072]⟩
abbrev S16384x1024 : Shape := ⟨2, ![16384, 1024]⟩
abbrev S16384x3072 : Shape := ⟨2, ![16384, 3072]⟩
abbrev S512x1024 : Shape := ⟨2, ![512, 1024]⟩
abbrev S512x3072 : Shape := ⟨2, ![512, 3072]⟩
abbrev S4x4096x3072 : Shape := ⟨3, ![4, 4096, 3072]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x3072, .f32⟩
  | .hbm, ⟨5, _⟩ => ⟨S1024x3072, .bf16⟩
  | .hbm, ⟨6, _⟩ => ⟨S16384x1024, .f32⟩
  | .hbm, ⟨7, _⟩ => ⟨S16384x3072, .bf16⟩
  | .hbm, ⟨8, _⟩ => ⟨S4x4096x3072, .bf16⟩
  | .hbm, ⟨9, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1024x1, .f32⟩
  | .local _ .vmem, ⟨14, _⟩ => ⟨S1024x1, .f32⟩
  | .local _ .vmem, ⟨15, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S4x4096x3072 : S16384x3072.ShapeCasts S4x4096x3072
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S16384x3072.size a
  hwx0_2 : ∀ i : grid0.Coords, EltTy.bits .bf16 = 32 ∨ (Rect.block (s := S16384x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x3072.size a
  hwx1_0 : ∀ i : grid1.Coords, EltTy.bits .bf16 = 32 ∨ (Rect.block (s := S4x4096x3072) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x3072.size a
  hwx1_1 : ∀ i : grid1.Coords, EltTy.bits .bf16 = 32 ∨ (Rect.block (s := S4x4096x3072) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x3072.size a
  hwx1_2 : ∀ i : grid1.Coords, EltTy.bits .bf16 = 32 ∨ (Rect.block (s := S4x4096x3072) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x4096, .f32⟩
  | .hbm, ⟨8, _⟩ => ⟨S_, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.K.Region0.lean ====
import proofs.«104880_j49323404427787_2_alg».proof.Proof.Gen.Kernel.Launch
import proofs.«104880_j49323404427787_2_alg».proof.Proof.Gen.Kernel.Skeleton
import proofs.«104880_j49323404427787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first region: the fused projection, at any float instance

The first region multiplies a row tile of the activations (512 rows of 1024 entries) by the whole weight
matrix (1024 by 3072) and writes the 512 by 3072 product, rounded to the narrow type, over its output tile.
Everything here is stated at a parameter `V`, the contents of the unscoped buffers when the region is entered.
We say what each window's tile is at each grid point, what the body leaves in the output tile as a function
of the two input tiles, prove the body's triple, and from it the obligation the pipeline's frame theorem asks
of a body at every grid point. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The tiles -/

/-- The tile of window `w` at grid point `t`: the window's array, as the region finds it, read through the
    rectangle the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the activations' tile at every point. A point that fetches puts the
    tile there; a point that does not has the same tile index as the point before, and the body left the buffer
    as it found it. Holds for any proof data reading the array `V` gives and keeping the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights, whose one tile is the whole matrix: it is fetched at the first point only, and
    every later point finds it where the first left it, the tile index never moving. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each staging buffer whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-! ## What the body leaves in the output tile -/

/-- The output tile after the body, as a function of the two input tiles: the body stores once, over the whole
    tile, the rounded product of the two tiles it loaded whole. -/
def out0_2 (x0 : Vec F S512x1024 .f32) (x1 : Vec F S1024x3072 .bf16) : Vec F S512x3072 .bf16 :=
  View.canon [⟨r0_2, k0_pay1 (View.ld x0 r0_0) (View.ld x1 r0_1)⟩]

/-- The one store is of the whole tile, so every index of the tile lies under it. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

/-! ## The body's triple -/

set_option maxHeartbeats 1000000 in
/-- The body, run on three whole staging buffers — the inputs' holding `x0` and `x1`, the output's holding
    anything — ends with the inputs' unchanged and the output's holding `out0_2 x0 x1`: two whole loads, a load
    of the output tile whose value is not used, and one whole store. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The region's proof data on core `c`. The arrays are what the region finds (`V`). After the body at point
    `t` each input's staging buffer still holds its tile, and the output's holds `out0_2` of the two input tiles.
    The invariant is the one that leaves everything outside the windows untouched; every share is full and nothing
    is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its tile when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`: the invariant, the core's debt, and the three staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their tiles, so the body's triple applies; the invariant and
    the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline's frame theorem asks of the body, at every grid point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.RunData0.lean ====
/-
  The program's run, first part: what every unscoped buffer of a core holds at the launch, after the first stretch of
  host operations (the weights concatenated and narrowed, the input reshaped to rows), after the projection region
  (its output array at what its write-backs fold to, every other buffer unchanged) and after the reshape of its
  result, which is what the attention region is entered with.
-/
import proofs.«104880_j49323404427787_2_alg».proof.Proof.K.Region0
import proofs.«104880_j49323404427787_2_alg».proof.Proof.Gen.Kernel.Regions
import Idealize.ShloMosaic.Lib.Pipeline.RegionsLoop

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first host stretch: the projection region's entry. -/
abbrev B1 : Dev nD → Valuation τ sig (Elt F) := fun c => StableHlo.after hostOps0 (B0 m ρ c)
/-- The same read at the core's references. -/
abbrev E1 : (c : Dev nD) → (b : Ref sig .tc) → Buf (Elt F) ((c : Thread nD τ).loc b) := fun c b => B1 m ρ c b
/-- At the projection region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the reshape of the projections: the attention region's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
end Cert.Kernel.Hand

end
-- ==== Proof.K.R1Base.lean ====
/-
  The attention region (the second kernel launch), first part: what its proof is stated over.

  The grid is (batch, query tile, key tile) = (4, 4, 8), the key tile innermost. At a point the kernel holds one
  query tile of 1024 rows, one key tile and one value tile of 512 rows each, all read from the one fused
  projection array (column blocks 0, 1 and 2 of its last axis), and an output tile of 1024 rows. Three buffers of
  its own are carried from one key tile to the next: the running row maximum, the running sum of weights and the
  running weighted sum of values. They are reset at the first key tile (the point's position is 0 modulo 8) and the
  output tile is stored, and written back, only at the last (7 modulo 8); at the other points the output buffer is
  handed back untouched.
-/
import proofs.«104880_j49323404427787_2_alg».proof.Proof.Gen.Kernel.Launch
import proofs.«104880_j49323404427787_2_alg».proof.Proof.Gen.Kernel.Skeleton
import proofs.«104880_j49323404427787_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its block at every point, fetched there or not (it is fetched at the first key
    tile only; at the others its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions, in closed form over the grid -/

/-- "This is the first key tile": the condition under which the three carried buffers are reset. -/
abbrev cond1_0 (i : grid1.Coords) : Prop := (Scalar.cmpi .ne (Scalar.extui (Scalar.cmpi .eq (BitVec.ofNat 32 (i 2).val) 0#32)) 0#32) = 1#1
/-- It holds at the points whose position is 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last key tile": the condition under which the output tile is stored. -/
abbrev cond1_1 (i : grid1.Coords) : Prop := k1_cond2 i = 1#1
/-- It holds at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first key tile the output window is idle and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a middle key tile likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last key tile the output window is live: the body stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three carried buffers: the running maximum, the running sum of weights, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The scoped buffers of the core that this region does not stage, the carried three apart: the first
    region's five staging buffers, each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The class's invariant (every scoped buffer the region does not stage at some contents, the generator register at
    some state) with the three carried buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.R1RunA.lean ====
/-
  The attention kernel's body run as a whole in one of its three control cases: the first key tile — the three carried buffers are reset, one tile is folded in, nothing is stored into the output buffer, which is handed back as found.
  The run is stated on any whole staging memrefs and carried buffers; what each stored buffer ends with is recorded
  as the list of its stores (the last first), found when the run hands the buffer to the continuation.
-/
import proofs.«104880_j49323404427787_2_alg».proof.Proof.K.R1Base

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- the first key tile — the three carried buffers are reset, one tile is folded in, nothing is stored into the output buffer, which is handed back as found. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 : Vec F S1x1024x1024 .bf16) (x1 : Vec F S1x512x1024 .bf16) (x2 : Vec F S1x512x1024 .bf16) :
    Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1RunB.lean ====
/-
  The attention kernel's body run as a whole in one of its three control cases: a middle key tile — one tile is folded into the three carried buffers, found at what the point before left; nothing is stored into the output buffer, which is handed back as found.
  The run is stated on any whole staging memrefs and carried buffers; what each stored buffer ends with is recorded
  as the list of its stores (the last first), found when the run hands the buffer to the continuation.
-/
import proofs.«104880_j49323404427787_2_alg».proof.Proof.K.R1RunA

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- a middle key tile — one tile is folded into the three carried buffers, found at what the point before left; nothing is stored into the output buffer, which is handed back as found. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1RunC.lean ====
/-
  The attention kernel's body run as a whole in one of its three control cases: the last key tile — one tile is folded into the three carried buffers, found at what the point before left, and the output tile is stored: the weighted sum divided by the sum of weights.
  The run is stated on any whole staging memrefs and carried buffers; what each stored buffer ends with is recorded
  as the list of its stores (the last first), found when the run hands the buffer to the continuation.
-/
import proofs.«104880_j49323404427787_2_alg».proof.Proof.K.R1RunB

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- the last key tile — one tile is folded into the three carried buffers, found at what the point before left, and the output tile is stored: the weighted sum divided by the sum of weights. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R1Data.lean ====
/-
  The attention region: what the carried buffers and the output tile hold point by point, and the proof data.

  What a point leaves is the case's run at that point's memrefs and input blocks, over what the point before left
  in the three carried buffers (a first key tile ignores it: it resets them). Each stored buffer is covered by its
  stores, so it reads back as the canon of the list of stores, whatever it held before. Between points the invariant
  holds the three carried buffers at what the last point left; before the first point it is the class's plain one.
-/
import proofs.«104880_j49323404427787_2_alg».proof.Proof.K.R1RunC

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## Each case's stores cover the buffers it stores into -/

theorem scover1_A_0 (c : Dev nD) (t : Fin cfg1.N) (h0 : cond1_0 (grid1.coords t)) (h1 : ¬cond1_1 (grid1.coords t)) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t)).1, y ∈ pc.1.set :=
  View.cover_of_tiledL _ S1024x1.size (by sl_kernel_rfl) y
theorem scover1_A_1 (c : Dev nD) (t : Fin cfg1.N) (h0 : cond1_0 (grid1.coords t)) (h1 : ¬cond1_1 (grid1.coords t)) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t)).2.1, y ∈ pc.1.set :=
  View.cover_of_tiledL _ S1024x1.size (by sl_kernel_rfl) y
theorem scover1_A_2 (c : Dev nD) (t : Fin cfg1.N) (h0 : cond1_0 (grid1.coords t)) (h1 : ¬cond1_1 (grid1.coords t)) (y : S1024x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t)).2.2.1, y ∈ pc.1.set :=
  View.cover_of_tiledL _ S1024x1024.size (by sl_kernel_rfl) y

theorem scover1_B_0 (c : Dev nD) (t : Fin cfg1.N) (h0 : ¬cond1_0 (grid1.coords t)) (h1 : ¬cond1_1 (grid1.coords t)) (p : Vec F S1024x1 .f32 × Vec F S1024x1 .f32 × Vec F S1024x1024 .f32) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).1, y ∈ pc.1.set :=
  View.cover_of_tiledL _ S1024x1.size (by sl_kernel_rfl) y
theorem scover1_B_1 (c : Dev nD) (t : Fin cfg1.N) (h0 : ¬cond1_0 (grid1.coords t)) (h1 : ¬cond1_1 (grid1.coords t)) (p : Vec F S1024x1 .f32 × Vec F S1024x1 .f32 × Vec F S1024x1024 .f32) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).2.1, y ∈ pc.1.set :=
  View.cover_of_tiledL _ S1024x1.size (by sl_kernel_rfl) y
theorem scover1_B_2 (c : Dev nD) (t : Fin cfg1.N) (h0 : ¬cond1_0 (grid1.coords t)) (h1 : ¬cond1_1 (grid1.coords t)) (p : Vec F S1024x1 .f32 × Vec F S1024x1 .f32 × Vec F S1024x1024 .f32) (y : S1024x1024.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).2.2.1, y ∈ pc.1.set :=
  View.cover_of_tiledL _ S1024x1024.size (by sl_kernel_rfl) y

theorem cover1_C_3 (c : Dev nD) (t : Fin cfg1.N) (h0 : ¬cond1_0 (grid1.coords t)) (h1 : cond1_1 (grid1.coords t)) (p : Vec F S1024x1 .f32 × Vec F S1024x1 .f32 × Vec F S1024x1024 .f32) (y : S1x1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).1, y ∈ pc.1.set :=
  View.cover_of_tiledL _ S1x1024x1024.size (by sl_kernel_rfl) y
theorem scover1_C_0 (c : Dev nD) (t : Fin cfg1.N) (h0 : ¬cond1_0 (grid1.coords t)) (h1 : cond1_1 (grid1.coords t)) (p : Vec F S1024x1 .f32 × Vec F S1024x1 .f32 × Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).2.1, y ∈ pc.1.set :=
  View.cover_of_tiledL _ S1024x1.size (by sl_kernel_rfl) y
theorem scover1_C_1 (c : Dev nD) (t : Fin cfg1.N) (h0 : ¬cond1_0 (grid1.coords t)) (h1 : cond1_1 (grid1.coords t)) (p : Vec F S1024x1 .f32 × Vec F S1024x1 .f32 × Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).2.2.1, y ∈ pc.1.set :=
  View.cover_of_tiledL _ S1024x1.size (by sl_kernel_rfl) y
theorem scover1_C_2 (c : Dev nD) (t : Fin cfg1.N) (h0 : ¬cond1_0 (grid1.coords t)) (h1 : cond1_1 (grid1.coords t)) (p : Vec F S1024x1 .f32 × Vec F S1024x1 .f32 × Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).2.2.2.1, y ∈ pc.1.set :=
  View.cover_of_tiledL _ S1024x1024.size (by sl_kernel_rfl) y

/-! ## What one point leaves -/

/-- Contents nothing consults: the output component at a point that stores nothing into the output buffer. -/
def noOut : Vec F S1x1024x1024 .f32 := View.canon []

/-- What the body leaves at point `t` — the output tile, then the three carried buffers — given what the point
    before left in the carried three: the case the point's position modulo 8 selects. -/
def stepAt1 (c : Dev nD) (t : Fin cfg1.N) (p : Vec F S1024x1 .f32 × Vec F S1024x1 .f32 × Vec F S1024x1024 .f32) : Vec F S1x1024x1024 .f32 × Vec F S1024x1 .f32 × Vec F S1024x1 .f32 × Vec F S1024x1024 .f32 :=
  if h0 : t.val % 8 = 0 then
    if h1 : t.val % 8 = 7 then False.elim (by omega)
    else (noOut, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).1, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.1, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.1)
  else
    if h1 : t.val % 8 = 7 then
      (View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.2.1)
    else (noOut, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).1, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.1, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.2.1)

theorem stepAt1_A (c : Dev nD) (t : Fin cfg1.N) (p : Vec F S1024x1 .f32 × Vec F S1024x1 .f32 × Vec F S1024x1024 .f32) (h0 : t.val % 8 = 0) (h1 : ¬t.val % 8 = 7) :
    stepAt1 V c t p = (noOut, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).1, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.1, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.1) := by
  unfold stepAt1; rw [dif_pos h0, dif_neg h1]
theorem stepAt1_B (c : Dev nD) (t : Fin cfg1.N) (p : Vec F S1024x1 .f32 × Vec F S1024x1 .f32 × Vec F S1024x1024 .f32) (h0 : ¬t.val % 8 = 0) (h1 : ¬t.val % 8 = 7) :
    stepAt1 V c t p = (noOut, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).1, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.1, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.2.1) := by
  unfold stepAt1; rw [dif_neg h0, dif_neg h1]
theorem stepAt1_C (c : Dev nD) (t : Fin cfg1.N) (p : Vec F S1024x1 .f32 × Vec F S1024x1 .f32 × Vec F S1024x1024 .f32) (h0 : ¬t.val % 8 = 0) (h1 : t.val % 8 = 7) :
    stepAt1 V c t p = (View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.2.1) := by
  unfold stepAt1; rw [dif_neg h0, dif_pos h1]

/-- Carried contents nothing consults: what "the point before" left, before the first point. -/
def noCarry : Vec F S1024x1 .f32 × Vec F S1024x1 .f32 × Vec F S1024x1024 .f32 := (View.canon [], View.canon [], View.canon [])

/-- THE ACCUMULATION: what the output buffer and the three carried buffers hold after the body at position `n`. -/
def outsAt1 (c : Dev nD) : (n : ℕ) → n < cfg1.N → Vec F S1x1024x1024 .f32 × Vec F S1024x1 .f32 × Vec F S1024x1 .f32 × Vec F S1024x1024 .f32
  | 0, hn => stepAt1 V c ⟨0, hn⟩ noCarry
  | n + 1, hn => stepAt1 V c ⟨n + 1, hn⟩ (outsAt1 c n (Nat.lt_of_succ_lt hn)).2

/-- At a point that is not the first, over what the point before left. -/
theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨n, hn⟩ := t
  cases n with
  | zero => exact absurd rfl hz
  | succ n => rfl
/-- At the first point. -/
theorem outsAt1_zero (c : Dev nD) (t : Fin cfg1.N) (hz : t.val = 0) : outsAt1 V c t.val t.isLt = stepAt1 V c t noCarry := by
  obtain ⟨n, hn⟩ := t
  cases n with
  | zero => rfl
  | succ n => exact absurd hz (Nat.succ_ne_zero n)

/-! ## The invariant between points -/

/-- Before position `n`: before the first point the class's invariant; afterwards the three carried buffers at what
    the point before left, the other scoped buffers at some contents, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt1 V c n hn).2.1 ∗ owns (c : Thread nD τ) scM1_1 fullShare (outsAt1 V c n hn).2.2.1
          ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt1 V c n hn).2.1 ∗ owns (c : Thread nD τ) scM1_1 fullShare (outsAt1 V c n hn).2.2.1
          ∗ owns (c : Thread nD τ) scM1_2 fullShare (outsAt1 V c n hn).2.2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt1 V c (n - 1) (by omega)).2.1 ∗ owns (c : Thread nD τ) scM1_1 fullShare (outsAt1 V c (n - 1) (by omega)).2.2.1
          ∗ owns (c : Thread nD τ) scM1_2 fullShare (outsAt1 V c (n - 1) (by omega)).2.2.2) ∗ (∃ r, prngReg c r)) := by
  cases n with
  | zero => exact absurd rfl hz
  | succ n => rfl

/-! ## The proof data -/

/-- The region's proof data on core `c`: the arrays as the region finds them; after the body each input's buffer at
    its block and the output's at the accumulation's first component; the invariant above; nothing owed. The three
    input windows read ONE array, so its full share is dealt among them: the query window holds the left half, the
    key and value windows the two halves of the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

end Region1

end Cert.Kernel.Hand

end
-- ==== Proof.K.RunData.lean ====
/-
  The program's run, second part: the attention region's exit contents (its output array at what its write-backs
  fold to, every other buffer as entered), that every argument array is at the end what it was at the launch, and
  the proof data of the two regions, each at the contents its region is entered with.
-/
import proofs.«104880_j49323404427787_2_alg».proof.Proof.K.RunData0
import proofs.«104880_j49323404427787_2_alg».proof.Proof.K.R1Data

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the attention region leaves in its output array: its write-backs folded. -/
def out5 (c : Dev nD) : Buf (Elt F) ((c : Thread nD τ).loc main_v5) := (dat1 (E3 m ρ) c).arrAt 3 cfg1.N
/-- At the attention region's exit: the output array at that, every other buffer as entered (its three input
    windows read one array, which no write-back touches). -/
def B4 (c : Dev nD) : Valuation τ sig (Elt F) := Function.update (B3 m ρ c) (Proc.devRef .tc main_v5) (out5 m ρ c)
theorem B4_v5 (c : Dev nD) : B4 m ρ c (Proc.devRef .tc main_v5) = out5 m ρ c := by
  unfold B4; exact Function.update_self ..
theorem B4_of_ne (c : Dev nD) (b : Ref sig .tc) (hb : b ≠ main_v5) :
    B4 m ρ c (Proc.devRef .tc b) = B3 m ρ c (Proc.devRef .tc b) := by
  unfold B4; exact Function.update_of_ne (StableHlo.devRef_ne_of_ne hb) ..
abbrev E4 : (c : Dev nD) → (b : Ref sig .tc) → Buf (Elt F) ((c : Thread nD τ).loc b) := fun c b => B4 m ρ c b

/-! ## The arguments end as launched -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := B2_of_ne m ρ c main_arg0 (by decide)
    _ = B0 m ρ c (Proc.devRef .tc main_arg0) := StableHlo.after_of_writes_sub hostOps0 _ hostOps0_writes (by decide : main_arg0 ∉ hostOps0_W)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

/-! ## The proof data family and what rides beside the buffers -/

/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state, nothing owed. -/
abbrev Rd (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (B4 m ρ c) ∗ ∃ r, prngReg c r)

end Cert.Kernel.Hand

end
-- ==== Proof.K.R1Shares.lean ====
import proofs.«104880_j49323404427787_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The attention region's shared input array: dealing its share out and joining it back

The attention region reads its queries, keys and values through three windows of ONE array, and writes its result
through a fourth window of another. On entry the array behind the three input windows is held whole at the full
share; the pipeline wants each window to hold its array at the window's own share. A full share is the composite of
its left and right halves, and the right half again of its own two halves, so the full share of the shared array
splits into three parts, one per input window; an input window never changes its array, so at the end the three
parts, still at the entry contents, compose back to the full share. The output window's array is held at the full
share throughout. Stated for any proof data of the region whose arrays are the entry contents and whose input shares
are those three parts. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares1
variable (V : (c : Dev nD) → (b : Ref sig .tc) → Buf (Elt F) ((c : Thread nD τ).loc b))

/-- The two buffers behind the second region's four windows. -/
theorem arrImage1 : Finset.univ.image (Pipeline.arrRef spec1) = ([main_v4, main_v5] : List (Ref sig .tc)).toFinset := by decide

/-- Each window's array is a whole buffer, so holding the array's elements is holding the buffer. -/
theorem arrays1_eq {c : Dev nD} (dat : Dat τ (Elt F) Unit ℕ (UR sig nD τ) ℕ cfg1 c)
    (G : (w : Fin cfg1.W) → Buf (Elt F) ((cfg1.win w).arr.view.loc (c.tc : Thread nD τ))) :
    dat.arrays G = bigSep Finset.univ fun w => ((((c.tc : Thread nD τ).loc (Pipeline.arrRef spec1 w)) ↦{dat.share w} G w : sProp 𝕄)) := by
  unfold Dat.arrays
  exact bigSep_congr fun w _ => by rw [(arr_whole1 w).set_eq_univ]

/-- The three input windows hold their own shares, the output window the full one. -/
theorem share1_0 {c : Dev nD} (dat : Dat τ (Elt F) Unit ℕ (UR sig nD τ) ℕ cfg1 c) : dat.share 0 = dat.q 0 := if_neg Bool.false_ne_true
theorem share1_1 {c : Dev nD} (dat : Dat τ (Elt F) Unit ℕ (UR sig nD τ) ℕ cfg1 c) : dat.share 1 = dat.q 1 := if_neg Bool.false_ne_true
theorem share1_2 {c : Dev nD} (dat : Dat τ (Elt F) Unit ℕ (UR sig nD τ) ℕ cfg1 c) : dat.share 2 = dat.q 2 := if_neg Bool.false_ne_true
theorem share1_3 {c : Dev nD} (dat : Dat τ (Elt F) Unit ℕ (UR sig nD τ) ℕ cfg1 c) : dat.share 3 = fullShare := if_pos rfl

/-- ON ENTRY: the two buffers behind the windows, each whole at the full share at the entry contents, give every
    window its array at its share: the shared array's full share is cut into its left half and the two halves of its
    right half. -/
theorem deal1_of {c : Dev nD} (dat : Dat τ (Elt F) Unit ℕ (UR sig nD τ) ℕ cfg1 c)
    (hA : ∀ w, dat.A w = V c (Pipeline.arrRef spec1 w))
    (hq0 : dat.q 0 = fullShare.left) (hq1 : dat.q 1 = fullShare.right.left) (hq2 : dat.q 2 = fullShare.right.right) :
    (Pipeline.arrBufs spec1 c (V c) : sProp 𝕄) ⊢ dat.arrays (dat.arrAt · 0) := by
  classical
  rw [arrays1_eq, bigSep_W1]
  unfold Pipeline.arrBufs
  rw [bigSep_eq_bigSepL_of_eq [main_v4, main_v5] arrImage1 (by decide)]
  rw [share1_0, share1_1, share1_2, share1_3, hq0, hq1, hq2]
  rw [show dat.arrAt 0 0 = V c main_v4 from hA 0, show dat.arrAt 1 0 = V c main_v4 from hA 1,
    show dat.arrAt 2 0 = V c main_v4 from hA 2, show dat.arrAt 3 0 = V c main_v5 from hA 3]
  show iprop((((c.tc : Thread nD τ).loc main_v4) ↦{fullShare} V c main_v4) ∗ (((c.tc : Thread nD τ).loc main_v5) ↦{fullShare} V c main_v5))
    ⊢ iprop((((c.tc : Thread nD τ).loc main_v4) ↦{fullShare.left} V c main_v4) ∗ (((c.tc : Thread nD τ).loc main_v4) ↦{fullShare.right.left} V c main_v4)
        ∗ (((c.tc : Thread nD τ).loc main_v4) ↦{fullShare.right.right} V c main_v4) ∗ (((c.tc : Thread nD τ).loc main_v5) ↦{fullShare} V c main_v5))
  iintro ⟨H4, H5⟩
  ihave H := (pointsTo_share (PosShare.mem_left_op_right fullShare)).1 $$ H4
  icases H with ⟨Ha, Hr⟩
  ihave H' := (pointsTo_share (PosShare.mem_left_op_right fullShare.right)).1 $$ Hr
  icases H' with ⟨Hb, Hc⟩
  isplitl [Ha]; · iexact Ha
  isplitl [Hb]; · iexact Hb
  isplitl [Hc]; · iexact Hc
  iexact H5

/-- ON EXIT: the input windows' arrays are as they were found, so their three shares of the shared array compose back
    to the full share at the entry contents; the output window's array is whole at what the run left in it. Together
    they are the two buffers whole at any contents `V'` that agree with those. -/
theorem join1_of {c : Dev nD} (dat : Dat τ (Elt F) Unit ℕ (UR sig nD τ) ℕ cfg1 c)
    (hA : ∀ w, dat.A w = V c (Pipeline.arrRef spec1 w))
    (hq0 : dat.q 0 = fullShare.left) (hq1 : dat.q 1 = fullShare.right.left) (hq2 : dat.q 2 = fullShare.right.right)
    (V' : (b : Ref sig .tc) → Buf (Elt F) ((c : Thread nD τ).loc b))
    (h4 : V' main_v4 = V c main_v4) (h5 : V' main_v5 = dat.arrAt 3 cfg1.N) :
    dat.arrays (dat.arrAt · cfg1.N) ⊢ (Pipeline.arrBufs spec1 c V' : sProp 𝕄) := by
  classical
  rw [arrays1_eq, bigSep_W1]
  unfold Pipeline.arrBufs
  rw [bigSep_eq_bigSepL_of_eq [main_v4, main_v5] arrImage1 (by decide)]
  rw [share1_0, share1_1, share1_2, share1_3, hq0, hq1, hq2]
  rw [show dat.arrAt 0 cfg1.N = V' main_v4 from ((dat.arrAt_in 0 rfl _).trans (hA 0)).trans h4.symm,
    show dat.arrAt 1 cfg1.N = V' main_v4 from ((dat.arrAt_in 1 rfl _).trans (hA 1)).trans h4.symm,
    show dat.arrAt 2 cfg1.N = V' main_v4 from ((dat.arrAt_in 2 rfl _).trans (hA 2)).trans h4.symm,
    show dat.arrAt 3 cfg1.N = V' main_v5 from h5.symm]
  show iprop((((c.tc : Thread nD τ).loc main_v4) ↦{fullShare.left} V' main_v4) ∗ (((c.tc : Thread nD τ).loc main_v4) ↦{fullShare.right.left} V' main_v4)
        ∗ (((c.tc : Thread nD τ).loc main_v4) ↦{fullShare.right.right} V' main_v4) ∗ (((c.tc : Thread nD τ).loc main_v5) ↦{fullShare} V' main_v5))
    ⊢ iprop((((c.tc : Thread nD τ).loc main_v4) ↦{fullShare} V' main_v4) ∗ (((c.tc : Thread nD τ).loc main_v5) ↦{fullShare} V' main_v5))
  iintro ⟨Ha, Hb, Hc, H5⟩
  ihave Hr := (pointsTo_share (PosShare.mem_left_op_right fullShare.right)).2 $$ [Hb Hc]
  · isplitl [Hb]; · iexact Hb
    iexact Hc
  ihave H4 := (pointsTo_share (PosShare.mem_left_op_right fullShare)).2 $$ [Ha Hr]
  · isplitl [Ha]; · iexact Ha
    iexact Hr
  isplitl [H4]; · iexact H4
  iexact H5

end Shares1

end Cert.Kernel.Hand

end
-- ==== Proof.K.R1Inv.lean ====
/-
  The attention region's invariant at its two ends: before the first point it is the class's plain one, which the
  launch hands over; after any later point it gives the class's back, forgetting what the carried buffers hold.
-/
import proofs.«104880_j49323404427787_2_alg».proof.Proof.K.R1Data

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, He, HS0, HS1, HS2⟩, Hg⟩
  isplitl [Ha Hb Hc Hd He HS0 HS1 HS2]
  · isplitl [Ha]; · iexact Ha
    isplitl [Hb]; · iexact Hb
    isplitl [Hc]; · iexact Hc
    isplitl [Hd]; · iexact Hd
    isplitl [He]; · iexact He
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 128 := N_1; omega)

end Region1

end Cert.Kernel.Hand

end
-- ==== Proof.K.R1Unscoped.lean ====
import proofs.«104880_j49323404427787_2_alg».proof.Proof.K.R1Shares

/-! # The attention region's arrays among the core's unscoped buffers

A thread state that tracks every unscoped buffer at a valuation gives the attention region its arrays on entry and
takes them back on exit. The unscoped buffers are the two buffers behind the region's windows and the rest; the two
buffers are dealt to the windows on entry and joined on exit; the rest is untouched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Unscoped1
variable (V : (c : Dev nD) → (b : Ref sig .tc) → Buf (Elt F) ((c : Thread nD τ).loc b))

/-- A core's unscoped buffers are the two buffers behind the region's windows and the rest. -/
theorem unscopedBufs_split1 (c : Dev nD) (W : (b : Ref sig .tc) → Buf (Elt F) ((c : Thread nD τ).loc b)) :
    (unscopedBufs c W : sProp 𝕄) = iprop((Pipeline.arrBufs spec1 c W : sProp 𝕄) ∗ Pipeline.unscopedRest spec1 c W) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- ON ENTRY: the unscoped buffers at the entry contents are the windows' arrays, each at its share, and the rest. -/
theorem arrays_of_unscopedBufs1_of {c : Dev nD} (dat : Dat τ (Elt F) Unit ℕ (UR sig nD τ) ℕ cfg1 c)
    (hA : ∀ w, dat.A w = V c (Pipeline.arrRef spec1 w))
    (hq0 : dat.q 0 = fullShare.left) (hq1 : dat.q 1 = fullShare.right.left) (hq2 : dat.q 2 = fullShare.right.right) :
    (unscopedBufs c (V c) : sProp 𝕄) ⊢ iprop(dat.arrays (dat.arrAt · 0) ∗ Pipeline.unscopedRest spec1 c (V c)) := by
  rw [unscopedBufs_split1]
  exact sep_mono (deal1_of V dat hA hq0 hq1 hq2) .rfl

/-- ON EXIT: the windows' arrays as the run left them and the rest as entered are the unscoped buffers at any contents
    `V'` that keep the shared input array, hold the output array at what the run left, and agree with the entry
    contents everywhere else. -/
theorem unscopedBufs_of_arrays1_of {c : Dev nD} (dat : Dat τ (Elt F) Unit ℕ (UR sig nD τ) ℕ cfg1 c)
    (hA : ∀ w, dat.A w = V c (Pipeline.arrRef spec1 w))
    (hq0 : dat.q 0 = fullShare.left) (hq1 : dat.q 1 = fullShare.right.left) (hq2 : dat.q 2 = fullShare.right.right)
    (V' : (b : Ref sig .tc) → Buf (Elt F) ((c : Thread nD τ).loc b))
    (h4 : V' main_v4 = V c main_v4) (h5 : V' main_v5 = dat.arrAt 3 cfg1.N)
    (hrest : ∀ b, b ∉ Finset.univ.image (Pipeline.arrRef spec1) → V' b = V c b) :
    iprop(dat.arrays (dat.arrAt · cfg1.N) ∗ Pipeline.unscopedRest spec1 c (V c)) ⊢ (unscopedBufs c V' : sProp 𝕄) := by
  rw [unscopedBufs_split1]
  refine sep_mono (join1_of V dat hA hq0 hq1 hq2 V' h4 h5) (Entails.of_eq ?_)
  unfold Pipeline.unscopedRest
  exact bigSep_congr fun b hb => by rw [hrest b (Finset.mem_sdiff.mp hb).2]

end Unscoped1

end Cert.Kernel.Hand

end
-- ==== Proof.K.Run.lean ====
/-
  The program's run: the entry function as four segments — the first host stretch, the projection region, the reshape,
  the attention region — and, from them, that every weakly fair execution from any launch memory terminates without
  a fault in a state where every unscoped buffer of every core holds the last boundary's contents: each argument as
  launched, the result array at what the attention region's write-backs fold to.

  A region is entered from "every unscoped buffer held at the boundary's contents, the generator register at some
  state, nothing owed" and left at the same with the next boundary's contents. The projection region's arrays are
  distinct buffers, split out of the unscoped buffers and put back whole. The attention region reads ONE array through
  three windows: that buffer's full share is dealt among them at entry and joined again at exit, its contents
  unchanged; only the output array's buffer is held whole.
-/
import proofs.«104880_j49323404427787_2_alg».proof.Proof.K.RunData
import proofs.«104880_j49323404427787_2_alg».proof.Proof.K.R1Shares
import proofs.«104880_j49323404427787_2_alg».proof.Proof.K.R1Inv
import proofs.«104880_j49323404427787_2_alg».proof.Proof.K.R1Unscoped

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The projection region as a segment -/

set_option backward.isDefEq.respectTransparency.types false in
/-- Entered from every unscoped buffer at `B1`, left at `B2`. -/
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region as a segment -/

/-- Every buffer that is no array of the region holds at its exit what it held at its entry. -/
theorem hrest1 (c : Dev nD) : ∀ b, b ∉ Finset.univ.image (Pipeline.arrRef spec1) → E4 m ρ c b = E3 m ρ c b :=
  fun b hb => B4_of_ne m ρ c b fun e => hb (e ▸ Finset.mem_image.mpr ⟨3, Finset.mem_univ _, rfl⟩)

set_option backward.isDefEq.respectTransparency.types false in
/-- Entered from every unscoped buffer at `B3`, left at `B4`; the body obligation at every point is taken as given. -/
def reg1 (hb1 : ∀ c : Dev nD, BodyObligation (dat1 (F := F) (E3 m ρ) c) (defs₀ (F := F)) Variants.none () Set.univ) : Pipeline.RegionSeg (pcfgs (F := F)) adm (pdats m ρ) () defs₀ 𝒱₀ Lz lvz 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ Lz lvz 1 fun _ _ => rfl
  pre c := iprop(StableHlo.held (c : Thread nD τ) (Pipeline.ucRefs τ sig) (B3 m ρ c) ∗ Rd c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := arrays_of_unscopedBufs1_of (E3 m ρ) (pdats m ρ 1 c) (A_eq1 (E3 m ρ) c) (by dsimp only [pdats, dat1]) (by dsimp only [pdats, dat1]) (by dsimp only [pdats, dat1])
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (E3 m ρ) c).trans ?_
    unfold Pipeline.ΦA
    iintro ⟨Hr, Hp⟩
    isplitl [Hp]; · iexact Hp
    isplitr; · iempintro
    iexact Hr
  hexit c := by
    have hjoin := unscopedBufs_of_arrays1_of (E3 m ρ) (pdats m ρ 1 c) (A_eq1 (E3 m ρ) c) (by dsimp only [pdats, dat1]) (by dsimp only [pdats, dat1]) (by dsimp only [pdats, dat1])
      (E4 m ρ c) (B4_of_ne m ρ c main_v4 (by decide)) (B4_v5 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the run -/

/-- The four segments in order. -/
abbrev segs (hb1 : ∀ c : Dev nD, BodyObligation (dat1 (F := F) (E3 m ρ) c) (defs₀ (F := F)) Variants.none () Set.univ) : List (Pipeline.Seg (pcfgs (F := F)) adm (pdats m ρ) () defs₀ 𝒱₀ Lz lvz) :=
  [ .host (hseg hostOps0 hostOps0_sub hostOps0_fresh (B0 m ρ)),
    .region (reg0 m ρ),
    .host (hseg hostOps1 hostOps1_sub hostOps1_fresh (B2 m ρ)),
    .region (reg1 m ρ hb1) ]
/-- The entry function IS the run of the segments. -/
theorem main_run (hb1 : ∀ c : Dev nD, BodyObligation (dat1 (F := F) (E3 m ρ) c) (defs₀ (F := F)) Variants.none () Set.univ) (c : Dev nD) : main (F := F) c = Pipeline.Seg.run (segs m ρ hb1) := (main_chain c).trans (by chain_rfl)

set_option backward.isDefEq.respectTransparency.types false in
/-- THE RUN. From any memory with zero counters every weakly fair execution of the entry function on the cores
    terminates, nothing faulting, and in every final state every unscoped buffer of every core holds the last
    boundary's contents. -/
theorem run_all (hb1 : ∀ c : Dev nD, BodyObligation (dat1 (F := F) (E3 m ρ) c) (defs₀ (F := F)) Variants.none () Set.univ) : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ Lz lvz m ρ main (segs m ρ hb1)
    (fun c Q => by rw [main_run m ρ hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := Tn m ρ)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The frame: every argument array ends as launched. -/
theorem frame_all (hb1 : ∀ c : Dev nD, BodyObligation (dat1 (F := F) (E3 m ρ) c) (defs₀ (F := F)) Variants.none () Set.univ) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B4_main_arg0 m ρ c), (h c _ (mem_uc main_arg1 (by decide))).trans (B4_main_arg1 m ρ c),
     (h c _ (mem_uc main_arg2 (by decide))).trans (B4_main_arg2 m ρ c), (h c _ (mem_uc main_arg3 (by decide))).trans (B4_main_arg3 m ρ c)⟩) (run_all m ρ hb1)

/-- The same run with the result array named too. -/
theorem run_valued (hb1 : ∀ c : Dev nD, BodyObligation (dat1 (F := F) (E3 m ρ) c) (defs₀ (F := F)) Variants.none () Set.univ) : θ_run defs (onTc (τ := τ) (main (F := F))) ⟨m, fun _ => 0, ρ⟩ (fun r => ∀ c : Dev nD,
      r.2.mem ((c.tc : Thread nD τ).loc main_v5) = out5 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (B4_v5 m ρ c),
     (h c _ (mem_uc main_arg0 (by decide))).trans (B4_main_arg0 m ρ c), (h c _ (mem_uc main_arg1 (by decide))).trans (B4_main_arg1 m ρ c),
     (h c _ (mem_uc main_arg2 (by decide))).trans (B4_main_arg2 m ρ c), (h c _ (mem_uc main_arg3 (by decide))).trans (B4_main_arg3 m ρ c)⟩) (run_all m ρ hb1)

end Cert.Kernel.Hand

end
-- ==== Proof.K.R1BodyA0.lean ====
/-
  The attention region's body obligation at the very first grid point (a first key tile; nothing is known of the carried buffers).
-/
import proofs.«104880_j49323404427787_2_alg».proof.Proof.K.R1Data

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 4000000 in
/-- The body at the very first grid point (a first key tile; nothing is known of the carried buffers): the inputs' memrefs hold their blocks, the invariant hands the body the three carried
    buffers and takes them back at this point's contents. -/
theorem sound_body1_A0 (c : Dev nD) (t : Fin cfg1.N) (h0 : t.val % 8 = 0) (h1 : ¬t.val % 8 = 7) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0,
    show (dat1 V c).leavesExact 1 t = owns (c : Thread nD τ) (ms1_1 t) fullShare ((dat1 V c).after 1 t) from by
    unfold Dat.leavesExact; rw [liveAt1_1 t], after1_1,
    show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [outsAt1_zero V c t hz, stepAt1_A V c t _ h0 h1]
  dsimp only
  rw [PhiS1_castSucc V c t, PhiS1_zero V c _ _ hz, PhiA1_eq]
  iintro ⟨⟨⟨Ha, Hb, Hc, Hd, He, HS0, HS1, HS2⟩, Hg⟩, Ho, ⟨%d0, H0⟩, ⟨%d1, H1⟩, ⟨%d2, H2⟩, ⟨%d3, H3⟩⟩
  iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [Ha Hb Hc Hd He HS0 HS1 HS2 Hg]
  · isplitl [Ha Hb Hc Hd He HS0 HS1 HS2]
    · isplitl [Ha]; · iexact Ha
      isplitl [Hb]; · iexact Hb
      isplitl [Hc]; · iexact Hc
      isplitl [Hd]; · iexact Hd
      isplitl [He]; · iexact He
      isplitl [HS0]
      · unfold owns; iexists _; isplitr
        swap; · iexact HS0
        ipureintro; exact View.read_writes_eq_canon _ _ _ (scover1_A_0 V c t ((hcond1_0 t).mpr h0) (fun h => h1 ((hcond1_1 t).mp h)))
      isplitl [HS1]
      · unfold owns; iexists _; isplitr
        swap; · iexact HS1
        ipureintro; exact View.read_writes_eq_canon _ _ _ (scover1_A_1 V c t ((hcond1_0 t).mpr h0) (fun h => h1 ((hcond1_1 t).mp h)))
      unfold owns; iexists _; isplitr
      swap; · iexact HS2
      ipureintro; exact View.read_writes_eq_canon _ _ _ (scover1_A_2 V c t ((hcond1_0 t).mpr h0) (fun h => h1 ((hcond1_1 t).mp h)))
    iexact Hg
  isplitl [Ho]; · iexact Ho
  isplitl [H0]; · iexact H0
  isplitl [H1]; · iexact H1
  isplitl [H2]; · iexact H2
  iexists _; iexact H3

end Region1

end Cert.Kernel.Hand

end
-- ==== Proof.K.R1BodyA.lean ====
/-
  The attention region's body obligation at a first key tile that is not the first grid point.
-/
import proofs.«104880_j49323404427787_2_alg».proof.Proof.K.R1Data

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 4000000 in
/-- The body at a first key tile that is not the first grid point: the inputs' memrefs hold their blocks, the invariant hands the body the three carried
    buffers and takes them back at this point's contents. -/
theorem sound_body1_A (c : Dev nD) (t : Fin cfg1.N) (h0 : t.val % 8 = 0) (h1 : ¬t.val % 8 = 7) (hz : ¬t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0,
    show (dat1 V c).leavesExact 1 t = owns (c : Thread nD τ) (ms1_1 t) fullShare ((dat1 V c).after 1 t) from by
    unfold Dat.leavesExact; rw [liveAt1_1 t], after1_1,
    show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [outsAt1_pos V c t hz, stepAt1_A V c t _ h0 h1]
  dsimp only
  rw [PhiS1_castSucc V c t, PhiS1_pos V c _ _ hz]
  iintro ⟨⟨⟨Ha, Hb, Hc, Hd, He, HS0, HS1, HS2⟩, Hg⟩, Ho, ⟨%d0, H0⟩, ⟨%d1, H1⟩, ⟨%d2, H2⟩, ⟨%d3, H3⟩⟩
  iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  isplitl [HS2]; · iexists _; iexact HS2
  iintro ⟨H0, H1, H2, H3, ⟨%es0, HS0⟩, ⟨%es1, HS1⟩, ⟨%es2, HS2⟩⟩
  isplitl [Ha Hb Hc Hd He HS0 HS1 HS2 Hg]
  · isplitl [Ha Hb Hc Hd He HS0 HS1 HS2]
    · isplitl [Ha]; · iexact Ha
      isplitl [Hb]; · iexact Hb
      isplitl [Hc]; · iexact Hc
      isplitl [Hd]; · iexact Hd
      isplitl [He]; · iexact He
      isplitl [HS0]
      · unfold owns; iexists _; isplitr
        swap; · iexact HS0
        ipureintro; exact View.read_writes_eq_canon _ _ _ (scover1_A_0 V c t ((hcond1_0 t).mpr h0) (fun h => h1 ((hcond1_1 t).mp h)))
      isplitl [HS1]
      · unfold owns; iexists _; isplitr
        swap; · iexact HS1
        ipureintro; exact View.read_writes_eq_canon _ _ _ (scover1_A_1 V c t ((hcond1_0 t).mpr h0) (fun h => h1 ((hcond1_1 t).mp h)))
      unfold owns; iexists _; isplitr
      swap; · iexact HS2
      ipureintro; exact View.read_writes_eq_canon _ _ _ (scover1_A_2 V c t ((hcond1_0 t).mpr h0) (fun h => h1 ((hcond1_1 t).mp h)))
    iexact Hg
  isplitl [Ho]; · iexact Ho
  isplitl [H0]; · iexact H0
  isplitl [H1]; · iexact H1
  isplitl [H2]; · iexact H2
  iexists _; iexact H3

end Region1

end Cert.Kernel.Hand

end
-- ==== Proof.K.R1BodyB.lean ====
/-
  The attention region's body obligation at a middle key tile.
-/
import proofs.«104880_j49323404427787_2_alg».proof.Proof.K.R1Data

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 4000000 in
/-- The body at a middle key tile: the inputs' memrefs hold their blocks, the invariant hands the body the three carried
    buffers and takes them back at this point's contents. -/
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  have hz : t.val ≠ 0 := fun e => h0 (by rw [e])
  rw [show (dat1 V c).leavesExact 0 t = owns (c : Thread nD τ) (ms1_0 t) fullShare ((dat1 V c).after 0 t) from by
    unfold Dat.leavesExact; rw [liveAt1_0 t], after1_0,
    show (dat1 V c).leavesExact 1 t = owns (c : Thread nD τ) (ms1_1 t) fullShare ((dat1 V c).after 1 t) from by
    unfold Dat.leavesExact; rw [liveAt1_1 t], after1_1,
    show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
  rw [outsAt1_pos V c t hz, stepAt1_B V c t _ h0 h1]
  dsimp only
  rw [PhiS1_castSucc V c t, PhiS1_pos V c _ _ hz]
  iintro ⟨⟨⟨Ha, Hb, Hc, Hd, He, HS0, HS1, HS2⟩, Hg⟩, Ho, ⟨%d0, H0⟩, ⟨%d1, H1⟩, ⟨%d2, H2⟩, ⟨%d3, H3⟩⟩
  iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [Ha Hb Hc Hd He HS0 HS1 HS2 Hg]
  · isplitl [Ha Hb Hc Hd He HS0 HS1 HS2]
    · isplitl [Ha]; · iexact Ha
      isplitl [Hb]; · iexact Hb
      isplitl [Hc]; · iexact Hc
      isplitl [Hd]; · iexact Hd
      isplitl [He]; · iexact He
      isplitl [HS0]
      · unfold owns; iexists _; isplitr
        swap; · iexact HS0
        ipureintro; exact View.read_writes_eq_canon _ _ _ (scover1_B_0 V c t (fun h => h0 ((hcond1_0 t).mp h)) (fun h => h1 ((hcond1_1 t).mp h)) (outsAt1 V c (t.val - 1) (Nat.lt_of_le_of_lt (Nat.sub_le _ _) t.isLt)).2)
      isplitl [HS1]
      · unfold owns; iexists _; isplitr
        swap; · iexact HS1
        ipureintro; exact View.read_writes_eq_canon _ _ _ (scover1_B_1 V c t (fun h => h0 ((hcond1_0 t).mp h)) (fun h => h1 ((hcond1_1 t).mp h)) (outsAt1 V c (t.val - 1) (Nat.lt_of_le_of_lt (Nat.sub_le _ _) t.isLt)).2)
      unfold owns; iexists _; isplitr
      swap; · iexact HS2
      ipureintro; exact View.read_writes_eq_canon _ _ _ (scover1_B_2 V c t (fun h => h0 ((hcond1_0 t).mp h)) (fun h => h1 ((hcond1_1 t).mp h)) (outsAt1 V c (t.val - 1) (Nat.lt_of_le_of_lt (Nat.sub_le _ _) t.isLt)).2)
    iexact Hg
  isplitl [Ho]; · iexact Ho
  isplitl [H0]; · iexact H0
  isplitl [H1]; · iexact H1
  isplitl [H2]; · iexact H2
  iexists _; iexact H3

end Region1

end Cert.Kernel.Hand

end
-- ==== Proof.K.R1BodyC.lean ====
/-
  The attention region's body obligation at a last key tile.
-/
import proofs.«104880_j49323404427787_2_alg».proof.Proof.K.R1Data

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 4000000 in
/-- The body at a last key tile: the inputs' memrefs hold their blocks, the invariant hands the body the three carried
    buffers and takes them back at this point's contents. -/
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  have hz : t.val ≠ 0 := fun e => h0 (by rw [e])
  rw [show (dat1 V c).leavesExact 0 t = owns (c : Thread nD τ) (ms1_0 t) fullShare ((dat1 V c).after 0 t) from by
    unfold Dat.leavesExact; rw [liveAt1_0 t], after1_0,
    show (dat1 V c).leavesExact 1 t = owns (c : Thread nD τ) (ms1_1 t) fullShare ((dat1 V c).after 1 t) from by
    unfold Dat.leavesExact; rw [liveAt1_1 t], after1_1,
    show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3_C t (fun h => h0 ((hcond1_0 t).mp h)) ((hcond1_1 t).mpr h1)], after1_3]
  rw [outsAt1_pos V c t hz, stepAt1_C V c t _ h0 h1]
  dsimp only
  rw [PhiS1_castSucc V c t, PhiS1_pos V c _ _ hz]
  iintro ⟨⟨⟨Ha, Hb, Hc, Hd, He, HS0, HS1, HS2⟩, Hg⟩, Ho, ⟨%d0, H0⟩, ⟨%d1, H1⟩, ⟨%d2, H2⟩, ⟨%d3, H3⟩⟩
  iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [Ha Hb Hc Hd He HS0 HS1 HS2 Hg]
  · isplitl [Ha Hb Hc Hd He HS0 HS1 HS2]
    · isplitl [Ha]; · iexact Ha
      isplitl [Hb]; · iexact Hb
      isplitl [Hc]; · iexact Hc
      isplitl [Hd]; · iexact Hd
      isplitl [He]; · iexact He
      isplitl [HS0]
      · unfold owns; iexists _; isplitr
        swap; · iexact HS0
        ipureintro; exact View.read_writes_eq_canon _ _ _ (scover1_C_0 V c t (fun h => h0 ((hcond1_0 t).mp h)) ((hcond1_1 t).mpr h1) (outsAt1 V c (t.val - 1) (Nat.lt_of_le_of_lt (Nat.sub_le _ _) t.isLt)).2)
      isplitl [HS1]
      · unfold owns; iexists _; isplitr
        swap; · iexact HS1
        ipureintro; exact View.read_writes_eq_canon _ _ _ (scover1_C_1 V c t (fun h => h0 ((hcond1_0 t).mp h)) ((hcond1_1 t).mpr h1) (outsAt1 V c (t.val - 1) (Nat.lt_of_le_of_lt (Nat.sub_le _ _) t.isLt)).2)
      unfold owns; iexists _; isplitr
      swap; · iexact HS2
      ipureintro; exact View.read_writes_eq_canon _ _ _ (scover1_C_2 V c t (fun h => h0 ((hcond1_0 t).mp h)) ((hcond1_1 t).mpr h1) (outsAt1 V c (t.val - 1) (Nat.lt_of_le_of_lt (Nat.sub_le _ _) t.isLt)).2)
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (cover1_C_3 V c t (fun h => h0 ((hcond1_0 t).mp h)) ((hcond1_1 t).mpr h1) (outsAt1 V c (t.val - 1) (Nat.lt_of_le_of_lt (Nat.sub_le _ _) t.isLt)).2)

end Region1

end Cert.Kernel.Hand

end
-- ==== Proof.K.R1Frame.lean ====
/-
  The attention region, last part of its frame half: the body obligation at every grid point, from the four cases
  a point can be in, and how the invariant is entered and left.
-/
import proofs.«104880_j49323404427787_2_alg».proof.Proof.K.R1BodyA0
import proofs.«104880_j49323404427787_2_alg».proof.Proof.K.R1BodyA
import proofs.«104880_j49323404427787_2_alg».proof.Proof.K.R1BodyB
import proofs.«104880_j49323404427787_2_alg».proof.Proof.K.R1BodyC

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The body at any point: its position modulo 8 says which case it is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · have h1 : ¬t.val % 8 = 7 := by omega
    by_cases hz : t.val = 0
    · exact sound_body1_A0 V c t h0 h1 hz
    · exact sound_body1_A V c t h0 h1 hz
  · by_cases h1 : t.val % 8 = 7
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KI.Region0.lean ====
import proofs.«104880_j49323404427787_2_alg».proof.Proof.Gen.KernelIdeal.Launch
import proofs.«104880_j49323404427787_2_alg».proof.Proof.Gen.KernelIdeal.Skeleton
import proofs.«104880_j49323404427787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first region: the fused projection, at any float instance

The first region multiplies a row tile of the activations (512 rows of 1024 entries) by the whole weight
matrix (1024 by 3072) and writes the 512 by 3072 product, rounded to the narrow type, over its output tile.
Everything here is stated at a parameter `V`, the contents of the unscoped buffers when the region is entered.
We say what each window's tile is at each grid point, what the body leaves in the output tile as a function
of the two input tiles, prove the body's triple, and from it the obligation the pipeline's frame theorem asks
of a body at every grid point. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The tiles -/

/-- The tile of window `w` at grid point `t`: the window's array, as the region finds it, read through the
    rectangle the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the activations' tile at every point. A point that fetches puts the
    tile there; a point that does not has the same tile index as the point before, and the body left the buffer
    as it found it. Holds for any proof data reading the array `V` gives and keeping the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights, whose one tile is the whole matrix: it is fetched at the first point only, and
    every later point finds it where the first left it, the tile index never moving. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each staging buffer whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-! ## What the body leaves in the output tile -/

/-- The output tile after the body, as a function of the two input tiles: the body stores once, over the whole
    tile, the rounded product of the two tiles it loaded whole. -/
def out0_2 (x0 : Vec F S512x1024 .f32) (x1 : Vec F S1024x3072 .bf16) : Vec F S512x3072 .bf16 :=
  View.canon [⟨r0_2, k0_pay1 (View.ld x0 r0_0) (View.ld x1 r0_1)⟩]

/-- The one store is of the whole tile, so every index of the tile lies under it. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

/-! ## The body's triple -/

set_option maxHeartbeats 1000000 in
/-- The body, run on three whole staging buffers — the inputs' holding `x0` and `x1`, the output's holding
    anything — ends with the inputs' unchanged and the output's holding `out0_2 x0 x1`: two whole loads, a load
    of the output tile whose value is not used, and one whole store. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The region's proof data on core `c`. The arrays are what the region finds (`V`). After the body at point
    `t` each input's staging buffer still holds its tile, and the output's holds `out0_2` of the two input tiles.
    The invariant is the one that leaves everything outside the windows untouched; every share is full and nothing
    is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its tile when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`: the invariant, the core's debt, and the three staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their tiles, so the body's triple applies; the invariant and
    the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline's frame theorem asks of the body, at every grid point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.RunData0.lean ====
/-
  The program's run, first part: what every unscoped buffer of a core holds at the launch, after the first stretch of
  host operations (the weights concatenated and narrowed, the input reshaped to rows), after the projection region
  (its output array at what its write-backs fold to, every other buffer unchanged) and after the reshape of its
  result, which is what the attention region is entered with.
-/
import proofs.«104880_j49323404427787_2_alg».proof.Proof.KI.Region0
import proofs.«104880_j49323404427787_2_alg».proof.Proof.Gen.KernelIdeal.Regions
import Idealize.ShloMosaic.Lib.Pipeline.RegionsLoop

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first host stretch: the projection region's entry. -/
abbrev B1 : Dev nD → Valuation τ sig (Elt F) := fun c => StableHlo.after hostOps0 (B0 m ρ c)
/-- The same read at the core's references. -/
abbrev E1 : (c : Dev nD) → (b : Ref sig .tc) → Buf (Elt F) ((c : Thread nD τ).loc b) := fun c b => B1 m ρ c b
/-- At the projection region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the reshape of the projections: the attention region's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
end Cert.KernelIdeal.Hand

end
-- ==== Proof.KI.R1Base.lean ====
/-
  The attention region (the second kernel launch), first part: what its proof is stated over.

  The grid is (batch, query tile, key tile) = (4, 4, 8), the key tile innermost. At a point the kernel holds one
  query tile of 1024 rows, one key tile and one value tile of 512 rows each, all read from the one fused
  projection array (column blocks 0, 1 and 2 of its last axis), and an output tile of 1024 rows. Three buffers of
  its own are carried from one key tile to the next: the running row maximum, the running sum of weights and the
  running weighted sum of values. They are reset at the first key tile (the point's position is 0 modulo 8) and the
  output tile is stored, and written back, only at the last (7 modulo 8); at the other points the output buffer is
  handed back untouched.
-/
import proofs.«104880_j49323404427787_2_alg».proof.Proof.Gen.KernelIdeal.Launch
import proofs.«104880_j49323404427787_2_alg».proof.Proof.Gen.KernelIdeal.Skeleton
import proofs.«104880_j49323404427787_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its block at every point, fetched there or not (it is fetched at the first key
    tile only; at the others its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions, in closed form over the grid -/

/-- "This is the first key tile": the condition under which the three carried buffers are reset. -/
abbrev cond1_0 (i : grid1.Coords) : Prop := (Scalar.cmpi .ne (Scalar.extui (Scalar.cmpi .eq (BitVec.ofNat 32 (i 2).val) 0#32)) 0#32) = 1#1
/-- It holds at the points whose position is 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last key tile": the condition under which the output tile is stored. -/
abbrev cond1_1 (i : grid1.Coords) : Prop := k1_cond2 i = 1#1
/-- It holds at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first key tile the output window is idle and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a middle key tile likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last key tile the output window is live: the body stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three carried buffers: the running maximum, the running sum of weights, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The scoped buffers of the core that this region does not stage, the carried three apart: the first
    region's five staging buffers, each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The class's invariant (every scoped buffer the region does not stage at some contents, the generator register at
    some state) with the three carried buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.R1RunA.lean ====
/-
  The attention kernel's body run as a whole in one of its three control cases: the first key tile — the three carried buffers are reset, one tile is folded in, nothing is stored into the output buffer, which is handed back as found.
  The run is stated on any whole staging memrefs and carried buffers; what each stored buffer ends with is recorded
  as the list of its stores (the last first), found when the run hands the buffer to the continuation.
-/
import proofs.«104880_j49323404427787_2_alg».proof.Proof.KI.R1Base

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- the first key tile — the three carried buffers are reset, one tile is folded in, nothing is stored into the output buffer, which is handed back as found. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 : Vec F S1x1024x1024 .bf16) (x1 : Vec F S1x512x1024 .bf16) (x2 : Vec F S1x512x1024 .bf16) :
    Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1RunB.lean ====
/-
  The attention kernel's body run as a whole in one of its three control cases: a middle key tile — one tile is folded into the three carried buffers, found at what the point before left; nothing is stored into the output buffer, which is handed back as found.
  The run is stated on any whole staging memrefs and carried buffers; what each stored buffer ends with is recorded
  as the list of its stores (the last first), found when the run hands the buffer to the continuation.
-/
import proofs.«104880_j49323404427787_2_alg».proof.Proof.KI.R1RunA

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- a middle key tile — one tile is folded into the three carried buffers, found at what the point before left; nothing is stored into the output buffer, which is handed back as found. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1RunC.lean ====
/-
  The attention kernel's body run as a whole in one of its three control cases: the last key tile — one tile is folded into the three carried buffers, found at what the point before left, and the output tile is stored: the weighted sum divided by the sum of weights.
  The run is stated on any whole staging memrefs and carried buffers; what each stored buffer ends with is recorded
  as the list of its stores (the last first), found when the run hands the buffer to the continuation.
-/
import proofs.«104880_j49323404427787_2_alg».proof.Proof.KI.R1RunB

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- the last key tile — one tile is folded into the three carried buffers, found at what the point before left, and the output tile is stored: the weighted sum divided by the sum of weights. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R1Data.lean ====
/-
  The attention region: what the carried buffers and the output tile hold point by point, and the proof data.

  What a point leaves is the case's run at that point's memrefs and input blocks, over what the point before left
  in the three carried buffers (a first key tile ignores it: it resets them). Each stored buffer is covered by its
  stores, so it reads back as the canon of the list of stores, whatever it held before. Between points the invariant
  holds the three carried buffers at what the last point left; before the first point it is the class's plain one.
-/
import proofs.«104880_j49323404427787_2_alg».proof.Proof.KI.R1RunC

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## Each case's stores cover the buffers it stores into -/

theorem scover1_A_0 (c : Dev nD) (t : Fin cfg1.N) (h0 : cond1_0 (grid1.coords t)) (h1 : ¬cond1_1 (grid1.coords t)) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t)).1, y ∈ pc.1.set :=
  View.cover_of_tiledL _ S1024x1.size (by sl_kernel_rfl) y
theorem scover1_A_1 (c : Dev nD) (t : Fin cfg1.N) (h0 : cond1_0 (grid1.coords t)) (h1 : ¬cond1_1 (grid1.coords t)) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t)).2.1, y ∈ pc.1.set :=
  View.cover_of_tiledL _ S1024x1.size (by sl_kernel_rfl) y
theorem scover1_A_2 (c : Dev nD) (t : Fin cfg1.N) (h0 : cond1_0 (grid1.coords t)) (h1 : ¬cond1_1 (grid1.coords t)) (y : S1024x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t)).2.2.1, y ∈ pc.1.set :=
  View.cover_of_tiledL _ S1024x1024.size (by sl_kernel_rfl) y

theorem scover1_B_0 (c : Dev nD) (t : Fin cfg1.N) (h0 : ¬cond1_0 (grid1.coords t)) (h1 : ¬cond1_1 (grid1.coords t)) (p : Vec F S1024x1 .f32 × Vec F S1024x1 .f32 × Vec F S1024x1024 .f32) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).1, y ∈ pc.1.set :=
  View.cover_of_tiledL _ S1024x1.size (by sl_kernel_rfl) y
theorem scover1_B_1 (c : Dev nD) (t : Fin cfg1.N) (h0 : ¬cond1_0 (grid1.coords t)) (h1 : ¬cond1_1 (grid1.coords t)) (p : Vec F S1024x1 .f32 × Vec F S1024x1 .f32 × Vec F S1024x1024 .f32) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).2.1, y ∈ pc.1.set :=
  View.cover_of_tiledL _ S1024x1.size (by sl_kernel_rfl) y
theorem scover1_B_2 (c : Dev nD) (t : Fin cfg1.N) (h0 : ¬cond1_0 (grid1.coords t)) (h1 : ¬cond1_1 (grid1.coords t)) (p : Vec F S1024x1 .f32 × Vec F S1024x1 .f32 × Vec F S1024x1024 .f32) (y : S1024x1024.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).2.2.1, y ∈ pc.1.set :=
  View.cover_of_tiledL _ S1024x1024.size (by sl_kernel_rfl) y

theorem cover1_C_3 (c : Dev nD) (t : Fin cfg1.N) (h0 : ¬cond1_0 (grid1.coords t)) (h1 : cond1_1 (grid1.coords t)) (p : Vec F S1024x1 .f32 × Vec F S1024x1 .f32 × Vec F S1024x1024 .f32) (y : S1x1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).1, y ∈ pc.1.set :=
  View.cover_of_tiledL _ S1x1024x1024.size (by sl_kernel_rfl) y
theorem scover1_C_0 (c : Dev nD) (t : Fin cfg1.N) (h0 : ¬cond1_0 (grid1.coords t)) (h1 : cond1_1 (grid1.coords t)) (p : Vec F S1024x1 .f32 × Vec F S1024x1 .f32 × Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).2.1, y ∈ pc.1.set :=
  View.cover_of_tiledL _ S1024x1.size (by sl_kernel_rfl) y
theorem scover1_C_1 (c : Dev nD) (t : Fin cfg1.N) (h0 : ¬cond1_0 (grid1.coords t)) (h1 : cond1_1 (grid1.coords t)) (p : Vec F S1024x1 .f32 × Vec F S1024x1 .f32 × Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).2.2.1, y ∈ pc.1.set :=
  View.cover_of_tiledL _ S1024x1.size (by sl_kernel_rfl) y
theorem scover1_C_2 (c : Dev nD) (t : Fin cfg1.N) (h0 : ¬cond1_0 (grid1.coords t)) (h1 : cond1_1 (grid1.coords t)) (p : Vec F S1024x1 .f32 × Vec F S1024x1 .f32 × Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 (iblk1 V c 0 t) (iblk1 V c 1 t) (iblk1 V c 2 t) p.1 p.2.1 p.2.2).2.2.2.1, y ∈ pc.1.set :=
  View.cover_of_tiledL _ S1024x1024.size (by sl_kernel_rfl) y

/-! ## What one point leaves -/

/-- Contents nothing consults: the output component at a point that stores nothing into the output buffer. -/
def noOut : Vec F S1x1024x1024 .f32 := View.canon []

/-- What the body leaves at point `t` — the output tile, then the three carried buffers — given what the point
    before left in the carried three: the case the point's position modulo 8 selects. -/
def stepAt1 (c : Dev nD) (t : Fin cfg1.N) (p : Vec F S1024x1 .f32 × Vec F S1024x1 .f32 × Vec F S1024x1024 .f32) : Vec F S1x1024x1024 .f32 × Vec F S1024x1 .f32 × Vec F S1024x1 .f32 × Vec F S1024x1024 .f32 :=
  if h0 : t.val % 8 = 0 then
    if h1 : t.val % 8 = 7 then False.elim (by omega)
    else (noOut, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).1, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.1, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.1)
  else
    if h1 : t.val % 8 = 7 then
      (View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.2.1)
    else (noOut, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).1, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.1, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.2.1)

theorem stepAt1_A (c : Dev nD) (t : Fin cfg1.N) (p : Vec F S1024x1 .f32 × Vec F S1024x1 .f32 × Vec F S1024x1024 .f32) (h0 : t.val % 8 = 0) (h1 : ¬t.val % 8 = 7) :
    stepAt1 V c t p = (noOut, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).1, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.1, View.canon (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.1) := by
  unfold stepAt1; rw [dif_pos h0, dif_neg h1]
theorem stepAt1_B (c : Dev nD) (t : Fin cfg1.N) (p : Vec F S1024x1 .f32 × Vec F S1024x1 .f32 × Vec F S1024x1024 .f32) (h0 : ¬t.val % 8 = 0) (h1 : ¬t.val % 8 = 7) :
    stepAt1 V c t p = (noOut, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).1, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.1, View.canon (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.2.1) := by
  unfold stepAt1; rw [dif_neg h0, dif_neg h1]
theorem stepAt1_C (c : Dev nD) (t : Fin cfg1.N) (p : Vec F S1024x1 .f32 × Vec F S1024x1 .f32 × Vec F S1024x1024 .f32) (h0 : ¬t.val % 8 = 0) (h1 : t.val % 8 = 7) :
    stepAt1 V c t p = (View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.1, View.canon (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.2.1) := by
  unfold stepAt1; rw [dif_neg h0, dif_pos h1]

/-- Carried contents nothing consults: what "the point before" left, before the first point. -/
def noCarry : Vec F S1024x1 .f32 × Vec F S1024x1 .f32 × Vec F S1024x1024 .f32 := (View.canon [], View.canon [], View.canon [])

/-- THE ACCUMULATION: what the output buffer and the three carried buffers hold after the body at position `n`. -/
def outsAt1 (c : Dev nD) : (n : ℕ) → n < cfg1.N → Vec F S1x1024x1024 .f32 × Vec F S1024x1 .f32 × Vec F S1024x1 .f32 × Vec F S1024x1024 .f32
  | 0, hn => stepAt1 V c ⟨0, hn⟩ noCarry
  | n + 1, hn => stepAt1 V c ⟨n + 1, hn⟩ (outsAt1 c n (Nat.lt_of_succ_lt hn)).2

/-- At a point that is not the first, over what the point before left. -/
theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨n, hn⟩ := t
  cases n with
  | zero => exact absurd rfl hz
  | succ n => rfl
/-- At the first point. -/
theorem outsAt1_zero (c : Dev nD) (t : Fin cfg1.N) (hz : t.val = 0) : outsAt1 V c t.val t.isLt = stepAt1 V c t noCarry := by
  obtain ⟨n, hn⟩ := t
  cases n with
  | zero => rfl
  | succ n => exact absurd hz (Nat.succ_ne_zero n)

/-! ## The invariant between points -/

/-- Before position `n`: before the first point the class's invariant; afterwards the three carried buffers at what
    the point before left, the other scoped buffers at some contents, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt1 V c n hn).2.1 ∗ owns (c : Thread nD τ) scM1_1 fullShare (outsAt1 V c n hn).2.2.1
          ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt1 V c n hn).2.1 ∗ owns (c : Thread nD τ) scM1_1 fullShare (outsAt1 V c n hn).2.2.1
          ∗ owns (c : Thread nD τ) scM1_2 fullShare (outsAt1 V c n hn).2.2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt1 V c (n - 1) (by omega)).2.1 ∗ owns (c : Thread nD τ) scM1_1 fullShare (outsAt1 V c (n - 1) (by omega)).2.2.1
          ∗ owns (c : Thread nD τ) scM1_2 fullShare (outsAt1 V c (n - 1) (by omega)).2.2.2) ∗ (∃ r, prngReg c r)) := by
  cases n with
  | zero => exact absurd rfl hz
  | succ n => rfl

/-! ## The proof data -/

/-- The region's proof data on core `c`: the arrays as the region finds them; after the body each input's buffer at
    its block and the output's at the accumulation's first component; the invariant above; nothing owed. The three
    input windows read ONE array, so its full share is dealt among them: the query window holds the left half, the
    key and value windows the two halves of the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

end Region1

end Cert.KernelIdeal.Hand

end
-- ==== Proof.KI.RunData.lean ====
/-
  The program's run, second part: the attention region's exit contents (its output array at what its write-backs
  fold to, every other buffer as entered), that every argument array is at the end what it was at the launch, and
  the proof data of the two regions, each at the contents its region is entered with.
-/
import proofs.«104880_j49323404427787_2_alg».proof.Proof.KI.RunData0
import proofs.«104880_j49323404427787_2_alg».proof.Proof.KI.R1Data

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the attention region leaves in its output array: its write-backs folded. -/
def out5 (c : Dev nD) : Buf (Elt F) ((c : Thread nD τ).loc main_v5) := (dat1 (E3 m ρ) c).arrAt 3 cfg1.N
/-- At the attention region's exit: the output array at that, every other buffer as entered (its three input
    windows read one array, which no write-back touches). -/
def B4 (c : Dev nD) : Valuation τ sig (Elt F) := Function.update (B3 m ρ c) (Proc.devRef .tc main_v5) (out5 m ρ c)
theorem B4_v5 (c : Dev nD) : B4 m ρ c (Proc.devRef .tc main_v5) = out5 m ρ c := by
  unfold B4; exact Function.update_self ..
theorem B4_of_ne (c : Dev nD) (b : Ref sig .tc) (hb : b ≠ main_v5) :
    B4 m ρ c (Proc.devRef .tc b) = B3 m ρ c (Proc.devRef .tc b) := by
  unfold B4; exact Function.update_of_ne (StableHlo.devRef_ne_of_ne hb) ..
abbrev E4 : (c : Dev nD) → (b : Ref sig .tc) → Buf (Elt F) ((c : Thread nD τ).loc b) := fun c b => B4 m ρ c b

/-! ## The arguments end as launched -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := B2_of_ne m ρ c main_arg0 (by decide)
    _ = B0 m ρ c (Proc.devRef .tc main_arg0) := StableHlo.after_of_writes_sub hostOps0 _ hostOps0_writes (by decide : main_arg0 ∉ hostOps0_W)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

/-! ## The proof data family and what rides beside the buffers -/

/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state, nothing owed. -/
abbrev Rd (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (B4 m ρ c) ∗ ∃ r, prngReg c r)

end Cert.KernelIdeal.Hand

end
-- ==== Proof.KI.R1Shares.lean ====
import proofs.«104880_j49323404427787_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The attention region's shared input array: dealing its share out and joining it back

The attention region reads its queries, keys and values through three windows of ONE array, and writes its result
through a fourth window of another. On entry the array behind the three input windows is held whole at the full
share; the pipeline wants each window to hold its array at the window's own share. A full share is the composite of
its left and right halves, and the right half again of its own two halves, so the full share of the shared array
splits into three parts, one per input window; an input window never changes its array, so at the end the three
parts, still at the entry contents, compose back to the full share. The output window's array is held at the full
share throughout. Stated for any proof data of the region whose arrays are the entry contents and whose input shares
are those three parts. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares1
variable (V : (c : Dev nD) → (b : Ref sig .tc) → Buf (Elt F) ((c : Thread nD τ).loc b))

/-- The two buffers behind the second region's four windows. -/
theorem arrImage1 : Finset.univ.image (Pipeline.arrRef spec1) = ([main_v4, main_v5] : List (Ref sig .tc)).toFinset := by decide

/-- Each window's array is a whole buffer, so holding the array's elements is holding the buffer. -/
theorem arrays1_eq {c : Dev nD} (dat : Dat τ (Elt F) Unit ℕ (UR sig nD τ) ℕ cfg1 c)
    (G : (w : Fin cfg1.W) → Buf (Elt F) ((cfg1.win w).arr.view.loc (c.tc : Thread nD τ))) :
    dat.arrays G = bigSep Finset.univ fun w => ((((c.tc : Thread nD τ).loc (Pipeline.arrRef spec1 w)) ↦{dat.share w} G w : sProp 𝕄)) := by
  unfold Dat.arrays
  exact bigSep_congr fun w _ => by rw [(arr_whole1 w).set_eq_univ]

/-- The three input windows hold their own shares, the output window the full one. -/
theorem share1_0 {c : Dev nD} (dat : Dat τ (Elt F) Unit ℕ (UR sig nD τ) ℕ cfg1 c) : dat.share 0 = dat.q 0 := if_neg Bool.false_ne_true
theorem share1_1 {c : Dev nD} (dat : Dat τ (Elt F) Unit ℕ (UR sig nD τ) ℕ cfg1 c) : dat.share 1 = dat.q 1 := if_neg Bool.false_ne_true
theorem share1_2 {c : Dev nD} (dat : Dat τ (Elt F) Unit ℕ (UR sig nD τ) ℕ cfg1 c) : dat.share 2 = dat.q 2 := if_neg Bool.false_ne_true
theorem share1_3 {c : Dev nD} (dat : Dat τ (Elt F) Unit ℕ (UR sig nD τ) ℕ cfg1 c) : dat.share 3 = fullShare := if_pos rfl

/-- ON ENTRY: the two buffers behind the windows, each whole at the full share at the entry contents, give every
    window its array at its share: the shared array's full share is cut into its left half and the two halves of its
    right half. -/
theorem deal1_of {c : Dev nD} (dat : Dat τ (Elt F) Unit ℕ (UR sig nD τ) ℕ cfg1 c)
    (hA : ∀ w, dat.A w = V c (Pipeline.arrRef spec1 w))
    (hq0 : dat.q 0 = fullShare.left) (hq1 : dat.q 1 = fullShare.right.left) (hq2 : dat.q 2 = fullShare.right.right) :
    (Pipeline.arrBufs spec1 c (V c) : sProp 𝕄) ⊢ dat.arrays (dat.arrAt · 0) := by
  classical
  rw [arrays1_eq, bigSep_W1]
  unfold Pipeline.arrBufs
  rw [bigSep_eq_bigSepL_of_eq [main_v4, main_v5] arrImage1 (by decide)]
  rw [share1_0, share1_1, share1_2, share1_3, hq0, hq1, hq2]
  rw [show dat.arrAt 0 0 = V c main_v4 from hA 0, show dat.arrAt 1 0 = V c main_v4 from hA 1,
    show dat.arrAt 2 0 = V c main_v4 from hA 2, show dat.arrAt 3 0 = V c main_v5 from hA 3]
  show iprop((((c.tc : Thread nD τ).loc main_v4) ↦{fullShare} V c main_v4) ∗ (((c.tc : Thread nD τ).loc main_v5) ↦{fullShare} V c main_v5))
    ⊢ iprop((((c.tc : Thread nD τ).loc main_v4) ↦{fullShare.left} V c main_v4) ∗ (((c.tc : Thread nD τ).loc main_v4) ↦{fullShare.right.left} V c main_v4)
        ∗ (((c.tc : Thread nD τ).loc main_v4) ↦{fullShare.right.right} V c main_v4) ∗ (((c.tc : Thread nD τ).loc main_v5) ↦{fullShare} V c main_v5))
  iintro ⟨H4, H5⟩
  ihave H := (pointsTo_share (PosShare.mem_left_op_right fullShare)).1 $$ H4
  icases H with ⟨Ha, Hr⟩
  ihave H' := (pointsTo_share (PosShare.mem_left_op_right fullShare.right)).1 $$ Hr
  icases H' with ⟨Hb, Hc⟩
  isplitl [Ha]; · iexact Ha
  isplitl [Hb]; · iexact Hb
  isplitl [Hc]; · iexact Hc
  iexact H5

/-- ON EXIT: the input windows' arrays are as they were found, so their three shares of the shared array compose back
    to the full share at the entry contents; the output window's array is whole at what the run left in it. Together
    they are the two buffers whole at any contents `V'` that agree with those. -/
theorem join1_of {c : Dev nD} (dat : Dat τ (Elt F) Unit ℕ (UR sig nD τ) ℕ cfg1 c)
    (hA : ∀ w, dat.A w = V c (Pipeline.arrRef spec1 w))
    (hq0 : dat.q 0 = fullShare.left) (hq1 : dat.q 1 = fullShare.right.left) (hq2 : dat.q 2 = fullShare.right.right)
    (V' : (b : Ref sig .tc) → Buf (Elt F) ((c : Thread nD τ).loc b))
    (h4 : V' main_v4 = V c main_v4) (h5 : V' main_v5 = dat.arrAt 3 cfg1.N) :
    dat.arrays (dat.arrAt · cfg1.N) ⊢ (Pipeline.arrBufs spec1 c V' : sProp 𝕄) := by
  classical
  rw [arrays1_eq, bigSep_W1]
  unfold Pipeline.arrBufs
  rw [bigSep_eq_bigSepL_of_eq [main_v4, main_v5] arrImage1 (by decide)]
  rw [share1_0, share1_1, share1_2, share1_3, hq0, hq1, hq2]
  rw [show dat.arrAt 0 cfg1.N = V' main_v4 from ((dat.arrAt_in 0 rfl _).trans (hA 0)).trans h4.symm,
    show dat.arrAt 1 cfg1.N = V' main_v4 from ((dat.arrAt_in 1 rfl _).trans (hA 1)).trans h4.symm,
    show dat.arrAt 2 cfg1.N = V' main_v4 from ((dat.arrAt_in 2 rfl _).trans (hA 2)).trans h4.symm,
    show dat.arrAt 3 cfg1.N = V' main_v5 from h5.symm]
  show iprop((((c.tc : Thread nD τ).loc main_v4) ↦{fullShare.left} V' main_v4) ∗ (((c.tc : Thread nD τ).loc main_v4) ↦{fullShare.right.left} V' main_v4)
        ∗ (((c.tc : Thread nD τ).loc main_v4) ↦{fullShare.right.right} V' main_v4) ∗ (((c.tc : Thread nD τ).loc main_v5) ↦{fullShare} V' main_v5))
    ⊢ iprop((((c.tc : Thread nD τ).loc main_v4) ↦{fullShare} V' main_v4) ∗ (((c.tc : Thread nD τ).loc main_v5) ↦{fullShare} V' main_v5))
  iintro ⟨Ha, Hb, Hc, H5⟩
  ihave Hr := (pointsTo_share (PosShare.mem_left_op_right fullShare.right)).2 $$ [Hb Hc]
  · isplitl [Hb]; · iexact Hb
    iexact Hc
  ihave H4 := (pointsTo_share (PosShare.mem_left_op_right fullShare)).2 $$ [Ha Hr]
  · isplitl [Ha]; · iexact Ha
    iexact Hr
  isplitl [H4]; · iexact H4
  iexact H5

end Shares1

end Cert.KernelIdeal.Hand

end
-- ==== Proof.KI.R1Inv.lean ====
/-
  The attention region's invariant at its two ends: before the first point it is the class's plain one, which the
  launch hands over; after any later point it gives the class's back, forgetting what the carried buffers hold.
-/
import proofs.«104880_j49323404427787_2_alg».proof.Proof.KI.R1Data

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, He, HS0, HS1, HS2⟩, Hg⟩
  isplitl [Ha Hb Hc Hd He HS0 HS1 HS2]
  · isplitl [Ha]; · iexact Ha
    isplitl [Hb]; · iexact Hb
    isplitl [Hc]; · iexact Hc
    isplitl [Hd]; · iexact Hd
    isplitl [He]; · iexact He
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 128 := N_1; omega)

end Region1

end Cert.KernelIdeal.Hand

end
-- ==== Proof.KI.R1Unscoped.lean ====
import proofs.«104880_j49323404427787_2_alg».proof.Proof.KI.R1Shares

/-! # The attention region's arrays among the core's unscoped buffers

A thread state that tracks every unscoped buffer at a valuation gives the attention region its arrays on entry and
takes them back on exit. The unscoped buffers are the two buffers behind the region's windows and the rest; the two
buffers are dealt to the windows on entry and joined on exit; the rest is untouched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Unscoped1
variable (V : (c : Dev nD) → (b : Ref sig .tc) → Buf (Elt F) ((c : Thread nD τ).loc b))

/-- A core's unscoped buffers are the two buffers behind the region's windows and the rest. -/
theorem unscopedBufs_split1 (c : Dev nD) (W : (b : Ref sig .tc) → Buf (Elt F) ((c : Thread nD τ).loc b)) :
    (unscopedBufs c W : sProp 𝕄) = iprop((Pipeline.arrBufs spec1 c W : sProp 𝕄) ∗ Pipeline.unscopedRest spec1 c W) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- ON ENTRY: the unscoped buffers at the entry contents are the windows' arrays, each at its share, and the rest. -/
theorem arrays_of_unscopedBufs1_of {c : Dev nD} (dat : Dat τ (Elt F) Unit ℕ (UR sig nD τ) ℕ cfg1 c)
    (hA : ∀ w, dat.A w = V c (Pipeline.arrRef spec1 w))
    (hq0 : dat.q 0 = fullShare.left) (hq1 : dat.q 1 = fullShare.right.left) (hq2 : dat.q 2 = fullShare.right.right) :
    (unscopedBufs c (V c) : sProp 𝕄) ⊢ iprop(dat.arrays (dat.arrAt · 0) ∗ Pipeline.unscopedRest spec1 c (V c)) := by
  rw [unscopedBufs_split1]
  exact sep_mono (deal1_of V dat hA hq0 hq1 hq2) .rfl

/-- ON EXIT: the windows' arrays as the run left them and the rest as entered are the unscoped buffers at any contents
    `V'` that keep the shared input array, hold the output array at what the run left, and agree with the entry
    contents everywhere else. -/
theorem unscopedBufs_of_arrays1_of {c : Dev nD} (dat : Dat τ (Elt F) Unit ℕ (UR sig nD τ) ℕ cfg1 c)
    (hA : ∀ w, dat.A w = V c (Pipeline.arrRef spec1 w))
    (hq0 : dat.q 0 = fullShare.left) (hq1 : dat.q 1 = fullShare.right.left) (hq2 : dat.q 2 = fullShare.right.right)
    (V' : (b : Ref sig .tc) → Buf (Elt F) ((c : Thread nD τ).loc b))
    (h4 : V' main_v4 = V c main_v4) (h5 : V' main_v5 = dat.arrAt 3 cfg1.N)
    (hrest : ∀ b, b ∉ Finset.univ.image (Pipeline.arrRef spec1) → V' b = V c b) :
    iprop(dat.arrays (dat.arrAt · cfg1.N) ∗ Pipeline.unscopedRest spec1 c (V c)) ⊢ (unscopedBufs c V' : sProp 𝕄) := by
  rw [unscopedBufs_split1]
  refine sep_mono (join1_of V dat hA hq0 hq1 hq2 V' h4 h5) (Entails.of_eq ?_)
  unfold Pipeline.unscopedRest
  exact bigSep_congr fun b hb => by rw [hrest b (Finset.mem_sdiff.mp hb).2]

end Unscoped1

end Cert.KernelIdeal.Hand

end
-- ==== Proof.KI.Run.lean ====
/-
  The program's run: the entry function as four segments — the first host stretch, the projection region, the reshape,
  the attention region — and, from them, that every weakly fair execution from any launch memory terminates without
  a fault in a state where every unscoped buffer of every core holds the last boundary's contents: each argument as
  launched, the result array at what the attention region's write-backs fold to.

  A region is entered from "every unscoped buffer held at the boundary's contents, the generator register at some
  state, nothing owed" and left at the same with the next boundary's contents. The projection region's arrays are
  distinct buffers, split out of the unscoped buffers and put back whole. The attention region reads ONE array through
  three windows: that buffer's full share is dealt among them at entry and joined again at exit, its contents
  unchanged; only the output array's buffer is held whole.
-/
import proofs.«104880_j49323404427787_2_alg».proof.Proof.KI.RunData
import proofs.«104880_j49323404427787_2_alg».proof.Proof.KI.R1Shares
import proofs.«104880_j49323404427787_2_alg».proof.Proof.KI.R1Inv
import proofs.«104880_j49323404427787_2_alg».proof.Proof.KI.R1Unscoped

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The projection region as a segment -/

set_option backward.isDefEq.respectTransparency.types false in
/-- Entered from every unscoped buffer at `B1`, left at `B2`. -/
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region as a segment -/

/-- Every buffer that is no array of the region holds at its exit what it held at its entry. -/
theorem hrest1 (c : Dev nD) : ∀ b, b ∉ Finset.univ.image (Pipeline.arrRef spec1) → E4 m ρ c b = E3 m ρ c b :=
  fun b hb => B4_of_ne m ρ c b fun e => hb (e ▸ Finset.mem_image.mpr ⟨3, Finset.mem_univ _, rfl⟩)

set_option backward.isDefEq.respectTransparency.types false in
/-- Entered from every unscoped buffer at `B3`, left at `B4`; the body obligation at every point is taken as given. -/
def reg1 (hb1 : ∀ c : Dev nD, BodyObligation (dat1 (F := F) (E3 m ρ) c) (defs₀ (F := F)) Variants.none () Set.univ) : Pipeline.RegionSeg (pcfgs (F := F)) adm (pdats m ρ) () defs₀ 𝒱₀ Lz lvz 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ Lz lvz 1 fun _ _ => rfl
  pre c := iprop(StableHlo.held (c : Thread nD τ) (Pipeline.ucRefs τ sig) (B3 m ρ c) ∗ Rd c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := arrays_of_unscopedBufs1_of (E3 m ρ) (pdats m ρ 1 c) (A_eq1 (E3 m ρ) c) (by dsimp only [pdats, dat1]) (by dsimp only [pdats, dat1]) (by dsimp only [pdats, dat1])
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (E3 m ρ) c).trans ?_
    unfold Pipeline.ΦA
    iintro ⟨Hr, Hp⟩
    isplitl [Hp]; · iexact Hp
    isplitr; · iempintro
    iexact Hr
  hexit c := by
    have hjoin := unscopedBufs_of_arrays1_of (E3 m ρ) (pdats m ρ 1 c) (A_eq1 (E3 m ρ) c) (by dsimp only [pdats, dat1]) (by dsimp only [pdats, dat1]) (by dsimp only [pdats, dat1])
      (E4 m ρ c) (B4_of_ne m ρ c main_v4 (by decide)) (B4_v5 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the run -/

/-- The four segments in order. -/
abbrev segs (hb1 : ∀ c : Dev nD, BodyObligation (dat1 (F := F) (E3 m ρ) c) (defs₀ (F := F)) Variants.none () Set.univ) : List (Pipeline.Seg (pcfgs (F := F)) adm (pdats m ρ) () defs₀ 𝒱₀ Lz lvz) :=
  [ .host (hseg hostOps0 hostOps0_sub hostOps0_fresh (B0 m ρ)),
    .region (reg0 m ρ),
    .host (hseg hostOps1 hostOps1_sub hostOps1_fresh (B2 m ρ)),
    .region (reg1 m ρ hb1) ]
/-- The entry function IS the run of the segments. -/
theorem main_run (hb1 : ∀ c : Dev nD, BodyObligation (dat1 (F := F) (E3 m ρ) c) (defs₀ (F := F)) Variants.none () Set.univ) (c : Dev nD) : main (F := F) c = Pipeline.Seg.run (segs m ρ hb1) := (main_chain c).trans (by chain_rfl)

set_option backward.isDefEq.respectTransparency.types false in
/-- THE RUN. From any memory with zero counters every weakly fair execution of the entry function on the cores
    terminates, nothing faulting, and in every final state every unscoped buffer of every core holds the last
    boundary's contents. -/
theorem run_all (hb1 : ∀ c : Dev nD, BodyObligation (dat1 (F := F) (E3 m ρ) c) (defs₀ (F := F)) Variants.none () Set.univ) : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ Lz lvz m ρ main (segs m ρ hb1)
    (fun c Q => by rw [main_run m ρ hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := Tn m ρ)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The frame: every argument array ends as launched. -/
theorem frame_all (hb1 : ∀ c : Dev nD, BodyObligation (dat1 (F := F) (E3 m ρ) c) (defs₀ (F := F)) Variants.none () Set.univ) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B4_main_arg0 m ρ c), (h c _ (mem_uc main_arg1 (by decide))).trans (B4_main_arg1 m ρ c),
     (h c _ (mem_uc main_arg2 (by decide))).trans (B4_main_arg2 m ρ c), (h c _ (mem_uc main_arg3 (by decide))).trans (B4_main_arg3 m ρ c)⟩) (run_all m ρ hb1)

/-- The same run with the result array named too. -/
theorem run_valued (hb1 : ∀ c : Dev nD, BodyObligation (dat1 (F := F) (E3 m ρ) c) (defs₀ (F := F)) Variants.none () Set.univ) : θ_run defs (onTc (τ := τ) (main (F := F))) ⟨m, fun _ => 0, ρ⟩ (fun r => ∀ c : Dev nD,
      r.2.mem ((c.tc : Thread nD τ).loc main_v5) = out5 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (B4_v5 m ρ c),
     (h c _ (mem_uc main_arg0 (by decide))).trans (B4_main_arg0 m ρ c), (h c _ (mem_uc main_arg1 (by decide))).trans (B4_main_arg1 m ρ c),
     (h c _ (mem_uc main_arg2 (by decide))).trans (B4_main_arg2 m ρ c), (h c _ (mem_uc main_arg3 (by decide))).trans (B4_main_arg3 m ρ c)⟩) (run_all m ρ hb1)

end Cert.KernelIdeal.Hand

end
-- ==== Proof.KI.R1BodyA0.lean ====
/-
  The attention region's body obligation at the very first grid point (a first key tile; nothing is known of the carried buffers).
-/
import proofs.«104880_j49323404427787_2_alg».proof.Proof.KI.R1Data

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 4000000 in
/-- The body at the very first grid point (a first key tile; nothing is known of the carried buffers): the inputs' memrefs hold their blocks, the invariant hands the body the three carried
    buffers and takes them back at this point's contents. -/
theorem sound_body1_A0 (c : Dev nD) (t : Fin cfg1.N) (h0 : t.val % 8 = 0) (h1 : ¬t.val % 8 = 7) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0,
    show (dat1 V c).leavesExact 1 t = owns (c : Thread nD τ) (ms1_1 t) fullShare ((dat1 V c).after 1 t) from by
    unfold Dat.leavesExact; rw [liveAt1_1 t], after1_1,
    show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [outsAt1_zero V c t hz, stepAt1_A V c t _ h0 h1]
  dsimp only
  rw [PhiS1_castSucc V c t, PhiS1_zero V c _ _ hz, PhiA1_eq]
  iintro ⟨⟨⟨Ha, Hb, Hc, Hd, He, HS0, HS1, HS2⟩, Hg⟩, Ho, ⟨%d0, H0⟩, ⟨%d1, H1⟩, ⟨%d2, H2⟩, ⟨%d3, H3⟩⟩
  iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [Ha Hb Hc Hd He HS0 HS1 HS2 Hg]
  · isplitl [Ha Hb Hc Hd He HS0 HS1 HS2]
    · isplitl [Ha]; · iexact Ha
      isplitl [Hb]; · iexact Hb
      isplitl [Hc]; · iexact Hc
      isplitl [Hd]; · iexact Hd
      isplitl [He]; · iexact He
      isplitl [HS0]
      · unfold owns; iexists _; isplitr
        swap; · iexact HS0
        ipureintro; exact View.read_writes_eq_canon _ _ _ (scover1_A_0 V c t ((hcond1_0 t).mpr h0) (fun h => h1 ((hcond1_1 t).mp h)))
      isplitl [HS1]
      · unfold owns; iexists _; isplitr
        swap; · iexact HS1
        ipureintro; exact View.read_writes_eq_canon _ _ _ (scover1_A_1 V c t ((hcond1_0 t).mpr h0) (fun h => h1 ((hcond1_1 t).mp h)))
      unfold owns; iexists _; isplitr
      swap; · iexact HS2
      ipureintro; exact View.read_writes_eq_canon _ _ _ (scover1_A_2 V c t ((hcond1_0 t).mpr h0) (fun h => h1 ((hcond1_1 t).mp h)))
    iexact Hg
  isplitl [Ho]; · iexact Ho
  isplitl [H0]; · iexact H0
  isplitl [H1]; · iexact H1
  isplitl [H2]; · iexact H2
  iexists _; iexact H3

end Region1

end Cert.KernelIdeal.Hand

end
-- ==== Proof.KI.R1BodyA.lean ====
/-
  The attention region's body obligation at a first key tile that is not the first grid point.
-/
import proofs.«104880_j49323404427787_2_alg».proof.Proof.KI.R1Data

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 4000000 in
/-- The body at a first key tile that is not the first grid point: the inputs' memrefs hold their blocks, the invariant hands the body the three carried
    buffers and takes them back at this point's contents. -/
theorem sound_body1_A (c : Dev nD) (t : Fin cfg1.N) (h0 : t.val % 8 = 0) (h1 : ¬t.val % 8 = 7) (hz : ¬t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0,
    show (dat1 V c).leavesExact 1 t = owns (c : Thread nD τ) (ms1_1 t) fullShare ((dat1 V c).after 1 t) from by
    unfold Dat.leavesExact; rw [liveAt1_1 t], after1_1,
    show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [outsAt1_pos V c t hz, stepAt1_A V c t _ h0 h1]
  dsimp only
  rw [PhiS1_castSucc V c t, PhiS1_pos V c _ _ hz]
  iintro ⟨⟨⟨Ha, Hb, Hc, Hd, He, HS0, HS1, HS2⟩, Hg⟩, Ho, ⟨%d0, H0⟩, ⟨%d1, H1⟩, ⟨%d2, H2⟩, ⟨%d3, H3⟩⟩
  iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  isplitl [HS2]; · iexists _; iexact HS2
  iintro ⟨H0, H1, H2, H3, ⟨%es0, HS0⟩, ⟨%es1, HS1⟩, ⟨%es2, HS2⟩⟩
  isplitl [Ha Hb Hc Hd He HS0 HS1 HS2 Hg]
  · isplitl [Ha Hb Hc Hd He HS0 HS1 HS2]
    · isplitl [Ha]; · iexact Ha
      isplitl [Hb]; · iexact Hb
      isplitl [Hc]; · iexact Hc
      isplitl [Hd]; · iexact Hd
      isplitl [He]; · iexact He
      isplitl [HS0]
      · unfold owns; iexists _; isplitr
        swap; · iexact HS0
        ipureintro; exact View.read_writes_eq_canon _ _ _ (scover1_A_0 V c t ((hcond1_0 t).mpr h0) (fun h => h1 ((hcond1_1 t).mp h)))
      isplitl [HS1]
      · unfold owns; iexists _; isplitr
        swap; · iexact HS1
        ipureintro; exact View.read_writes_eq_canon _ _ _ (scover1_A_1 V c t ((hcond1_0 t).mpr h0) (fun h => h1 ((hcond1_1 t).mp h)))
      unfold owns; iexists _; isplitr
      swap; · iexact HS2
      ipureintro; exact View.read_writes_eq_canon _ _ _ (scover1_A_2 V c t ((hcond1_0 t).mpr h0) (fun h => h1 ((hcond1_1 t).mp h)))
    iexact Hg
  isplitl [Ho]; · iexact Ho
  isplitl [H0]; · iexact H0
  isplitl [H1]; · iexact H1
  isplitl [H2]; · iexact H2
  iexists _; iexact H3

end Region1

end Cert.KernelIdeal.Hand

end
-- ==== Proof.KI.R1BodyB.lean ====
/-
  The attention region's body obligation at a middle key tile.
-/
import proofs.«104880_j49323404427787_2_alg».proof.Proof.KI.R1Data

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 4000000 in
/-- The body at a middle key tile: the inputs' memrefs hold their blocks, the invariant hands the body the three carried
    buffers and takes them back at this point's contents. -/
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  have hz : t.val ≠ 0 := fun e => h0 (by rw [e])
  rw [show (dat1 V c).leavesExact 0 t = owns (c : Thread nD τ) (ms1_0 t) fullShare ((dat1 V c).after 0 t) from by
    unfold Dat.leavesExact; rw [liveAt1_0 t], after1_0,
    show (dat1 V c).leavesExact 1 t = owns (c : Thread nD τ) (ms1_1 t) fullShare ((dat1 V c).after 1 t) from by
    unfold Dat.leavesExact; rw [liveAt1_1 t], after1_1,
    show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
  rw [outsAt1_pos V c t hz, stepAt1_B V c t _ h0 h1]
  dsimp only
  rw [PhiS1_castSucc V c t, PhiS1_pos V c _ _ hz]
  iintro ⟨⟨⟨Ha, Hb, Hc, Hd, He, HS0, HS1, HS2⟩, Hg⟩, Ho, ⟨%d0, H0⟩, ⟨%d1, H1⟩, ⟨%d2, H2⟩, ⟨%d3, H3⟩⟩
  iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [Ha Hb Hc Hd He HS0 HS1 HS2 Hg]
  · isplitl [Ha Hb Hc Hd He HS0 HS1 HS2]
    · isplitl [Ha]; · iexact Ha
      isplitl [Hb]; · iexact Hb
      isplitl [Hc]; · iexact Hc
      isplitl [Hd]; · iexact Hd
      isplitl [He]; · iexact He
      isplitl [HS0]
      · unfold owns; iexists _; isplitr
        swap; · iexact HS0
        ipureintro; exact View.read_writes_eq_canon _ _ _ (scover1_B_0 V c t (fun h => h0 ((hcond1_0 t).mp h)) (fun h => h1 ((hcond1_1 t).mp h)) (outsAt1 V c (t.val - 1) (Nat.lt_of_le_of_lt (Nat.sub_le _ _) t.isLt)).2)
      isplitl [HS1]
      · unfold owns; iexists _; isplitr
        swap; · iexact HS1
        ipureintro; exact View.read_writes_eq_canon _ _ _ (scover1_B_1 V c t (fun h => h0 ((hcond1_0 t).mp h)) (fun h => h1 ((hcond1_1 t).mp h)) (outsAt1 V c (t.val - 1) (Nat.lt_of_le_of_lt (Nat.sub_le _ _) t.isLt)).2)
      unfold owns; iexists _; isplitr
      swap; · iexact HS2
      ipureintro; exact View.read_writes_eq_canon _ _ _ (scover1_B_2 V c t (fun h => h0 ((hcond1_0 t).mp h)) (fun h => h1 ((hcond1_1 t).mp h)) (outsAt1 V c (t.val - 1) (Nat.lt_of_le_of_lt (Nat.sub_le _ _) t.isLt)).2)
    iexact Hg
  isplitl [Ho]; · iexact Ho
  isplitl [H0]; · iexact H0
  isplitl [H1]; · iexact H1
  isplitl [H2]; · iexact H2
  iexists _; iexact H3

end Region1

end Cert.KernelIdeal.Hand

end
-- ==== Proof.KI.R1BodyC.lean ====
/-
  The attention region's body obligation at a last key tile.
-/
import proofs.«104880_j49323404427787_2_alg».proof.Proof.KI.R1Data

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 4000000 in
/-- The body at a last key tile: the inputs' memrefs hold their blocks, the invariant hands the body the three carried
    buffers and takes them back at this point's contents. -/
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  have hz : t.val ≠ 0 := fun e => h0 (by rw [e])
  rw [show (dat1 V c).leavesExact 0 t = owns (c : Thread nD τ) (ms1_0 t) fullShare ((dat1 V c).after 0 t) from by
    unfold Dat.leavesExact; rw [liveAt1_0 t], after1_0,
    show (dat1 V c).leavesExact 1 t = owns (c : Thread nD τ) (ms1_1 t) fullShare ((dat1 V c).after 1 t) from by
    unfold Dat.leavesExact; rw [liveAt1_1 t], after1_1,
    show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3_C t (fun h => h0 ((hcond1_0 t).mp h)) ((hcond1_1 t).mpr h1)], after1_3]
  rw [outsAt1_pos V c t hz, stepAt1_C V c t _ h0 h1]
  dsimp only
  rw [PhiS1_castSucc V c t, PhiS1_pos V c _ _ hz]
  iintro ⟨⟨⟨Ha, Hb, Hc, Hd, He, HS0, HS1, HS2⟩, Hg⟩, Ho, ⟨%d0, H0⟩, ⟨%d1, H1⟩, ⟨%d2, H2⟩, ⟨%d3, H3⟩⟩
  iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [Ha Hb Hc Hd He HS0 HS1 HS2 Hg]
  · isplitl [Ha Hb Hc Hd He HS0 HS1 HS2]
    · isplitl [Ha]; · iexact Ha
      isplitl [Hb]; · iexact Hb
      isplitl [Hc]; · iexact Hc
      isplitl [Hd]; · iexact Hd
      isplitl [He]; · iexact He
      isplitl [HS0]
      · unfold owns; iexists _; isplitr
        swap; · iexact HS0
        ipureintro; exact View.read_writes_eq_canon _ _ _ (scover1_C_0 V c t (fun h => h0 ((hcond1_0 t).mp h)) ((hcond1_1 t).mpr h1) (outsAt1 V c (t.val - 1) (Nat.lt_of_le_of_lt (Nat.sub_le _ _) t.isLt)).2)
      isplitl [HS1]
      · unfold owns; iexists _; isplitr
        swap; · iexact HS1
        ipureintro; exact View.read_writes_eq_canon _ _ _ (scover1_C_1 V c t (fun h => h0 ((hcond1_0 t).mp h)) ((hcond1_1 t).mpr h1) (outsAt1 V c (t.val - 1) (Nat.lt_of_le_of_lt (Nat.sub_le _ _) t.isLt)).2)
      unfold owns; iexists _; isplitr
      swap; · iexact HS2
      ipureintro; exact View.read_writes_eq_canon _ _ _ (scover1_C_2 V c t (fun h => h0 ((hcond1_0 t).mp h)) ((hcond1_1 t).mpr h1) (outsAt1 V c (t.val - 1) (Nat.lt_of_le_of_lt (Nat.sub_le _ _) t.isLt)).2)
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (cover1_C_3 V c t (fun h => h0 ((hcond1_0 t).mp h)) ((hcond1_1 t).mpr h1) (outsAt1 V c (t.val - 1) (Nat.lt_of_le_of_lt (Nat.sub_le _ _) t.isLt)).2)

end Region1

end Cert.KernelIdeal.Hand

end
-- ==== Proof.KI.R1Frame.lean ====
/-
  The attention region, last part of its frame half: the body obligation at every grid point, from the four cases
  a point can be in, and how the invariant is entered and left.
-/
import proofs.«104880_j49323404427787_2_alg».proof.Proof.KI.R1BodyA0
import proofs.«104880_j49323404427787_2_alg».proof.Proof.KI.R1BodyA
import proofs.«104880_j49323404427787_2_alg».proof.Proof.KI.R1BodyB
import proofs.«104880_j49323404427787_2_alg».proof.Proof.KI.R1BodyC

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The body at any point: its position modulo 8 says which case it is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · have h1 : ¬t.val % 8 = 7 := by omega
    by_cases hz : t.val = 0
    · exact sound_body1_A0 V c t h0 h1 hz
    · exact sound_body1_A V c t h0 h1 hz
  · by_cases h1 : t.val % 8 = 7
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.KI.Region0Value.lean ====
import proofs.«104880_j49323404427787_2_alg».proof.Proof.KI.Region0
import proofs.«104880_j49323404427787_2_alg».proof.Proof.Gen.KernelIdeal.Regions
import Idealize.ShloMosaic.Lib.StableHlo.Run
import proofs.«104880_j49323404427787_2_alg».proof.Proof.LibMatmul
import Idealize.ShloMosaic.Lib.Pipeline.Value
import Idealize.ShloMosaic.Lib.ValueIdx

/-! # The first region at the extended reals: what it leaves in its output array

Over the extended reals narrowing a value to a shorter format changes nothing, so the body's stored tile is the plain
product of the two tiles it loaded. Each grid point writes one row tile of the output; the row tiles cover the
array; so the array ends as the product of the two arrays the region reads. The last section reads those two arrays
back to the launch arguments through the host's reshape and side-by-side placement. -/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Idealize.ShloMosaic.StableHlo
open scoped BigOperators

/-! ## The body's product at an entry -/

theorem zero_offsets : (![0, 0] : Fin 2 → Nat) = fun _ => 0 := funext fun a => by fin_cases a <;> rfl

/-- The product's dimension numbers are those of a plain rows-by-columns product. -/
theorem plain0 : PlainMatmul.IsPlain (M := 512) (K := 1024) (N := 3072) dot_S512x1024_S1024x3072_S512x3072_1_0_0_1_n_n :=
  ⟨rfl, rfl, rfl, rfl, rfl, rfl⟩

/-- The value the body stores, at row `p` and column `q`: the contraction of row `p` of the activations' tile with
    column `q` of the weights. Narrowing to the short format changes no extended real. -/
theorem pay_apply (v0 : Vec Ideal S512x1024 .f32) (v3 : Vec Ideal S1024x3072 .bf16) (p : Fin 512) (q : Fin 3072) :
    k0_pay1 (F := Ideal) v0 v3 (ix2 p q) = ∑ k : Fin 1024, (v0 (ix2 p k) : EReal) * (v3 (ix2 k q) : EReal) := by
  unfold k0_pay1
  refine (truncf_apply (s := S512x3072) (φ := .f32) (ψ := .bf16) _ bitsLt_bf16_f32 (ix2 p q)).trans ?_
  refine (PlainMatmul.apply (φ₁ := .bf16) (φ₂ := .bf16) plain0 none _ _ p q).trans ?_
  refine Finset.sum_congr rfl fun k _ => ?_
  rw [shapeCast_self, shapeCast_self]
  rfl

/-- What the body leaves in the output tile, at row `p` and column `q`. -/
theorem out0_apply (x0 : Vec Ideal S512x1024 .f32) (x1 : Vec Ideal S1024x3072 .bf16) (p : Fin 512) (q : Fin 3072) :
    out0_2 (F := Ideal) x0 x1 (ix2 p q) = ∑ k : Fin 1024, (x0 (ix2 p k) : EReal) * (x1 (ix2 k q) : EReal) := by
  unfold out0_2
  rw [View.canon_unit_zero zero_offsets]
  simp only [View.ld_unit_zero (S := S512x1024) zero_offsets, View.ld_unit_zero (S := S1024x3072) zero_offsets]
  exact pay_apply x0 x1 p q

/-! ## From the tiles to the whole array -/

section Array
variable (V : (c : Dev nD) → (b : Ref sig .tc) → Buf (Elt Ideal) ((c : Thread nD τ).loc b))

/-- The three index maps over the grid: at point `t` the activations' tile and the output's tile are both the
    `t`-th row tile, and the weights' tile is always the one whole matrix. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of a 16384 by 1024 array with a 1024 by 3072 array, entry by entry. -/
def qkv2d (a : S16384x1024.Idx → EReal) (w : S1024x3072.Idx → EReal) : S16384x3072.Idx → EReal :=
  fun i => ∑ d : Fin 1024, a (ix2 (i 0) d) * w (ix2 d (i 1))

theorem qkv2d_apply (a : S16384x1024.Idx → EReal) (w : S1024x3072.Idx → EReal) (i : S16384x3072.Idx) :
    qkv2d a w i = ∑ d : Fin 1024, a (ix2 (i 0) d) * w (ix2 d (i 1)) := rfl

/-- What point `t` writes back is the `t`-th row tile of the product of the two arrays the region reads: an entry
    of the output tile contracts a row of the activations' tile, which is the same row of the whole array offset by
    the tile's position, with a column of the weights. -/
theorem flushed0_eq (c : Dev nD) (t : Fin cfg0.N) :
    (dat0 V c).flushed 2 t = ((cfg0.win 2).blk t).view.read (Elt Ideal) (qkv2d (V c main_v2) (V c main_v1)) := by
  show (cfg0.win 2).cut (grid0.coords t) ((dat0 V c).after 2 t) = _
  rw [after0_2]
  obtain ⟨e00, e01, e10, e11, e20, e21⟩ := index_facts t
  funext j
  show out0_2 (F := Ideal) (iblk0 V c 0 t) (iblk0 V c 1 t) j = qkv2d (V c main_v2) (V c main_v1) (((cfg0.win 2).blk t).view.emb j)
  obtain ⟨p, q, rfl⟩ : ∃ (p : Fin 512) (q : Fin 3072), j = ix2 p q := ⟨j 0, j 1, eq_ix2 j⟩
  refine (out0_apply _ _ p q).trans ?_
  unfold qkv2d
  refine Finset.sum_congr rfl fun k _ => ?_
  have h0 : ((cfg0.win 0).blk t).view.emb (ix2 p k) = (ix2 ((((cfg0.win 2).blk t).view.emb (ix2 p q)) 0) k : S16384x1024.Idx) := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have h1 : ((cfg0.win 1).blk t).view.emb (ix2 k q) = (ix2 k ((((cfg0.win 2).blk t).view.emb (ix2 p q)) 1) : S1024x3072.Idx) := by
    funext a; apply Fin.ext
    match a with
    | ⟨0, _⟩ => show win0_1.index t (0 : Fin 2) * 1024 + 1 * k.val = k.val; omega
    | ⟨1, _⟩ => show win0_1.index t (1 : Fin 2) * 3072 + 1 * q.val = win0_2.index t (1 : Fin 2) * 3072 + 1 * q.val; omega
  exact congrArg₂ (fun a b : EReal => a * b) (congrArg (V c main_v2 : S16384x1024.Idx → EReal) h0) (congrArg (V c main_v1 : S1024x3072.Idx → EReal) h1)

/-- An entry of the output array lies in point `t`'s tile exactly when each coordinate lies in the tile's range. -/
theorem mem_blk (t : Fin cfg0.N) (i : S16384x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v3).slice (win0_2.rect t)).set ↔ _
  rw [View.set_slice_whole, Rect.mem_set_unit]
  exact Iff.rfl

/-- Every entry of the output array is written: row `r` lies in the tile of point `r / 512`. -/
theorem covered (i : S16384x3072.Idx) : ∃ t : Fin cfg0.N, (cfg0.win 2).flush t = true ∧ i ∈ ((cfg0.win 2).blk t).view.set := by
  have hi0 : (i 0).val < 16384 := (i 0).isLt
  have hi1 : (i 1).val < 3072 := (i 1).isLt
  have hlt : (i 0).val / 512 < cfg0.N := by show _ < grid0.N; rw [N_0]; omega
  obtain ⟨-, -, -, -, e20, e21⟩ := index_facts ⟨(i 0).val / 512, hlt⟩
  have e20' : win0_2.index ⟨(i 0).val / 512, hlt⟩ (0 : Fin 2) = (i 0).val / 512 := e20
  refine ⟨⟨(i 0).val / 512, hlt⟩, flush0_2 _, ?_⟩
  rw [mem_blk]
  intro a
  match a with
  | ⟨0, _⟩ => show win0_2.index ⟨(i 0).val / 512, hlt⟩ (0 : Fin 2) * 512 ≤ (i 0).val ∧ (i 0).val < win0_2.index ⟨(i 0).val / 512, hlt⟩ (0 : Fin 2) * 512 + 512; omega
  | ⟨1, _⟩ => show win0_2.index ⟨(i 0).val / 512, hlt⟩ (1 : Fin 2) * 3072 ≤ (i 1).val ∧ (i 1).val < win0_2.index ⟨(i 0).val / 512, hlt⟩ (1 : Fin 2) * 3072 + 3072; omega

/-- What the first region leaves in its output array: entry `(r, col)` is the contraction of row `r` of the array the
    activations' window reads with column `col` of the array the weights' window reads. -/
theorem qkv2d_eq (c : Dev nD) :
    (dat0 (F := Ideal) V c).arrAt 2 cfg0.N = qkv2d (V c main_v2) (V c main_v1) :=
  (dat0 V c).arrAt_eq_of_cover 2 (qkv2d (V c main_v2) (V c main_v1)) (fun t _ => flushed0_eq V c t) covered

end Array

/-! ## What the first region is entered with

Before the first region the host lays the three weight matrices side by side and narrows the result, and views the
activations, four batches of 4096 rows, as one array of 16384 rows. -/

section Host
variable (m : (ℓ : Loc nD τ sig) → Buf (Elt Ideal) ℓ)

/-- The activations' array on entry is the launch argument, reshaped. -/
theorem x2d_eq (c : Dev nD) :
    (V1 m c main_v2 : S16384x1024.Idx → EReal)
      = shapeCast S16384x1024 (m ((c : Thread nD τ).loc main_arg0) : S4x4096x1024.Idx → EReal) shapeCasts_S4x4096x1024_S16384x1024 := by
  dsimp only [V1, V0, hostOps0]
  after_results
  rfl

/-- Row `r` of the reshaped activations is row `s` of batch `b` where `r = 4096 b + s`: both have the same position
    when the entries are counted row by row. -/
theorem x2d_apply (c : Dev nD) (r : Fin 16384) (d : Fin 1024) (b : Fin 4) (s : Fin 4096) (hr : r.val = b.val * 4096 + s.val) :
    (V1 m c main_v2 : S16384x1024.Idx → EReal) (ix2 r d)
      = (m ((c : Thread nD τ).loc main_arg0) : S4x4096x1024.Idx → EReal) (ix3 b s d) := by
  rw [x2d_eq]
  refine shapeCast_apply _ _ _ _ ?_
  show (S4x4096x1024.rowMajor (ix3 b s d)).val = (S16384x1024.rowMajor (ix2 r d)).val
  rw [Shape.rowMajor_val_three, Shape.rowMajor_val_two]
  show (b.val * 4096 + s.val) * 1024 + d.val = r.val * 1024 + d.val
  rw [hr]

/-- The three launch matrices, in the order the host lays them side by side. -/
abbrev wpieces (c : Dev nD) : List ((s : Shape) × (s.Idx → EReal)) :=
  [⟨S1024x1024, (m ((c : Thread nD τ).loc main_arg1) : S1024x1024.Idx → EReal)⟩,
   ⟨S1024x1024, (m ((c : Thread nD τ).loc main_arg2) : S1024x1024.Idx → EReal)⟩,
   ⟨S1024x1024, (m ((c : Thread nD τ).loc main_arg3) : S1024x1024.Idx → EReal)⟩]

/-- The weights' array on entry is the three launch matrices side by side; narrowing changes no extended real. -/
theorem wcat_eq (c : Dev nD) :
    (V1 m c main_v1 : S1024x3072.Idx → EReal)
      = concatenate S1024x3072 1 (wpieces m c) concatenates_S1024x1024_S1024x1024_S1024x1024_S1024x3072_d1 := by
  dsimp only [V1, V0, hostOps0]
  after_results
  rfl

/-- Columns 0 to 1023 of the weights' array are the first matrix, -/
theorem wcat_apply_q (c : Dev nD) (d : Fin 1024) (col : Fin 3072) (j : Fin 1024) (hj : col.val = j.val) :
    (V1 m c main_v1 : S1024x3072.Idx → EReal) (ix2 d col)
      = (m ((c : Thread nD τ).loc main_arg1) : S1024x1024.Idx → EReal) (ix2 d j) := by
  rw [wcat_eq]
  refine concatenate_apply_piece (t := S1024x3072) (1 : Fin 2) (wpieces m c) concatenates_S1024x1024_S1024x1024_S1024x1024_S1024x3072_d1 (ix2 d col) 0 (show 0 < 3 by decide) S1024x1024 _ rfl rfl 0 rfl (ix2 d j) (fun b hb => ?_) ?_
  · match b with
    | ⟨0, _⟩ => rfl
    | ⟨1, _⟩ => exact absurd rfl hb
  · show 0 + j.val = col.val
    omega

/-- columns 1024 to 2047 the second, -/
theorem wcat_apply_k (c : Dev nD) (d : Fin 1024) (col : Fin 3072) (j : Fin 1024) (hj : col.val = 1024 + j.val) :
    (V1 m c main_v1 : S1024x3072.Idx → EReal) (ix2 d col)
      = (m ((c : Thread nD τ).loc main_arg2) : S1024x1024.Idx → EReal) (ix2 d j) := by
  rw [wcat_eq]
  refine concatenate_apply_piece (t := S1024x3072) (1 : Fin 2) (wpieces m c) concatenates_S1024x1024_S1024x1024_S1024x1024_S1024x3072_d1 (ix2 d col) 1 (show 1 < 3 by decide) S1024x1024 _ rfl rfl 1024 rfl (ix2 d j) (fun b hb => ?_) ?_
  · match b with
    | ⟨0, _⟩ => rfl
    | ⟨1, _⟩ => exact absurd rfl hb
  · show 1024 + j.val = col.val
    omega

/-- and columns 2048 to 3071 the third. -/
theorem wcat_apply_v (c : Dev nD) (d : Fin 1024) (col : Fin 3072) (j : Fin 1024) (hj : col.val = 2048 + j.val) :
    (V1 m c main_v1 : S1024x3072.Idx → EReal) (ix2 d col)
      = (m ((c : Thread nD τ).loc main_arg3) : S1024x1024.Idx → EReal) (ix2 d j) := by
  rw [wcat_eq]
  refine concatenate_apply_piece (t := S1024x3072) (1 : Fin 2) (wpieces m c) concatenates_S1024x1024_S1024x1024_S1024x1024_S1024x3072_d1 (ix2 d col) 2 (show 2 < 3 by decide) S1024x1024 _ rfl rfl 2048 rfl (ix2 d j) (fun b hb => ?_) ?_
  · match b with
    | ⟨0, _⟩ => rfl
    | ⟨1, _⟩ => exact absurd rfl hb
  · show 2048 + j.val = col.val
    omega

end Host

end Cert.KernelIdeal.HandValue

end
-- ==== Proof.Spec.lean ====
/-
  What the attention layer computes, as one function of its four argument arrays over the extended reals.

  For a batch `b`, a position `s` and a feature `e`, a projection is the contraction of the input row with a
  weight column, `∑ d, x (b, s, d) * w (d, e)`. The score of query position `q` against key position `k` is the
  contraction of the two projected rows over the feature axis, scaled by `1/32` (the feature width is `1024 = 32²`).
  Along each row of scores the weights are `exp (score - row maximum)` divided by their sum over the row, and the
  result at `(b, q, e)` is the sum over key positions of weight times the projected value entry `(b, k, e)`.
  The normalizer is written with a `+ 0` so that the statement has the shape of the tile-by-tile law it is met by.
-/
import Idealize.ShloMosaic.PureOps.Ideal
import Idealize.ShloMosaic.Lib.ValueIdx

noncomputable section

namespace Cert.Attn

open Idealize.ShloMosaic Idealize.ShloMosaic.ValueIdx

/-- An input array `[4, 4096, 1024]` and a weight matrix `[1024, 1024]` over the extended reals. -/
abbrev Arr3 : Type := (⟨3, ![4, 4096, 1024]⟩ : Shape).Idx → EReal
abbrev Mat : Type := (⟨2, ![1024, 1024]⟩ : Shape).Idx → EReal

/-- The projection of row `(b, s)` of `x` onto column `e` of `w`. -/
def proj (x : Arr3) (w : Mat) (b : Fin 4) (s : Fin 4096) (e : Fin 1024) : EReal :=
  ∑ d : Fin 1024, x (ix3 b s d) * w (ix2 d e)

/-- The scaled score of query position `q` against key position `k` in batch `b`. -/
def score (x : Arr3) (wq wk : Mat) (b : Fin 4) (q k : Fin 4096) : EReal :=
  (∑ e : Fin 1024, proj x wq b q e * proj x wk b k e) * ((1 / 32 : ℝ) : EReal)

/-- The largest score of row `(b, q)`. -/
def rowMax (x : Arr3) (wq wk : Mat) (b : Fin 4) (q : Fin 4096) : EReal :=
  Finset.univ.sup fun k : Fin 4096 => score x wq wk b q k

/-- The row's normalizer: the sum of `exp (score - row maximum)` over the key positions. -/
def rowSum (x : Arr3) (wq wk : Mat) (b : Fin 4) (q : Fin 4096) : EReal :=
  ∑ k : Fin 4096, Ideal.exp (score x wq wk b q k - rowMax x wq wk b q)

/-- The layer's result at `(b, q, e)`. -/
def G (x : Arr3) (wq wk wv : Mat) : Arr3 := fun i =>
  ∑ k : Fin 4096,
    Ideal.div (Ideal.exp (score x wq wk (i 0) (i 1) k - rowMax x wq wk (i 0) (i 1)))
        (rowSum x wq wk (i 0) (i 1) + ((0 : ℝ) : EReal))
      * proj x wv (i 0) k (i 2)

end Cert.Attn

end
-- ==== Proof.Finite.lean ====
/-
  Finite inputs are real. The precondition says of each of the four argument arrays that every entry's absolute
  value is strictly below +∞. On the extended reals `max a (-a) < ⊤` excludes both infinities, so every entry is
  the image of a real number. Finite sums and products of reals are real, so every projection and every scaled
  score of real arrays is real too.
-/
import proofs.«104880_j49323404427787_2_alg».proof.Pre_finite_inputs
import Idealize.ShloMosaic.Lib.ReduceAll
import Idealize.ShloMosaic.Lib.ValueIdx
import Idealize.ShloMosaic.PureOps.Ideal.Laws
import proofs.«104880_j49323404427787_2_alg».proof.Proof.Spec

noncomputable section

namespace Cert.Attn.Finite

open Idealize.ShloMosaic Idealize.ShloMosaic.ValueIdx

/-- The scalar shape has exactly one index. -/
instance : Subsingleton (⟨0, ![]⟩ : Shape).Idx := ⟨fun _ _ => funext fun d => d.elim0⟩

/-- The f32 word with exponent all ones and significand zero denotes +∞. -/
theorem ofBits_inf : Ideal.ofBits .f32 0x7F800000#32 = ⊤ := by simp [Ideal.ofBits, Ideal.ieee]

/-- An extended real whose absolute value compares strictly below +∞ is a real number. -/
theorem real_of_abs_lt_inf (a : EReal)
    (h : FloatOps.cmpf (F := Ideal) (φ := .f32) .olt (FloatOps.hostAbsf a) (FloatOps.ofBits .f32 0x7F800000#32) = 1#1) :
    ∃ r : ℝ, a = r := by
  have hlt : max a (-a) < ⊤ := by
    have h' : BitVec.ofBool (decide (max a (-a) < Ideal.ofBits .f32 0x7F800000#32)) = 1#1 := h
    rw [ofBits_inf] at h'
    by_contra hn
    rw [decide_eq_false hn] at h'
    exact absurd h' (by decide)
  induction a using EReal.rec with
  | bot => simp at hlt
  | top => simp at hlt
  | coe r => exact ⟨r, rfl⟩

/-- Under the precondition every entry of the input and of the three weight matrices is a real number. -/
theorem of_pre [Cert.Pre_finite_inputs.Facts]
    (x : FVec Ideal Cert.Pre_finite_inputs.S4x4096x1024 .f32)
    (wq wk wv : FVec Ideal Cert.Pre_finite_inputs.S1024x1024 .f32)
    (h : Cert.Pre_finite_inputs.fn (F := Ideal) x wq wk wv = fun _ => 1#1) :
    (∀ i, ∃ r : ℝ, x i = r) ∧ (∀ i, ∃ r : ℝ, wq i = r) ∧ (∀ i, ∃ r : ℝ, wk i = r) ∧ (∀ i, ∃ r : ℝ, wv i = r) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hx, h1⟩ := IntOp.andi_eq_one.1 h01
  exact ⟨fun i => real_of_abs_lt_inf _ (Host.reduce_andi_all _ _ _ _ _ hx i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

/-! ## Projections and scores of real arrays are real -/

/-- The coercion of a finite sum of reals is the sum of the coercions. -/
theorem coe_sum {ι : Type*} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- A projection of a real array onto a real weight column is a real number. -/
theorem proj_real (x : Cert.Attn.Arr3) (w : Cert.Attn.Mat) (hx : ∀ i, ∃ r : ℝ, x i = r) (hw : ∀ i, ∃ r : ℝ, w i = r)
    (b : Fin 4) (s : Fin 4096) (e : Fin 1024) : ∃ r : ℝ, Cert.Attn.proj x w b s e = r := by
  choose fx hfx using hx
  choose fw hfw using hw
  refine ⟨∑ d : Fin 1024, fx (ix3 b s d) * fw (ix2 d e), ?_⟩
  unfold Cert.Attn.proj
  rw [coe_sum]
  exact Finset.sum_congr rfl fun d _ => by rw [hfx, hfw, EReal.coe_mul]

/-- A scaled score of real arrays is a real number. -/
theorem score_real (x : Cert.Attn.Arr3) (wq wk : Cert.Attn.Mat) (hx : ∀ i, ∃ r : ℝ, x i = r)
    (hq : ∀ i, ∃ r : ℝ, wq i = r) (hk : ∀ i, ∃ r : ℝ, wk i = r) (b : Fin 4) (q k : Fin 4096) :
    ∃ r : ℝ, Cert.Attn.score x wq wk b q k = r := by
  choose fq hfq using fun e => proj_real x wq hx hq b q e
  choose fk hfk using fun e => proj_real x wk hx hk b k e
  refine ⟨(∑ e : Fin 1024, fq e * fk e) * (1 / 32), ?_⟩
  unfold Cert.Attn.score
  rw [EReal.coe_mul, coe_sum]
  refine congrArg (· * _) ?_
  exact Finset.sum_congr rfl fun e _ => by rw [hfq, hfk, EReal.coe_mul]

end Cert.Attn.Finite

end
-- ==== Proof.KI.Bridge.lean ====
import proofs.«104880_j49323404427787_2_alg».proof.Proof.KI.Region0Value
import proofs.«104880_j49323404427787_2_alg».proof.Proof.KI.RunData0
import proofs.«104880_j49323404427787_2_alg».proof.Proof.Spec
import proofs.«104880_j49323404427787_2_alg».proof.Proof.Finite
import Idealize.ShloMosaic.Lib.Pipeline.RegionsLoop

/-! # What the attention region is entered with

The attention region reads the projected array: the first region's output, viewed as four batches of 4096 rows.
Its entry at batch `b`, row `s` and a column of the first, second or third band of 1024 columns is the projection of
row `(b, s)` of the launch activations onto the corresponding column of the first, second or third launch weight
matrix. If the launch arrays hold real numbers, so does every entry. -/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (ρ : Dev nD → PrngReg)

/-! ## The launch arrays, typed -/

/-- The launch activations on core `c`. -/
abbrev xOf (c : Dev nD) : Cert.Attn.Arr3 := m ((c : Thread nD τ).loc main_arg0)
/-- The three launch weight matrices on core `c`. -/
abbrev wqOf (c : Dev nD) : Cert.Attn.Mat := m ((c : Thread nD τ).loc main_arg1)
abbrev wkOf (c : Dev nD) : Cert.Attn.Mat := m ((c : Thread nD τ).loc main_arg2)
abbrev wvOf (c : Dev nD) : Cert.Attn.Mat := m ((c : Thread nD τ).loc main_arg3)

/-! ## The first region's output, entry by entry -/

/-- A column of the first band: the first weight matrix. -/
theorem qkv_entry_q (c : Dev nD) (r : Fin 16384) (col : Fin 3072) (b : Fin 4) (s : Fin 4096) (hr : r.val = b.val * 4096 + s.val)
    (j : Fin 1024) (hj : col.val = j.val) :
    qkv2d (V1 m c main_v2) (V1 m c main_v1) (ix2 r col) = Cert.Attn.proj (xOf m c) (wqOf m c) b s j := by
  rw [qkv2d_apply]; unfold Cert.Attn.proj
  refine Finset.sum_congr rfl fun d _ => ?_
  exact congrArg₂ (fun x y : EReal => x * y) (x2d_apply m c r d b s hr) (wcat_apply_q m c d col j hj)

/-- A column of the second band: the second weight matrix. -/
theorem qkv_entry_k (c : Dev nD) (r : Fin 16384) (col : Fin 3072) (b : Fin 4) (s : Fin 4096) (hr : r.val = b.val * 4096 + s.val)
    (j : Fin 1024) (hj : col.val = 1024 + j.val) :
    qkv2d (V1 m c main_v2) (V1 m c main_v1) (ix2 r col) = Cert.Attn.proj (xOf m c) (wkOf m c) b s j := by
  rw [qkv2d_apply]; unfold Cert.Attn.proj
  refine Finset.sum_congr rfl fun d _ => ?_
  exact congrArg₂ (fun x y : EReal => x * y) (x2d_apply m c r d b s hr) (wcat_apply_k m c d col j hj)

/-- A column of the third band: the third weight matrix. -/
theorem qkv_entry_v (c : Dev nD) (r : Fin 16384) (col : Fin 3072) (b : Fin 4) (s : Fin 4096) (hr : r.val = b.val * 4096 + s.val)
    (j : Fin 1024) (hj : col.val = 2048 + j.val) :
    qkv2d (V1 m c main_v2) (V1 m c main_v1) (ix2 r col) = Cert.Attn.proj (xOf m c) (wvOf m c) b s j := by
  rw [qkv2d_apply]; unfold Cert.Attn.proj
  refine Finset.sum_congr rfl fun d _ => ?_
  exact congrArg₂ (fun x y : EReal => x * y) (x2d_apply m c r d b s hr) (wcat_apply_v m c d col j hj)

/-! ## Through the first region and the reshape of its result -/

/-- The first region is entered with the launch memory after the first stretch of host operations. -/
theorem E1_eq (c : Dev nD) (b : Ref sig .tc) : E1 m ρ c b = V1 m c b := rfl

/-- The projected array on entry to the attention region is the first region's output, reshaped. -/
theorem qkv3_eq (c : Dev nD) :
    (E3 m ρ c main_v4 : S4x4096x3072.Idx → EReal)
      = shapeCast S4x4096x3072 (qkv2d (V1 m c main_v2) (V1 m c main_v1)) shapeCasts_S16384x3072_S4x4096x3072 := by
  have e : (E3 m ρ c main_v4 : S4x4096x3072.Idx → EReal)
      = shapeCast S4x4096x3072 (B2 m ρ c (Proc.devRef .tc main_v3) : S16384x3072.Idx → EReal) shapeCasts_S16384x3072_S4x4096x3072 := by
    dsimp only [E3, B3, hostOps1]
    after_results
    rfl
  rw [e]
  have e2 : (B2 m ρ c (Proc.devRef .tc main_v3) : S16384x3072.Idx → EReal) = qkv2d (V1 m c main_v2) (V1 m c main_v1) :=
    (B2_arr m ρ c 2).trans (qkv2d_eq (E1 m ρ) c)
  rw [e2]

/-- Batch `b`, row `s` of the reshaped array is row `4096 b + s` of the first region's output. -/
theorem qkv3_apply (c : Dev nD) (b : Fin 4) (s : Fin 4096) (col : Fin 3072) (r : Fin 16384) (hr : r.val = b.val * 4096 + s.val) :
    (E3 m ρ c main_v4 : S4x4096x3072.Idx → EReal) (ix3 b s col) = qkv2d (V1 m c main_v2) (V1 m c main_v1) (ix2 r col) := by
  rw [qkv3_eq]
  refine shapeCast_apply _ _ _ _ ?_
  show (S16384x3072.rowMajor (ix2 r col)).val = (S4x4096x3072.rowMajor (ix3 b s col)).val
  rw [Shape.rowMajor_val_three, Shape.rowMajor_val_two]
  show r.val * 3072 + col.val = (b.val * 4096 + s.val) * 3072 + col.val
  rw [hr]

/-- The row of the first region's output that batch `b`, row `s` is. -/
abbrev flatRow (b : Fin 4) (s : Fin 4096) : Fin 16384 := ⟨b.val * 4096 + s.val, by omega⟩

/-- THE QUERY BAND on entry to the attention region, -/
theorem entry_q_of (c : Dev nD) (b : Fin 4) (s : Fin 4096) (e : Fin 1024) (col : Fin 3072) (hcol : col.val = e.val) :
    (E3 m ρ c main_v4 : S4x4096x3072.Idx → EReal) (ix3 b s col) = Cert.Attn.proj (xOf m c) (wqOf m c) b s e :=
  (qkv3_apply m ρ c b s col (flatRow b s) rfl).trans (qkv_entry_q m c (flatRow b s) col b s rfl e hcol)
/-- the key band, -/
theorem entry_k_of (c : Dev nD) (b : Fin 4) (s : Fin 4096) (e : Fin 1024) (col : Fin 3072) (hcol : col.val = 1024 + e.val) :
    (E3 m ρ c main_v4 : S4x4096x3072.Idx → EReal) (ix3 b s col) = Cert.Attn.proj (xOf m c) (wkOf m c) b s e :=
  (qkv3_apply m ρ c b s col (flatRow b s) rfl).trans (qkv_entry_k m c (flatRow b s) col b s rfl e hcol)
/-- and the value band. -/
theorem entry_v_of (c : Dev nD) (b : Fin 4) (s : Fin 4096) (e : Fin 1024) (col : Fin 3072) (hcol : col.val = 2048 + e.val) :
    (E3 m ρ c main_v4 : S4x4096x3072.Idx → EReal) (ix3 b s col) = Cert.Attn.proj (xOf m c) (wvOf m c) b s e :=
  (qkv3_apply m ρ c b s col (flatRow b s) rfl).trans (qkv_entry_v m c (flatRow b s) col b s rfl e hcol)

theorem entry_q (c : Dev nD) (b : Fin 4) (s : Fin 4096) (e : Fin 1024) :
    (E3 m ρ c main_v4 : S4x4096x3072.Idx → EReal) (ix3 b s ⟨e.val, by omega⟩) = Cert.Attn.proj (xOf m c) (wqOf m c) b s e :=
  entry_q_of m ρ c b s e _ rfl
theorem entry_k (c : Dev nD) (b : Fin 4) (s : Fin 4096) (e : Fin 1024) :
    (E3 m ρ c main_v4 : S4x4096x3072.Idx → EReal) (ix3 b s ⟨1024 + e.val, by omega⟩) = Cert.Attn.proj (xOf m c) (wkOf m c) b s e :=
  entry_k_of m ρ c b s e _ rfl
theorem entry_v (c : Dev nD) (b : Fin 4) (s : Fin 4096) (e : Fin 1024) :
    (E3 m ρ c main_v4 : S4x4096x3072.Idx → EReal) (ix3 b s ⟨2048 + e.val, by omega⟩) = Cert.Attn.proj (xOf m c) (wvOf m c) b s e :=
  entry_v_of m ρ c b s e _ rfl

/-- Real launch arrays make every entry of the projected array real. -/
theorem entry_real (c : Dev nD) (hx : ∀ i, ∃ r : ℝ, xOf m c i = r) (hq : ∀ i, ∃ r : ℝ, wqOf m c i = r)
    (hk : ∀ i, ∃ r : ℝ, wkOf m c i = r) (hv : ∀ i, ∃ r : ℝ, wvOf m c i = r) :
    ∀ i : S4x4096x3072.Idx, ∃ r : ℝ, (E3 m ρ c main_v4 : S4x4096x3072.Idx → EReal) i = ((r : ℝ) : EReal) := by
  intro i
  obtain ⟨b, s, col, rfl⟩ : ∃ (b : Fin 4) (s : Fin 4096) (col : Fin 3072), i = ix3 b s col := ⟨i 0, i 1, i 2, eq_ix3 i⟩
  have hcol : col.val < 3072 := col.isLt
  by_cases h1 : col.val < 1024
  · rw [entry_q_of m ρ c b s ⟨col.val, h1⟩ col rfl]
    exact Cert.Attn.Finite.proj_real _ _ hx hq b s _
  · by_cases h2 : col.val < 2048
    · rw [entry_k_of m ρ c b s ⟨col.val - 1024, by omega⟩ col (by show col.val = 1024 + (col.val - 1024); omega)]
      exact Cert.Attn.Finite.proj_real _ _ hx hk b s _
    · rw [entry_v_of m ρ c b s ⟨col.val - 2048, by omega⟩ col (by show col.val = 2048 + (col.val - 2048); omega)]
      exact Cert.Attn.Finite.proj_real _ _ hx hv b s _

end Cert.KernelIdeal.HandValue

end
-- ==== Proof.KI.R1Pieces.lean ====
/-
  The attention kernel's body, case by case: what each buffer it stores into holds afterwards, as a closed form of the
  three input blocks and of what the three carried buffers held on entry.

  With query block `x0`, key block `x1`, value block `x2` and carried running maximum `s0`, running sum of weights `s1`
  and running weighted sum `s2`, one key tile is folded in as
    new maximum       = max of `s0` and the tile's row maxima,
    new sum           = exp (s0 - new maximum) * s1 + the row sums of exp (scores - new maximum),
    new weighted sum  = exp (s0 - new maximum) * s2 + exp (scores - new maximum) times the value block,
  where both reads of the running maximum happen before it is stored again. At a first key tile the carried three
  are first reset to `-∞, 0, 0` and then read back, so the same formulas apply at those reset values; at a last key tile
  the output tile is the new weighted sum divided by the new sum, read back after they were stored. Every store and
  every load goes through a buffer's whole rectangle at zero offsets, so a buffer's contents after the run is the
  payload of the last store into it, and a load after a store reads that store's payload.
-/
import proofs.«104880_j49323404427787_2_alg».proof.Proof.KI.R1RunC
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic

variable {F : FTy → Type} [FloatOps F]

/-- The offsets of a rank-2 whole-buffer rectangle are all zero. -/
theorem hz2 : (![0, 0] : Fin 2 → ℕ) = fun _ => 0 := funext fun a => by match a with | ⟨0, _⟩ => rfl | ⟨1, _⟩ => rfl
/-- The offsets of a rank-3 whole-buffer rectangle are all zero. -/
theorem hz3 : (![0, 0, 0] : Fin 3 → ℕ) = fun _ => 0 := funext fun a => by match a with | ⟨0, _⟩ => rfl | ⟨1, _⟩ => rfl | ⟨2, _⟩ => rfl

/-! ## First key tile: the carried three are reset, then one tile is folded in -/

/-- The running maximum after a first key tile: the fold from the reset value. -/
theorem canon_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 : Vec F S1x1024x1024 .bf16) (x1 : Vec F S1x512x1024 .bf16) (x2 : Vec F S1x512x1024 .bf16) :
    View.canon (kernelRun1_A c i arg3 harg3 arg4 harg4 arg5 harg5 arg6 harg6 arg7 harg7 arg8 harg8 arg9 harg9 hc0 hc1 x0 x1 x2).1 = k1_pay2 (k1_pay9 x0 x1 k1_pay4) := by
  unfold kernelRun1_A
  dsimp only
  sl_unfold_words
  rw [View.canon_cons_unit_zero hz2]
  simp only [View.readAt_eq_ld, harg3.read_unread, harg4.read_unread, harg5.read_unread, harg7.read_unread, harg8.read_unread,
    harg9.read_unread, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2,
    View.ld_unit_zero (S := S1024x1024) hz2]

/-- The running sum of weights after a first key tile. -/
theorem canon_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 : Vec F S1x1024x1024 .bf16) (x1 : Vec F S1x512x1024 .bf16) (x2 : Vec F S1x512x1024 .bf16) :
    View.canon (kernelRun1_A c i arg3 harg3 arg4 harg4 arg5 harg5 arg6 harg6 arg7 harg7 arg8 harg8 arg9 harg9 hc0 hc1 x0 x1 x2).2.1 = k1_pay12 x0 x1 k1_pay4 k1_pay4 k1_pay5 := by
  unfold kernelRun1_A
  dsimp only
  sl_unfold_words
  rw [View.canon_cons_unit_zero hz2]
  simp only [View.readAt_eq_ld, harg3.read_unread, harg4.read_unread, harg5.read_unread, harg7.read_unread, harg8.read_unread,
    harg9.read_unread, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2,
    View.ld_unit_zero (S := S1024x1024) hz2]

/-- The running weighted sum after a first key tile. -/
theorem canon_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 : Vec F S1x1024x1024 .bf16) (x1 : Vec F S1x512x1024 .bf16) (x2 : Vec F S1x512x1024 .bf16) :
    View.canon (kernelRun1_A c i arg3 harg3 arg4 harg4 arg5 harg5 arg6 harg6 arg7 harg7 arg8 harg8 arg9 harg9 hc0 hc1 x0 x1 x2).2.2.1 = k1_pay1 (k1_pay7 x2) (k1_pay10 x0 x1 k1_pay4 k1_pay4) (k1_pay11 x0 x1 k1_pay4) k1_pay6 := by
  unfold kernelRun1_A
  dsimp only
  sl_unfold_words
  rw [View.canon_cons_unit_zero hz2]
  simp only [View.readAt_eq_ld, harg3.read_unread, harg4.read_unread, harg5.read_unread, harg7.read_unread, harg8.read_unread,
    harg9.read_unread, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2,
    View.ld_unit_zero (S := S1024x1024) hz2]

/-! ## Middle key tile: one tile is folded into what the point before left -/

/-- The running maximum after a middle key tile. -/
theorem canon_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    View.canon (kernelRun1_B c i arg3 harg3 arg4 harg4 arg5 harg5 arg6 harg6 arg7 harg7 arg8 harg8 arg9 harg9 hc0 hc1 x0 x1 x2 xs0 xs1 xs2).1 = k1_pay2 (k1_pay9 x0 x1 xs0) := by
  unfold kernelRun1_B
  dsimp only
  sl_unfold_words
  rw [View.canon_unit_zero hz2]
  simp only [View.readAt_eq_ld, harg3.read_unread, harg4.read_unread, harg5.read_unread, harg7.read_unread, harg8.read_unread,
    harg9.read_unread, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2,
    View.ld_unit_zero (S := S1024x1024) hz2]

/-- The running sum of weights after a middle key tile. -/
theorem canon_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    View.canon (kernelRun1_B c i arg3 harg3 arg4 harg4 arg5 harg5 arg6 harg6 arg7 harg7 arg8 harg8 arg9 harg9 hc0 hc1 x0 x1 x2 xs0 xs1 xs2).2.1 = k1_pay12 x0 x1 xs0 xs0 xs1 := by
  unfold kernelRun1_B
  dsimp only
  sl_unfold_words
  rw [View.canon_unit_zero hz2]
  simp only [View.readAt_eq_ld, harg3.read_unread, harg4.read_unread, harg5.read_unread, harg7.read_unread, harg8.read_unread,
    harg9.read_unread, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2,
    View.ld_unit_zero (S := S1024x1024) hz2]

/-- The running weighted sum after a middle key tile. -/
theorem canon_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    View.canon (kernelRun1_B c i arg3 harg3 arg4 harg4 arg5 harg5 arg6 harg6 arg7 harg7 arg8 harg8 arg9 harg9 hc0 hc1 x0 x1 x2 xs0 xs1 xs2).2.2.1 = k1_pay1 (k1_pay7 x2) (k1_pay10 x0 x1 xs0 xs0) (k1_pay11 x0 x1 xs0) xs2 := by
  unfold kernelRun1_B
  dsimp only
  sl_unfold_words
  rw [View.canon_unit_zero hz2]
  simp only [View.readAt_eq_ld, harg3.read_unread, harg4.read_unread, harg5.read_unread, harg7.read_unread, harg8.read_unread,
    harg9.read_unread, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2,
    View.ld_unit_zero (S := S1024x1024) hz2]

/-! ## Last key tile: one tile is folded in, then the output tile is stored -/

/-- The output tile: the new weighted sum divided by the new sum of weights. -/
theorem canon_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    View.canon (kernelRun1_C c i arg3 harg3 arg4 harg4 arg5 harg5 arg6 harg6 arg7 harg7 arg8 harg8 arg9 harg9 hc0 hc1 x0 x1 x2 xs0 xs1 xs2).1 = k1_pay3 (k1_pay1 (k1_pay7 x2) (k1_pay10 x0 x1 xs0 xs0) (k1_pay11 x0 x1 xs0) xs2) (k1_pay12 x0 x1 xs0 xs0 xs1) := by
  unfold kernelRun1_C
  dsimp only
  sl_unfold_words
  rw [View.canon_unit_zero hz3]
  simp only [View.readAt_eq_ld, harg3.read_unread, harg4.read_unread, harg5.read_unread, harg7.read_unread, harg8.read_unread,
    harg9.read_unread, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2,
    View.ld_unit_zero (S := S1024x1024) hz2]

/-- The running maximum after a last key tile. -/
theorem canon_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    View.canon (kernelRun1_C c i arg3 harg3 arg4 harg4 arg5 harg5 arg6 harg6 arg7 harg7 arg8 harg8 arg9 harg9 hc0 hc1 x0 x1 x2 xs0 xs1 xs2).2.1 = k1_pay2 (k1_pay9 x0 x1 xs0) := by
  unfold kernelRun1_C
  dsimp only
  sl_unfold_words
  rw [View.canon_unit_zero hz2]
  simp only [View.readAt_eq_ld, harg3.read_unread, harg4.read_unread, harg5.read_unread, harg7.read_unread, harg8.read_unread,
    harg9.read_unread, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2,
    View.ld_unit_zero (S := S1024x1024) hz2]

/-- The running sum of weights after a last key tile. -/
theorem canon_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    View.canon (kernelRun1_C c i arg3 harg3 arg4 harg4 arg5 harg5 arg6 harg6 arg7 harg7 arg8 harg8 arg9 harg9 hc0 hc1 x0 x1 x2 xs0 xs1 xs2).2.2.1 = k1_pay12 x0 x1 xs0 xs0 xs1 := by
  unfold kernelRun1_C
  dsimp only
  sl_unfold_words
  rw [View.canon_unit_zero hz2]
  simp only [View.readAt_eq_ld, harg3.read_unread, harg4.read_unread, harg5.read_unread, harg7.read_unread, harg8.read_unread,
    harg9.read_unread, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2,
    View.ld_unit_zero (S := S1024x1024) hz2]

/-- The running weighted sum after a last key tile. -/
theorem canon_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    View.canon (kernelRun1_C c i arg3 harg3 arg4 harg4 arg5 harg5 arg6 harg6 arg7 harg7 arg8 harg8 arg9 harg9 hc0 hc1 x0 x1 x2 xs0 xs1 xs2).2.2.2.1 = k1_pay1 (k1_pay7 x2) (k1_pay10 x0 x1 xs0 xs0) (k1_pay11 x0 x1 xs0) xs2 := by
  unfold kernelRun1_C
  dsimp only
  sl_unfold_words
  rw [View.canon_unit_zero hz2]
  simp only [View.readAt_eq_ld, harg3.read_unread, harg4.read_unread, harg5.read_unread, harg7.read_unread, harg8.read_unread,
    harg9.read_unread, View.readCov_unit_zero (S := S1024x1) _ hz2, View.readCov_unit_zero (S := S1024x1024) _ hz2,
    View.ld_unit_zero (S := S1x1024x1024) hz3, View.ld_unit_zero (S := S1x512x1024) hz3, View.ld_unit_zero (S := S1024x1) hz2,
    View.ld_unit_zero (S := S1024x1024) hz2]

end Cert.KernelIdeal.HandValue

end
-- ==== Proof.KI.R1Payloads.lean ====
/-
  The attention kernel's arithmetic, read one entry at a time over the extended reals.

  For a query block `x0` of 1024 rows, a key block `x1` and a value block `x2` of 512 rows, each with a leading unit
  axis, and carried columns `s0` (running maximum), `s1` (running sum of weights) and a carried matrix `s2` (running
  weighted sum):
    score (r, j)        = (∑ e, x0 (0, r, e) * x1 (0, j, e)) * scale,
    new maximum r       = max (s0 r) (largest score of row r),
    rescaling factor r  = exp (s0 r - new maximum r),
    weight (r, j)       = exp (score (r, j) - new maximum r),
    new sum r           = factor r * s1 r + ∑ j, weight (r, j),
    new weighted (r, e) = factor r * s2 (r, e) + ∑ j, weight (r, j) * x2 (0, j, e),
    output (0, r, e)    = weighted (r, e) / sum r.
  The product of the query block with the transposed key block is the plain contraction over the feature axis; a row
  maximum from `-∞` over the key positions is a finite supremum; a change of float format is the identity.
-/
import proofs.«104880_j49323404427787_2_alg».proof.Proof.Gen.KernelIdeal.Skeleton
import proofs.«104880_j49323404427787_2_alg».proof.Proof.LibMatmul
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen
open Idealize.ShloMosaic Idealize.ShloMosaic.ValueIdx

/-! ## Two layout forms with a trailing unit axis -/

section Layout
variable {α : Type}

/-- A vector of `a` entries cast to a column `[a, 1]` reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Dropping the second axis of `[1024, 512]` leaves `[1024]`; a row index with key position `k` put back is `(r, k)`. -/
theorem lift_row (h : S1024x512.Reduces [1] S1024) (r : Fin 1024) (k : Fin (S1024x512.size 1)) :
    h.lift (ix1 r) k = ix2 r (⟨k.val, k.isLt⟩ : Fin 512) := by
  funext c; apply Fin.ext
  fin_cases c <;> rfl

/-- The word with sign set, exponent all ones and significand zero denotes `-∞`. -/
theorem ofBits_neg_inf : Ideal.ofBits .f32 0xFF800000#32 = ⊥ := by simp [Ideal.ofBits, Ideal.ieee]

/-! ## The payloads at an index -/

theorem pay2_eq {F : FTy → Type} [FloatOps F] (v : FVec F S1024x1 .f32) : k1_pay2 v = v := by
  unfold k1_pay2; exact shapeCast_self _ _

theorem pay4_apply (i : S1024x1.Idx) : k1_pay4 (F := Ideal) i = ⊥ := by
  unfold k1_pay4; rw [shapeCast_self]; exact ofBits_neg_inf
theorem pay5_apply (i : S1024x1.Idx) : k1_pay5 (F := Ideal) i = 0 := by
  unfold k1_pay5; rw [shapeCast_self]; exact Ideal.ofBits_zero_f32
theorem pay6_apply (i : S1024x1024.Idx) : k1_pay6 (F := Ideal) i = 0 := by
  unfold k1_pay6; rw [shapeCast_self]; exact Ideal.ofBits_zero_f32

/-- The value block with its leading unit axis dropped. -/
theorem pay7_apply (x2 : Vec Ideal S1x512x1024 .bf16) (j : Fin 512) (e : Fin 1024) :
    k1_pay7 (F := Ideal) x2 (ix2 j e) = x2 (ix3 (0 : Fin 1) j e) := by
  unfold k1_pay7
  exact shapeCast_1ab_ab_apply _ _ j e

/-- The tile's scores: row `r` of the query block against row `j` of the key block, contracted over the feature
    axis, times the scale word. -/
theorem pay8_apply (x0 : Vec Ideal S1x1024x1024 .bf16) (x1 : Vec Ideal S1x512x1024 .bf16) (r : Fin 1024) (j : Fin 512) :
    k1_pay8 (F := Ideal) x0 x1 (ix2 r j)
      = (∑ e : Fin 1024, x0 (ix3 (0 : Fin 1) r e) * x1 (ix3 (0 : Fin 1) j e)) * Ideal.ofBits .f32 0x3D000000#32 := by
  unfold k1_pay8
  refine (congrArg (· * Ideal.ofBits .f32 0x3D000000#32) (PlainMatmul.apply ⟨rfl, rfl, rfl, rfl, rfl, rfl⟩ none _ _ r j)).trans ?_
  refine congrArg (· * _) (Finset.sum_congr rfl fun e _ => ?_)
  rw [shapeCast_1ab_ab_apply, transpose_ix2_apply, shapeCast_1ab_ab_apply]

/-- The new running maximum at row `r`: the larger of the carried one and the tile's largest score in that row. -/
theorem pay9_apply (x0 : Vec Ideal S1x1024x1024 .bf16) (x1 : Vec Ideal S1x512x1024 .bf16) (s0 : Vec Ideal S1024x1 .f32)
    (r : Fin 1024) (u : Fin 1) :
    k1_pay9 (F := Ideal) x0 x1 s0 (ix2 r u)
      = max (s0 (ix2 r u)) (Finset.univ.sup fun j : Fin 512 => k1_pay8 (F := Ideal) x0 x1 (ix2 r j)) := by
  unfold k1_pay9
  refine congrArg (max (s0 (ix2 r u))) ?_
  refine (shapeCast_a_a1_apply _ _ r u).trans ?_
  refine (Ideal.multiReduction_maximumf_single _ _ _ _ _ (ix1 r)).trans ?_
  have hf : (k1_pay8 (F := Ideal) x0 x1 ∘ (reduces_S1024x512_S1024).lift (ix1 r))
      = fun j : Fin 512 => k1_pay8 (F := Ideal) x0 x1 (ix2 r j) :=
    funext fun k => congrArg (k1_pay8 (F := Ideal) x0 x1) (lift_row _ r k)
  rw [hf, Ideal.ofBits_def, ofBits_neg_inf]
  rfl

/-- The factor that rescales what was carried: `exp (carried maximum - new maximum)`. -/
theorem pay10_apply (x0 : Vec Ideal S1x1024x1024 .bf16) (x1 : Vec Ideal S1x512x1024 .bf16) (s0 s0' : Vec Ideal S1024x1 .f32)
    (i : S1024x1.Idx) :
    k1_pay10 (F := Ideal) x0 x1 s0 s0' i = Ideal.exp (s0' i - k1_pay9 (F := Ideal) x0 x1 s0 i) := rfl

/-- The tile's weights: `exp (score - new maximum of the row)`. -/
theorem pay11_apply (x0 : Vec Ideal S1x1024x1024 .bf16) (x1 : Vec Ideal S1x512x1024 .bf16) (s0 : Vec Ideal S1024x1 .f32)
    (r : Fin 1024) (j : Fin 512) :
    k1_pay11 (F := Ideal) x0 x1 s0 (ix2 r j)
      = Ideal.exp (k1_pay8 (F := Ideal) x0 x1 (ix2 r j) - k1_pay9 (F := Ideal) x0 x1 s0 (ix2 r (0 : Fin 1))) := by
  unfold k1_pay11
  refine congrArg (fun z => Ideal.exp (k1_pay8 (F := Ideal) x0 x1 (ix2 r j) - z)) ?_
  exact broadcastTo_a1_ab_apply _ _ r j

/-- The new running sum of weights at row `r`. -/
theorem pay12_apply (x0 : Vec Ideal S1x1024x1024 .bf16) (x1 : Vec Ideal S1x512x1024 .bf16) (s0 s0' s1 : Vec Ideal S1024x1 .f32)
    (r : Fin 1024) (u : Fin 1) :
    k1_pay12 (F := Ideal) x0 x1 s0 s0' s1 (ix2 r u)
      = k1_pay10 (F := Ideal) x0 x1 s0 s0' (ix2 r u) * s1 (ix2 r u) + ∑ j : Fin 512, k1_pay11 (F := Ideal) x0 x1 s0 (ix2 r j) := by
  unfold k1_pay12
  rw [shapeCast_self]
  refine congrArg (k1_pay10 (F := Ideal) x0 x1 s0 s0' (ix2 r u) * s1 (ix2 r u) + ·) ?_
  refine (shapeCast_a_a1_apply _ _ r u).trans ?_
  refine (Ideal.multiReduction_add_single _ _ _ _ _ (ix1 r)).trans ?_
  exact Finset.sum_congr rfl fun k _ => congrArg (k1_pay11 (F := Ideal) x0 x1 s0) (lift_row _ r k)

/-- The new running weighted sum at `(r, e)`. -/
theorem pay1_apply (v8 : FVec Ideal S512x1024 .bf16) (v19 : FVec Ideal S1024x1 .f32) (v22 : FVec Ideal S1024x512 .f32)
    (v31 : Vec Ideal S1024x1024 .f32) (r : Fin 1024) (e : Fin 1024) :
    k1_pay1 (F := Ideal) v8 v19 v22 v31 (ix2 r e)
      = v19 (ix2 r (0 : Fin 1)) * v31 (ix2 r e) + ∑ j : Fin 512, v22 (ix2 r j) * v8 (ix2 j e) := by
  unfold k1_pay1
  rw [shapeCast_self]
  refine Eq.trans (congrArg₂ (· + ·) (congrArg (· * v31 (ix2 r e)) (broadcastTo_a1_ab_apply v19 _ r e))
    (PlainMatmul.apply ⟨rfl, rfl, rfl, rfl, rfl, rfl⟩ none _ _ r e)) ?_
  rfl

/-- The output tile at `(0, r, e)`: the weighted sum divided by the row's sum of weights. -/
theorem pay3_apply (v46 : Vec Ideal S1024x1024 .f32) (v47 : Vec Ideal S1024x1 .f32) (u : Fin 1) (r : Fin 1024) (e : Fin 1024) :
    k1_pay3 (F := Ideal) v46 v47 (ix3 u r e) = Ideal.div (v46 (ix2 r e)) (v47 (ix2 r (0 : Fin 1))) := by
  unfold k1_pay3
  refine (shapeCast_ab_1ab_apply _ _ u r e).trans ?_
  exact congrArg (Ideal.div (v46 (ix2 r e))) (broadcastTo_a1_ab_apply v47 _ r e)

end Cert.KernelIdeal.HandValue

end
-- ==== Proof.LibOnlineSoftmax.lean ====
/-
  The online form of a normalized exponential weighting, over the extended reals.

  A row of real scores is cut into tiles of width `b`. Going through the tiles one keeps three numbers: the
  largest score seen so far, the sum of `exp (score - largest)` over the scores seen so far, and the same
  sum with each term multiplied by a value attached to the score. When a tile raises the largest score from
  `μ` to `μ'` the two sums are rescaled by `exp (μ - μ')`, because `exp (μ - μ') * exp (x - μ) = exp (x - μ')`.
  So after `k` tiles the three numbers are what one would compute in one pass knowing the largest score of
  those `k` tiles beforehand. Before the first tile the largest score is `⊥` and both sums are `0`; the first
  rescaling factor is `exp ⊥ = 0`, against sums that are `0` anyway.

  The values may be any extended reals: the only distributivity used is that of a nonnegative REAL factor
  over a sum, which holds on all of `EReal`.
-/
import Idealize.ShloMosaic.PureOps.Ideal
import Mathlib.Algebra.BigOperators.Fin

noncomputable section

namespace Cert.OnlineSoftmax

open Idealize.ShloMosaic

variable {b : ℕ}

/-- One tile's update of (largest score, sum of weights, weighted sum of values). -/
def step (s v : Fin b → EReal) (st : EReal × EReal × EReal) : EReal × EReal × EReal :=
  (max st.1 (Finset.univ.sup s),
   Ideal.exp (st.1 - max st.1 (Finset.univ.sup s)) * st.2.1 + ∑ j, Ideal.exp (s j - max st.1 (Finset.univ.sup s)),
   Ideal.exp (st.1 - max st.1 (Finset.univ.sup s)) * st.2.2
     + ∑ j, Ideal.exp (s j - max st.1 (Finset.univ.sup s)) * v j)

/-- The three numbers after the first `k` tiles. -/
def run (s v : ℕ → Fin b → EReal) : ℕ → EReal × EReal × EReal
  | 0 => (⊥, 0, 0)
  | k + 1 => step (s k) (v k) (run s v k)

/-- The largest score of the first `k` tiles (`⊥` for none). -/
def top (s : ℕ → Fin b → EReal) (k : ℕ) : EReal := (Finset.range k).sup fun k' => Finset.univ.sup (s k')

/-- The first `k` tiles' sum of weights relative to `μ`. -/
def wsum (s : ℕ → Fin b → EReal) (k : ℕ) (μ : EReal) : EReal :=
  ∑ k' ∈ Finset.range k, ∑ j, Ideal.exp (s k' j - μ)

/-- The first `k` tiles' weighted sum of values relative to `μ`. -/
def vsum (s v : ℕ → Fin b → EReal) (k : ℕ) (μ : EReal) : EReal :=
  ∑ k' ∈ Finset.range k, ∑ j, Ideal.exp (s k' j - μ) * v k' j

/-- A nonnegative real factor distributes over any finite sum of extended reals. -/
theorem coe_mul_sum {ι : Type*} (c : ℝ) (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- The coercion of a finite sum of reals is the sum of the coercions. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Rescaling one weight from the old largest score to the new one. -/
theorem exp_shift (a a' x : ℝ) :
    Ideal.exp ((a : EReal) - a') * Ideal.exp ((x : EReal) - a) = Ideal.exp ((x : EReal) - a') := by
  simp only [← EReal.coe_sub, Ideal.exp_coe, ← EReal.coe_mul]
  rw [← Real.exp_add]
  congr 2
  ring

/-- The largest score of at least one nonempty tile of real scores is real. -/
theorem top_real (hb : 0 < b) (s : ℕ → Fin b → EReal) (hs : ∀ k j, ∃ r : ℝ, s k j = r) (k : ℕ) (hk : 0 < k) :
    ∃ r : ℝ, top s k = r := by
  have hne_top : top s k ≠ ⊤ := by
    refine ne_of_lt ((Finset.sup_lt_iff (by exact bot_lt_top)).2 fun k' _ => ?_)
    refine (Finset.sup_lt_iff (by exact bot_lt_top)).2 fun j _ => ?_
    obtain ⟨r, hr⟩ := hs k' j
    rw [hr]; exact EReal.coe_lt_top r
  have hne_bot : top s k ≠ ⊥ := by
    obtain ⟨r, hr⟩ := hs 0 ⟨0, hb⟩
    have h1 : s 0 ⟨0, hb⟩ ≤ top s k :=
      (Finset.le_sup (f := s 0) (Finset.mem_univ _)).trans
        (Finset.le_sup (f := fun k' => Finset.univ.sup (s k')) (Finset.mem_range.2 hk))
    intro h
    rw [h, hr] at h1
    exact absurd (le_bot_iff.1 h1) (EReal.coe_ne_bot r)
  exact ⟨(top s k).toReal, (EReal.coe_toReal hne_top hne_bot).symm⟩

theorem top_succ (s : ℕ → Fin b → EReal) (k : ℕ) :
    top s (k + 1) = max (top s k) (Finset.univ.sup (s k)) := by
  unfold top
  rw [Finset.range_add_one, Finset.sup_insert, sup_comm]

/-- After `k` tiles of real scores the running numbers are the one-pass ones relative to the largest
    score of those tiles. -/
theorem run_eq (hb : 0 < b) (s v : ℕ → Fin b → EReal) (hs : ∀ k j, ∃ r : ℝ, s k j = r) (k : ℕ) :
    run s v k = (top s k, wsum s k (top s k), vsum s v k (top s k)) := by
  induction k with
  | zero => simp [run, top, wsum, vsum]
  | succ k ih =>
    rw [run, ih]
    unfold step
    dsimp only
    rw [← top_succ]
    obtain ⟨μ', hμ'⟩ := top_real hb s hs (k + 1) (Nat.succ_pos k)
    have key : ∀ (g : ℕ → Fin b → EReal),
        Ideal.exp (top s k - top s (k + 1)) * (∑ k' ∈ Finset.range k, ∑ j, Ideal.exp (s k' j - top s k) * g k' j)
          = ∑ k' ∈ Finset.range k, ∑ j, Ideal.exp (s k' j - top s (k + 1)) * g k' j := by
      intro g
      rcases Nat.eq_zero_or_pos k with hk | hk
      · subst hk; simp
      · obtain ⟨μ, hμ⟩ := top_real hb s hs k hk
        rw [hμ, hμ']
        have hα : Ideal.exp ((μ : EReal) - μ') = ((Real.exp (μ - μ') : ℝ) : EReal) := by
          rw [← EReal.coe_sub, Ideal.exp_coe]
        rw [hα, coe_mul_sum _ (Real.exp_pos _).le]
        refine Finset.sum_congr rfl fun k' _ => ?_
        rw [coe_mul_sum _ (Real.exp_pos _).le]
        refine Finset.sum_congr rfl fun j _ => ?_
        obtain ⟨x, hx⟩ := hs k' j
        rw [← hα, ← mul_assoc, hx, exp_shift]
    refine Prod.ext rfl (Prod.ext ?_ ?_)
    · show _ * wsum s k (top s k) + _ = wsum s (k + 1) (top s (k + 1))
      unfold wsum
      rw [Finset.sum_range_succ]
      congr 1
      simpa using key (fun _ _ => 1)
    · show _ * vsum s v k (top s k) + _ = vsum s v (k + 1) (top s (k + 1))
      unfold vsum
      rw [Finset.sum_range_succ]
      congr 1
      exact key v

/-- Dividing the weighted sum by (the sum of weights plus a nonnegative real `e`) is weighting each value by
    its weight over that same normalizer: the normalizer is a positive real, and a nonnegative real factor
    distributes over the sum whatever the values are. -/
theorem div_vsum (hb : 0 < b) (s v : ℕ → Fin b → EReal) (hs : ∀ k j, ∃ r : ℝ, s k j = r) (k : ℕ) (hk : 0 < k)
    (μ : ℝ) (e : ℝ) (he : 0 ≤ e) :
    Ideal.div (vsum s v k μ) (wsum s k μ + e)
      = ∑ k' ∈ Finset.range k, ∑ j, Ideal.div (Ideal.exp (s k' j - μ)) (wsum s k μ + e) * v k' j := by
  -- the sum of weights is a positive real
  have hw : ∃ w : ℝ, 0 < w ∧ wsum s k μ = w := by
    have hterm : ∀ k' j, ∃ w : ℝ, 0 < w ∧ Ideal.exp (s k' j - μ) = w := fun k' j => by
      obtain ⟨x, hx⟩ := hs k' j
      exact ⟨Real.exp (x - μ), Real.exp_pos _, by rw [hx, ← EReal.coe_sub, Ideal.exp_coe]⟩
    choose w hwpos hweq using hterm
    refine ⟨∑ k' ∈ Finset.range k, ∑ j, w k' j, ?_, ?_⟩
    · refine Finset.sum_pos (fun k' _ => Finset.sum_pos (fun j _ => hwpos k' j) ⟨⟨0, hb⟩, Finset.mem_univ _⟩)
        ⟨0, Finset.mem_range.2 hk⟩
    · unfold wsum
      simp only [hweq]
      rw [coe_sum]
      exact Finset.sum_congr rfl fun k' _ => (coe_sum _ _).symm
  obtain ⟨w, hwpos, hweq⟩ := hw
  have hne : (w + e : ℝ) ≠ 0 := by linarith
  have hc : (0 : ℝ) ≤ 1 / (w + e) := (one_div_pos.2 (by linarith)).le
  have hden : wsum s k μ + e = ((w + e : ℝ) : EReal) := by rw [hweq, EReal.coe_add]
  rw [hden]
  simp only [Ideal.div_coe hne]
  unfold vsum
  rw [mul_comm, coe_mul_sum _ hc]
  refine Finset.sum_congr rfl fun k' _ => ?_
  rw [coe_mul_sum _ hc]
  refine Finset.sum_congr rfl fun j _ => ?_
  rw [← mul_assoc, mul_comm ((1 / (w + e) : ℝ) : EReal)]

/-! ## A whole row cut into tiles -/

section Row

variable {n N : ℕ}

/-- Tile `k` of a row of length `N`: entry `j` of the tile is entry `j + b * k` of the row (`0` past the end). -/
def tile (b : ℕ) (S : Fin N → EReal) (k : ℕ) (j : Fin b) : EReal :=
  if h : j.val + b * k < N then S ⟨j.val + b * k, h⟩ else 0

/-- The position in the row of entry `j` of tile `k`. -/
def pos (hN : N = n * b) : Fin n × Fin b ≃ Fin N := finProdFinEquiv.trans (finCongr hN.symm)

theorem pos_val (hN : N = n * b) (k : Fin n) (j : Fin b) : (pos hN (k, j)).val = j.val + b * k.val := rfl

theorem tile_pos (hN : N = n * b) (S : Fin N → EReal) (k : Fin n) (j : Fin b) :
    tile b S k.val j = S (pos hN (k, j)) := by
  unfold tile
  rw [dif_pos (by rw [← pos_val hN k j]; exact (pos hN (k, j)).isLt)]
  rfl

/-- A sum over the tiles is the sum over the row. -/
theorem sum_tiles (hN : N = n * b) (G : ℕ → Fin b → EReal) (g : Fin N → EReal)
    (h : ∀ (k : Fin n) (j : Fin b), G k.val j = g (pos hN (k, j))) :
    ∑ k ∈ Finset.range n, ∑ j, G k j = ∑ J, g J := by
  rw [Finset.sum_range fun k => ∑ j, G k j, ← Equiv.sum_comp (pos hN) g, Fintype.sum_prod_type]
  exact Finset.sum_congr rfl fun k _ => Finset.sum_congr rfl fun j _ => h k j

/-- The largest entry over the tiles is the largest entry of the row. -/
theorem top_tiles (hN : N = n * b) (S : Fin N → EReal) : top (tile b S) n = Finset.univ.sup S := by
  refine le_antisymm ?_ ?_
  · refine Finset.sup_le fun k hk => Finset.sup_le fun j _ => ?_
    have := tile_pos hN S ⟨k, Finset.mem_range.1 hk⟩ j
    rw [show tile b S k j = S (pos hN (⟨k, Finset.mem_range.1 hk⟩, j)) from this]
    exact Finset.le_sup (Finset.mem_univ _)
  · refine Finset.sup_le fun J _ => ?_
    obtain ⟨⟨k, j⟩, rfl⟩ := (pos hN).surjective J
    rw [← tile_pos hN S k j]
    exact (Finset.le_sup (f := tile b S k.val) (Finset.mem_univ j)).trans
      (Finset.le_sup (f := fun k' => Finset.univ.sup (tile b S k')) (Finset.mem_range.2 k.isLt))

/-- THE LAW. Going through a row of real scores tile by tile, rescaling as the largest score grows, and dividing
    the weighted sum by (the sum of weights plus a nonnegative real) at the end, gives the sum over the whole row
    of each value times its weight relative to the row's largest score, each weight divided by the same
    normalizer first. -/
theorem row_law (hb : 0 < b) (hn : 0 < n) (hN : N = n * b) (S v : Fin N → EReal) (hS : ∀ J, ∃ r : ℝ, S J = r)
    (e : ℝ) (he : 0 ≤ e) :
    Ideal.div (run (tile b S) (tile b v) n).2.2 ((run (tile b S) (tile b v) n).2.1 + e)
      = ∑ J, Ideal.div (Ideal.exp (S J - Finset.univ.sup S))
              ((∑ J', Ideal.exp (S J' - Finset.univ.sup S)) + e) * v J := by
  have hs : ∀ k j, ∃ r : ℝ, tile b S k j = r := fun k j => by
    unfold tile
    split
    · exact hS _
    · exact ⟨0, by simp⟩
  rw [run_eq hb _ _ hs n]
  obtain ⟨μ, hμ⟩ := top_real hb _ hs n hn
  have htop := top_tiles hN S
  rw [hμ] at htop ⊢
  dsimp only
  rw [div_vsum hb _ _ hs n hn μ e he, ← htop]
  have hw : wsum (tile b S) n μ = ∑ J', Ideal.exp (S J' - μ) :=
    sum_tiles hN _ _ fun k j => by rw [tile_pos hN S k j]
  rw [hw]
  exact sum_tiles hN _ _ fun k j => by rw [tile_pos hN S k j, tile_pos hN v k j]

end Row

end Cert.OnlineSoftmax

end
-- ==== Proof.KI.R1Step.lean ====
/-
  One grid point of the attention kernel is one step of the tile-by-tile weighting.

  At row `r` and feature `e`, the three numbers the body leaves — the new running maximum, the new running sum of
  weights, the new running weighted sum — are the online update of the three numbers it found, by the tile's scores of
  row `r` and the value block's column `e`.
-/
import proofs.«104880_j49323404427787_2_alg».proof.Proof.KI.R1Payloads
import proofs.«104880_j49323404427787_2_alg».proof.Proof.LibOnlineSoftmax

noncomputable section

namespace Cert.KernelIdeal.HandValue

open Cert.KernelIdeal Cert.KernelIdeal.Gen
open Idealize.ShloMosaic Idealize.ShloMosaic.ValueIdx

/-- The fold of one key tile, at row `r` and feature `e`, is one online step. -/
theorem step_eq (x0 : Vec Ideal S1x1024x1024 .bf16) (x1 x2 : Vec Ideal S1x512x1024 .bf16) (s0 s1 : Vec Ideal S1024x1 .f32)
    (s2 : Vec Ideal S1024x1024 .f32) (r e : Fin 1024) :
    (k1_pay2 (k1_pay9 (F := Ideal) x0 x1 s0) (ix2 r (0 : Fin 1)), k1_pay12 (F := Ideal) x0 x1 s0 s0 s1 (ix2 r (0 : Fin 1)),
        k1_pay1 (F := Ideal) (k1_pay7 x2) (k1_pay10 x0 x1 s0 s0) (k1_pay11 x0 x1 s0) s2 (ix2 r e))
      = Cert.OnlineSoftmax.step (fun j : Fin 512 => k1_pay8 (F := Ideal) x0 x1 (ix2 r j))
          (fun j : Fin 512 => x2 (ix3 (0 : Fin 1) j e)) (s0 (ix2 r (0 : Fin 1)), s1 (ix2 r (0 : Fin 1)), s2 (ix2 r e)) := by
  unfold Cert.OnlineSoftmax.step
  refine Prod.ext ?_ (Prod.ext ?_ ?_)
  · show k1_pay2 (k1_pay9 (F := Ideal) x0 x1 s0) (ix2 r (0 : Fin 1)) = _
    rw [pay2_eq, pay9_apply]
  · show k1_pay12 (F := Ideal) x0 x1 s0 s0 s1 (ix2 r (0 : Fin 1)) = _
    rw [pay12_apply, pay10_apply, pay9_apply]
    refine congrArg (_ + ·) (Finset.sum_congr rfl fun j _ => ?_)
    rw [pay11_apply, pay9_apply]
  · show k1_pay1 (F := Ideal) (k1_pay7 x2) (k1_pay10 x0 x1 s0 s0) (k1_pay11 x0 x1 s0) s2 (ix2 r e) = _
    rw [pay1_apply, pay10_apply, pay9_apply]
    refine congrArg (_ + ·) (Finset.sum_congr rfl fun j _ => ?_)
    rw [pay11_apply, pay9_apply, pay7_apply]

end Cert.KernelIdeal.HandValue

end
-- ==== Proof.KI.R1Blocks.lean ====
/-
  The attention region's blocks, by coordinates.

  Grid point `t` of the (4, 4, 8) grid is batch `t / 32`, query tile `(t / 8) % 4`, key tile `t % 8`. The query window's
  block at `t` is rows `1024 * query tile + r` of that batch in column block 0 of the fused projection array, the key and
  value windows' blocks are rows `512 * key tile + j` in column blocks 1 and 2, and the output window's block is rows
  `1024 * query tile + r` of the output array. An entry of a block is the array's entry at block index times block size
  plus the entry's coordinate inside the block, axis by axis. The output's blocks at the last key tiles cover its array.
-/
import proofs.«104880_j49323404427787_2_alg».proof.Proof.KI.R1Base
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

variable {F : FTy → Type} [FloatOps F]

/-! ## The four index maps in closed form over the grid -/

theorem idx1_0 : ∀ t : Fin cfg1.N, win1_0.index t (0 : Fin 3) = t.val / 32 ∧ win1_0.index t (1 : Fin 3) = (t.val / 8) % 4
    ∧ win1_0.index t (2 : Fin 3) = 0 :=
  (by decide +kernel : ∀ t : Fin grid1.N, _)
theorem idx1_1 : ∀ t : Fin cfg1.N, win1_1.index t (0 : Fin 3) = t.val / 32 ∧ win1_1.index t (1 : Fin 3) = t.val % 8
    ∧ win1_1.index t (2 : Fin 3) = 1 :=
  (by decide +kernel : ∀ t : Fin grid1.N, _)
theorem idx1_2 : ∀ t : Fin cfg1.N, win1_2.index t (0 : Fin 3) = t.val / 32 ∧ win1_2.index t (1 : Fin 3) = t.val % 8
    ∧ win1_2.index t (2 : Fin 3) = 2 :=
  (by decide +kernel : ∀ t : Fin grid1.N, _)
theorem idx1_3 : ∀ t : Fin cfg1.N, win1_3.index t (0 : Fin 3) = t.val / 32 ∧ win1_3.index t (1 : Fin 3) = (t.val / 8) % 4
    ∧ win1_3.index t (2 : Fin 3) = 0 :=
  (by decide +kernel : ∀ t : Fin grid1.N, _)

/-! ## The input blocks read at an entry -/

section Blocks
variable (V : (c : Dev nD) → (b : Ref sig .tc) → Buf (Elt F) ((c : Thread nD τ).loc b))

/-- The query block's entry `(0, r, e)` is the array's entry `(batch, 1024 * query tile + r, e)`. -/
theorem iblk1_0_apply (c : Dev nD) (t : Fin cfg1.N) (u : Fin 1) (r e : Fin 1024) (b : Fin 4) (q : Fin 4096) (e' : Fin 3072)
    (hb : b.val = t.val / 32) (hq : q.val = 1024 * ((t.val / 8) % 4) + r.val) (he : e'.val = e.val) :
    iblk1 V c 0 t (ix3 u r e) = V c main_v4 (ix3 b q e') := by
  obtain ⟨e0, e1, e2⟩ := idx1_0 t
  show V c main_v4 (((cfg1.win 0).blk t).view.emb (ix3 u r e)) = V c main_v4 (ix3 b q e')
  refine congrArg (V c main_v4) (funext fun a => Fin.ext ?_)
  match a with
  | ⟨0, _⟩ => show win1_0.index t (0 : Fin 3) * 1 + 1 * u.val = b.val; omega
  | ⟨1, _⟩ => show win1_0.index t (1 : Fin 3) * 1024 + 1 * r.val = q.val; omega
  | ⟨2, _⟩ => show win1_0.index t (2 : Fin 3) * 1024 + 1 * e.val = e'.val; omega

/-- The key block's entry `(0, j, e)` is the array's entry `(batch, 512 * key tile + j, 1024 + e)`. -/
theorem iblk1_1_apply (c : Dev nD) (t : Fin cfg1.N) (u : Fin 1) (j : Fin 512) (e : Fin 1024) (b : Fin 4) (k : Fin 4096) (e' : Fin 3072)
    (hb : b.val = t.val / 32) (hk : k.val = 512 * (t.val % 8) + j.val) (he : e'.val = 1024 + e.val) :
    iblk1 V c 1 t (ix3 u j e) = V c main_v4 (ix3 b k e') := by
  obtain ⟨e0, e1, e2⟩ := idx1_1 t
  show V c main_v4 (((cfg1.win 1).blk t).view.emb (ix3 u j e)) = V c main_v4 (ix3 b k e')
  refine congrArg (V c main_v4) (funext fun a => Fin.ext ?_)
  match a with
  | ⟨0, _⟩ => show win1_1.index t (0 : Fin 3) * 1 + 1 * u.val = b.val; omega
  | ⟨1, _⟩ => show win1_1.index t (1 : Fin 3) * 512 + 1 * j.val = k.val; omega
  | ⟨2, _⟩ => show win1_1.index t (2 : Fin 3) * 1024 + 1 * e.val = e'.val; omega

/-- The value block's entry `(0, j, e)` is the array's entry `(batch, 512 * key tile + j, 2048 + e)`. -/
theorem iblk1_2_apply (c : Dev nD) (t : Fin cfg1.N) (u : Fin 1) (j : Fin 512) (e : Fin 1024) (b : Fin 4) (k : Fin 4096) (e' : Fin 3072)
    (hb : b.val = t.val / 32) (hk : k.val = 512 * (t.val % 8) + j.val) (he : e'.val = 2048 + e.val) :
    iblk1 V c 2 t (ix3 u j e) = V c main_v4 (ix3 b k e') := by
  obtain ⟨e0, e1, e2⟩ := idx1_2 t
  show V c main_v4 (((cfg1.win 2).blk t).view.emb (ix3 u j e)) = V c main_v4 (ix3 b k e')
  refine congrArg (V c main_v4) (funext fun a => Fin.ext ?_)
  match a with
  | ⟨0, _⟩ => show win1_2.index t (0 : Fin 3) * 1 + 1 * u.val = b.val; omega
  | ⟨1, _⟩ => show win1_2.index t (1 : Fin 3) * 512 + 1 * j.val = k.val; omega
  | ⟨2, _⟩ => show win1_2.index t (2 : Fin 3) * 1024 + 1 * e.val = e'.val; omega

end Blocks

/-! ## The output window's blocks -/

/-- The output block's entry `(0, r, e)` sits at the array's index `(batch, 1024 * query tile + r, e)`. -/
theorem emb1_3 (t : Fin cfg1.N) (u : Fin 1) (r e : Fin 1024) (b : Fin 4) (q : Fin 4096)
    (hb : b.val = t.val / 32) (hq : q.val = 1024 * ((t.val / 8) % 4) + r.val) :
    (((cfg1.win 3).blk t).view.emb (ix3 u r e) : S4x4096x1024.Idx) = ix3 b q e := by
  obtain ⟨e0, e1, e2⟩ := idx1_3 t
  refine funext fun a => Fin.ext ?_
  match a with
  | ⟨0, _⟩ => show win1_3.index t (0 : Fin 3) * 1 + 1 * u.val = b.val; omega
  | ⟨1, _⟩ => show win1_3.index t (1 : Fin 3) * 1024 + 1 * r.val = q.val; omega
  | ⟨2, _⟩ => show win1_3.index t (2 : Fin 3) * 1024 + 1 * e.val = e.val; omega

/-- An index of the output array is in point `t`'s block iff each coordinate is in the block's range on its axis. -/
theorem mem_blk3 (t : Fin cfg1.N) (i : S4x4096x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v5).slice (win1_3.rect t)).set ↔ _
  rw [View.set_slice_whole, Rect.mem_set_unit]
  exact Iff.rfl

/-- Every index of the output array is in the block of a point that writes its block back: the last key tile of the
    index's batch and query tile. -/
theorem cover3 (i : S4x4096x1024.Idx) :
    ∃ t : Fin cfg1.N, (cfg1.win 3).flush t = true ∧ i ∈ ((cfg1.win 3).blk t).view.set := by
  have h0 : (i 0).val < 4 := (i 0).isLt
  have h1 : (i 1).val < 4096 := (i 1).isLt
  have h2 : (i 2).val < 1024 := (i 2).isLt
  have hN : grid1.N = 128 := N_1
  have hlt : 32 * (i 0).val + 8 * ((i 1).val / 1024) + 7 < cfg1.N := by show _ < grid1.N; rw [hN]; omega
  refine ⟨⟨32 * (i 0).val + 8 * ((i 1).val / 1024) + 7, hlt⟩, (flush1_3 _).mpr (by show (32 * (i 0).val + 8 * ((i 1).val / 1024) + 7) % 8 = 7; omega), ?_⟩
  rw [mem_blk3]
  obtain ⟨e0, e1, e2⟩ := idx1_3 ⟨32 * (i 0).val + 8 * ((i 1).val / 1024) + 7, hlt⟩
  have v : (⟨32 * (i 0).val + 8 * ((i 1).val / 1024) + 7, hlt⟩ : Fin cfg1.N).val = 32 * (i 0).val + 8 * ((i 1).val / 1024) + 7 := rfl
  rw [v] at e0 e1
  intro a
  match a with
  | ⟨0, _⟩ => show win1_3.index _ (0 : Fin 3) * 1 ≤ (i 0).val ∧ (i 0).val < win1_3.index _ (0 : Fin 3) * 1 + 1; omega
  | ⟨1, _⟩ => show win1_3.index _ (1 : Fin 3) * 1024 ≤ (i 1).val ∧ (i 1).val < win1_3.index _ (1 : Fin 3) * 1024 + 1024; omega
  | ⟨2, _⟩ => show win1_3.index _ (2 : Fin 3) * 1024 ≤ (i 2).val ∧ (i 2).val < win1_3.index _ (2 : Fin 3) * 1024 + 1024; omega

end Cert.KernelIdeal.HandValue

end
-- ==== Proof.KI.R1Attn.lean ====
/-
  The attention layer as a function of ONE fused projection array, and the two laws that join it to the rest.

  The kernel keeps the three projections side by side in one array `a` of shape `[4, 4096, 3072]`: columns `0 … 1023`
  hold the query projection, `1024 … 2047` the key projection, `2048 … 3071` the value projection. Over it the scaled
  score of query row `q` against key row `k` is `sc a b q k`, and `attnAt a b q e` is the softmax-weighted sum of the value
  column `e`. Going through a row of real scores in eight tiles of 512, rescaling as the running maximum grows and
  dividing at the end, gives exactly `attnAt`; and when the three column blocks are the three projections of the
  layer's inputs, `attnOf a` is the layer's specification.
-/
import proofs.«104880_j49323404427787_2_alg».proof.Proof.Spec
import proofs.«104880_j49323404427787_2_alg».proof.Proof.LibOnlineSoftmax
import Idealize.ShloMosaic.PureOps.Ideal.Laws
import Idealize.ShloMosaic.Lib.ValueIdx

noncomputable section

namespace Cert.KernelIdeal.HandValue

open Idealize.ShloMosaic Idealize.ShloMosaic.ValueIdx

/-- A fused projection array `[4, 4096, 3072]` over the extended reals. -/
abbrev Fused : Type := (⟨3, ![4, 4096, 3072]⟩ : Shape).Idx → EReal

/-- Column `e` of the query, key and value blocks of the fused array's last axis. -/
def qCol (e : Fin 1024) : Fin 3072 := ⟨e.val, by omega⟩
def kCol (e : Fin 1024) : Fin 3072 := ⟨1024 + e.val, by omega⟩
def vCol (e : Fin 1024) : Fin 3072 := ⟨2048 + e.val, by omega⟩

/-- The scaled score of query row `q` against key row `k` in batch `b`, with the scale as the kernel's own word. -/
def sc (a : Fused) (b : Fin 4) (q k : Fin 4096) : EReal :=
  (∑ e : Fin 1024, a (ix3 b q (qCol e)) * a (ix3 b k (kCol e))) * Ideal.ofBits .f32 0x3D000000#32

/-- The layer's value at `(b, q, e)` over the fused array. -/
def attnAt (a : Fused) (b : Fin 4) (q : Fin 4096) (e : Fin 1024) : EReal :=
  ∑ k : Fin 4096,
    Ideal.div (Ideal.exp (sc a b q k - Finset.univ.sup fun k' : Fin 4096 => sc a b q k'))
        ((∑ k' : Fin 4096, Ideal.exp (sc a b q k' - Finset.univ.sup fun k'' : Fin 4096 => sc a b q k'')) + ((0 : ℝ) : EReal))
      * a (ix3 b k (vCol e))

/-- The layer's result array over the fused array. -/
def attnOf (a : Fused) : Cert.Attn.Arr3 := fun i => attnAt a (i 0) (i 1) (i 2)

/-- The scale word, exponent field 122 and significand zero, denotes `2 ^ (-5) = 1/32`. -/
theorem ofBits_inv32 : Ideal.ofBits .f32 0x3D000000#32 = ((1 / 32 : ℝ) : EReal) := by
  simp [Ideal.ofBits, Ideal.ieee, -EReal.coe_mul]
  norm_num

/-- Over a real array every score is real. -/
theorem sc_real (a : Fused) (hreal : ∀ i, ∃ r : ℝ, a i = r) (b : Fin 4) (q k : Fin 4096) : ∃ r : ℝ, sc a b q k = r := by
  choose f hf using hreal
  refine ⟨(∑ e : Fin 1024, f (ix3 b q (qCol e)) * f (ix3 b k (kCol e))) * (1 / 32), ?_⟩
  unfold sc
  rw [ofBits_inv32, EReal.coe_mul, Cert.OnlineSoftmax.coe_sum]
  refine congrArg (· * _) ?_
  exact Finset.sum_congr rfl fun e _ => by rw [hf, hf, EReal.coe_mul]

/-- Eight tiles of 512 scores, folded in one after the other and divided at the end, give the layer's value: the
    tile-by-tile law at a row of real scores, with nothing added to the normalizer. -/
theorem row_attn (a : Fused) (hreal : ∀ i, ∃ r : ℝ, a i = r) (b : Fin 4) (q : Fin 4096) (e : Fin 1024) :
    Ideal.div (Cert.OnlineSoftmax.run (Cert.OnlineSoftmax.tile 512 (sc a b q))
          (Cert.OnlineSoftmax.tile 512 fun J : Fin 4096 => a (ix3 b J (vCol e))) 8).2.2
        (Cert.OnlineSoftmax.run (Cert.OnlineSoftmax.tile 512 (sc a b q))
          (Cert.OnlineSoftmax.tile 512 fun J : Fin 4096 => a (ix3 b J (vCol e))) 8).2.1
      = attnAt a b q e := by
  have h := Cert.OnlineSoftmax.row_law (b := 512) (n := 8) (N := 4096) (by norm_num) (by norm_num) (by norm_num)
    (sc a b q) (fun J : Fin 4096 => a (ix3 b J (vCol e))) (fun J => sc_real a hreal b q J) 0 le_rfl
  refine Eq.trans ?_ h
  rw [EReal.coe_zero, add_zero]

/-- When the three column blocks of the fused array are the three projections of the layer's inputs, the layer over
    the fused array is the layer's specification. -/
theorem attnOf_eq_G (x : Cert.Attn.Arr3) (wq wk wv : Cert.Attn.Mat) (a : Fused)
    (hq : ∀ (b : Fin 4) (s : Fin 4096) (e : Fin 1024), a (ix3 b s (qCol e)) = Cert.Attn.proj x wq b s e)
    (hk : ∀ (b : Fin 4) (s : Fin 4096) (e : Fin 1024), a (ix3 b s (kCol e)) = Cert.Attn.proj x wk b s e)
    (hv : ∀ (b : Fin 4) (s : Fin 4096) (e : Fin 1024), a (ix3 b s (vCol e)) = Cert.Attn.proj x wv b s e) :
    attnOf a = Cert.Attn.G x wq wk wv := by
  have hs : ∀ (b : Fin 4) (q k : Fin 4096), sc a b q k = Cert.Attn.score x wq wk b q k := fun b q k => by
    unfold sc Cert.Attn.score
    rw [ofBits_inv32]
    refine congrArg (· * _) ?_
    exact Finset.sum_congr rfl fun e _ => by rw [hq, hk]
  funext i
  obtain ⟨b, q, e, rfl⟩ : ∃ (b : Fin 4) (q : Fin 4096) (e : Fin 1024), i = ix3 b q e := ⟨i 0, i 1, i 2, eq_ix3 i⟩
  show attnAt a b q e = ∑ k : Fin 4096,
      Ideal.div (Ideal.exp (Cert.Attn.score x wq wk b q k - Cert.Attn.rowMax x wq wk b q))
          (Cert.Attn.rowSum x wq wk b q + ((0 : ℝ) : EReal)) * Cert.Attn.proj x wv b k e
  unfold attnAt Cert.Attn.rowSum Cert.Attn.rowMax
  simp only [hs, hv]

end Cert.KernelIdeal.HandValue

end
-- ==== Proof.KI.R1Value.lean ====
/-
  The attention region, point by point: after the point at batch `b`, query tile `qi` and key tile `ki`, the three
  carried buffers hold, at row `r` and feature `e`, the running maximum, the running sum of weights and the running
  weighted sum of the first `ki + 1` tiles of row `1024 * qi + r` of batch `b`; at the last key tile the output tile
  holds their quotient, which is the layer's value; and the output blocks written back at the last key tiles cover
  the output array. So the array ends holding the layer over the fused projection array.
-/
import proofs.«104880_j49323404427787_2_alg».proof.Proof.KI.R1Data
import proofs.«104880_j49323404427787_2_alg».proof.Proof.KI.R1Pieces
import proofs.«104880_j49323404427787_2_alg».proof.Proof.KI.R1Step
import proofs.«104880_j49323404427787_2_alg».proof.Proof.KI.R1Blocks
import proofs.«104880_j49323404427787_2_alg».proof.Proof.KI.R1Attn

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.OnlineSoftmax (step run tile)

variable (V : (c : Dev nD) → (b : Ref sig .tc) → Buf (Elt Ideal) ((c : Thread nD τ).loc b))

/-- The fused projection array as the region finds it. -/
abbrev fused (c : Dev nD) : Fused := V c main_v4

/-- The three carried buffers. -/
abbrev Carried : Type := Vec Ideal S1024x1 .f32 × Vec Ideal S1024x1 .f32 × Vec Ideal S1024x1024 .f32

/-- The three carried numbers of row `r` and feature `e`. -/
abbrev rowOf (p : Carried) (r e : Fin 1024) : EReal × EReal × EReal :=
  (p.1 (ix2 r (0 : Fin 1)), p.2.1 (ix2 r (0 : Fin 1)), p.2.2 (ix2 r e))

/-- One key tile folded into the carried three. -/
abbrev fold1 (x0 : Vec Ideal S1x1024x1024 .bf16) (x1 x2 : Vec Ideal S1x512x1024 .bf16) (p : Carried) : Carried :=
  (k1_pay2 (k1_pay9 x0 x1 p.1), k1_pay12 x0 x1 p.1 p.1 p.2.1,
    k1_pay1 (k1_pay7 x2) (k1_pay10 x0 x1 p.1 p.1) (k1_pay11 x0 x1 p.1) p.2.2)

/-- The output tile from the carried three after the fold: weighted sum over sum of weights. -/
abbrev outOf (x0 : Vec Ideal S1x1024x1024 .bf16) (x1 x2 : Vec Ideal S1x512x1024 .bf16) (p : Carried) : Vec Ideal S1x1024x1024 .f32 :=
  k1_pay3 (F := Ideal) (k1_pay1 (F := Ideal) (k1_pay7 (F := Ideal) x2) (k1_pay10 (F := Ideal) x0 x1 p.1 p.1) (k1_pay11 (F := Ideal) x0 x1 p.1) p.2.2)
    (k1_pay12 (F := Ideal) x0 x1 p.1 p.1 p.2.1)

/-- The reset values: `-∞`, `0`, `0`. -/
abbrev reset : Carried := (k1_pay4 (F := Ideal), k1_pay5 (F := Ideal), k1_pay6 (F := Ideal))

theorem rowOf_fold1 (x0 : Vec Ideal S1x1024x1024 .bf16) (x1 x2 : Vec Ideal S1x512x1024 .bf16) (p : Carried) (r e : Fin 1024) :
    rowOf (fold1 x0 x1 x2 p) r e
      = step (fun j : Fin 512 => k1_pay8 (F := Ideal) x0 x1 (ix2 r j)) (fun j : Fin 512 => x2 (ix3 (0 : Fin 1) j e)) (rowOf p r e) :=
  step_eq x0 x1 x2 p.1 p.2.1 p.2.2 r e

theorem rowOf_reset (r e : Fin 1024) : rowOf reset r e = (⊥, 0, 0) := by
  show (k1_pay4 (F := Ideal) (ix2 r (0 : Fin 1)), k1_pay5 (F := Ideal) (ix2 r (0 : Fin 1)), k1_pay6 (F := Ideal) (ix2 r e)) = _
  rw [pay4_apply, pay5_apply, pay6_apply]

/-! ## What a point leaves, case by case -/

theorem carried_A (c : Dev nD) (t : Fin cfg1.N) (p : Carried) (h0 : t.val % 8 = 0) (h1 : ¬t.val % 8 = 7) :
    (stepAt1 V c t p).2 = fold1 (iblk1 V c 0 t) (iblk1 V c 1 t) (iblk1 V c 2 t) reset := by
  rw [stepAt1_A V c t p h0 h1]
  exact congrArg₂ Prod.mk (canon_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))
    (congrArg₂ Prod.mk (canon_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))
      (canon_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)))

theorem carried_B (c : Dev nD) (t : Fin cfg1.N) (p : Carried) (h0 : ¬t.val % 8 = 0) (h1 : ¬t.val % 8 = 7) :
    (stepAt1 V c t p).2 = fold1 (iblk1 V c 0 t) (iblk1 V c 1 t) (iblk1 V c 2 t) p := by
  rw [stepAt1_B V c t p h0 h1]
  exact congrArg₂ Prod.mk (canon_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2)
    (congrArg₂ Prod.mk (canon_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2)
      (canon_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2))

theorem carried_C (c : Dev nD) (t : Fin cfg1.N) (p : Carried) (h0 : ¬t.val % 8 = 0) (h1 : t.val % 8 = 7) :
    (stepAt1 V c t p).2 = fold1 (iblk1 V c 0 t) (iblk1 V c 1 t) (iblk1 V c 2 t) p := by
  rw [stepAt1_C V c t p h0 h1]
  exact congrArg₂ Prod.mk (canon_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2)
    (congrArg₂ Prod.mk (canon_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2)
      (canon_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2))

theorem out_C (c : Dev nD) (t : Fin cfg1.N) (p : Carried) (h0 : ¬t.val % 8 = 0) (h1 : t.val % 8 = 7) :
    (stepAt1 V c t p).1 = outOf (iblk1 V c 0 t) (iblk1 V c 1 t) (iblk1 V c 2 t) p := by
  rw [stepAt1_C V c t p h0 h1]
  dsimp only
  exact canon_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2

/-- At a last key tile the output tile's entry is the quotient of the row's carried numbers. -/
theorem out_C_apply (c : Dev nD) (t : Fin cfg1.N) (p : Carried) (h0 : ¬t.val % 8 = 0) (h1 : t.val % 8 = 7) (u : Fin 1) (r e : Fin 1024) :
    (stepAt1 V c t p).1 (ix3 u r e)
      = Ideal.div (rowOf (stepAt1 V c t p).2 r e).2.2 (rowOf (stepAt1 V c t p).2 r e).2.1 := by
  rw [carried_C V c t p h0 h1, out_C V c t p h0 h1]
  show k1_pay3 (F := Ideal) _ _ (ix3 u r e) = _
  rw [pay3_apply]

/-! ## The tile's scores and values are a tile of the row -/

theorem tileS (c : Dev nD) (t : Fin cfg1.N) (r : Fin 1024) (b : Fin 4) (q : Fin 4096) (hb : b.val = t.val / 32)
    (hq : q.val = 1024 * ((t.val / 8) % 4) + r.val) :
    (fun j : Fin 512 => k1_pay8 (F := Ideal) (iblk1 V c 0 t) (iblk1 V c 1 t) (ix2 r j))
      = tile 512 (sc (fused V c) b q) (t.val % 8) := by
  funext j
  have hlt : j.val + 512 * (t.val % 8) < 4096 := by have := j.isLt; omega
  unfold Cert.OnlineSoftmax.tile
  rw [dif_pos hlt]
  refine (pay8_apply (iblk1 V c 0 t) (iblk1 V c 1 t) r j).trans ?_
  unfold sc
  refine congrArg (· * _) (Finset.sum_congr rfl fun e _ => ?_)
  rw [iblk1_0_apply V c t 0 r e b q (qCol e) hb hq rfl,
    iblk1_1_apply V c t 0 j e b ⟨j.val + 512 * (t.val % 8), hlt⟩ (kCol e) hb (by show j.val + 512 * (t.val % 8) = _; omega) rfl]

theorem tileV (c : Dev nD) (t : Fin cfg1.N) (e : Fin 1024) (b : Fin 4) (hb : b.val = t.val / 32) :
    (fun j : Fin 512 => iblk1 V c 2 t (ix3 (0 : Fin 1) j e))
      = tile 512 (fun J : Fin 4096 => fused V c (ix3 b J (vCol e))) (t.val % 8) := by
  funext j
  have hlt : j.val + 512 * (t.val % 8) < 4096 := by have := j.isLt; omega
  unfold Cert.OnlineSoftmax.tile
  rw [dif_pos hlt]
  exact iblk1_2_apply V c t 0 j e b ⟨j.val + 512 * (t.val % 8), hlt⟩ (vCol e) hb (by show j.val + 512 * (t.val % 8) = _; omega) rfl

/-! ## The carried three after each point -/

theorem carried_eq (c : Dev nD) : ∀ (n : ℕ) (hn : n < cfg1.N) (r e : Fin 1024) (b : Fin 4) (q : Fin 4096),
    b.val = n / 32 → q.val = 1024 * ((n / 8) % 4) + r.val →
    rowOf (outsAt1 V c n hn).2 r e
      = run (tile 512 (sc (fused V c) b q)) (tile 512 fun J : Fin 4096 => fused V c (ix3 b J (vCol e))) (n % 8 + 1)
  | 0, hn, r, e, b, q, hb, hq => by
    show rowOf (stepAt1 V c ⟨0, hn⟩ noCarry).2 r e = _
    rw [carried_A V c ⟨0, hn⟩ noCarry rfl (by show ¬(0 : ℕ) % 8 = 7; decide), rowOf_fold1, rowOf_reset, tileS V c ⟨0, hn⟩ r b q hb hq,
      tileV V c ⟨0, hn⟩ e b hb]
    rfl
  | n + 1, hn, r, e, b, q, hb, hq => by
    show rowOf (stepAt1 V c ⟨n + 1, hn⟩ (outsAt1 V c n (Nat.lt_of_succ_lt hn)).2).2 r e = _
    by_cases h0 : (n + 1) % 8 = 0
    · rw [carried_A V c ⟨n + 1, hn⟩ _ h0 (by show ¬(n + 1) % 8 = 7; omega), rowOf_fold1, rowOf_reset,
        tileS V c ⟨n + 1, hn⟩ r b q hb hq, tileV V c ⟨n + 1, hn⟩ e b hb]
      show step (tile 512 _ ((n + 1) % 8)) (tile 512 _ ((n + 1) % 8)) (⊥, 0, 0) = _
      rw [h0]
      rfl
    · have hfold : (stepAt1 V c ⟨n + 1, hn⟩ (outsAt1 V c n (Nat.lt_of_succ_lt hn)).2).2
          = fold1 (iblk1 V c 0 ⟨n + 1, hn⟩) (iblk1 V c 1 ⟨n + 1, hn⟩) (iblk1 V c 2 ⟨n + 1, hn⟩) (outsAt1 V c n (Nat.lt_of_succ_lt hn)).2 := by
        by_cases h1 : (n + 1) % 8 = 7
        · exact carried_C V c ⟨n + 1, hn⟩ _ h0 h1
        · exact carried_B V c ⟨n + 1, hn⟩ _ h0 h1
      have hN : grid1.N = 128 := N_1
      have hn' : n + 1 < 128 := hN ▸ hn
      rw [hfold, rowOf_fold1, carried_eq c n (Nat.lt_of_succ_lt hn) r e b q (by omega) (by omega),
        tileS V c ⟨n + 1, hn⟩ r b q hb hq, tileV V c ⟨n + 1, hn⟩ e b hb]
      show step (tile 512 _ ((n + 1) % 8)) (tile 512 _ ((n + 1) % 8)) _ = _
      have hk : (n + 1) % 8 = n % 8 + 1 := by omega
      rw [hk]
      rfl

/-! ## The output tile and the output array -/

theorem out_at (c : Dev nD) (t : Fin cfg1.N) (h7 : t.val % 8 = 7) (u : Fin 1) (r e : Fin 1024) :
    (outsAt1 V c t.val t.isLt).1 (ix3 u r e)
      = Ideal.div (rowOf (outsAt1 V c t.val t.isLt).2 r e).2.2 (rowOf (outsAt1 V c t.val t.isLt).2 r e).2.1 := by
  rw [outsAt1_pos V c t (by omega)]
  exact out_C_apply V c t _ (by omega) h7 u r e

/-- At a last key tile the output tile holds the layer's values of its rows. -/
theorem out_apply (c : Dev nD) (hreal : ∀ i, ∃ r : ℝ, fused V c i = r) (t : Fin cfg1.N) (h7 : t.val % 8 = 7) (y : S1x1024x1024.Idx) :
    (outsAt1 V c t.val t.isLt).1 y = attnOf (fused V c) (((cfg1.win 3).blk t).view.emb y) := by
  obtain ⟨u, r, e, rfl⟩ : ∃ (u : Fin 1) (r e : Fin 1024), y = ix3 u r e := ⟨y 0, y 1, y 2, eq_ix3 y⟩
  have hN : grid1.N = 128 := N_1
  have ht : t.val < 128 := hN ▸ t.isLt
  have hbl : t.val / 32 < 4 := by omega
  have hql : 1024 * ((t.val / 8) % 4) + r.val < 4096 := by have := r.isLt; omega
  rw [emb1_3 t u r e ⟨t.val / 32, hbl⟩ ⟨1024 * ((t.val / 8) % 4) + r.val, hql⟩ rfl rfl, out_at V c t h7 u r e,
    carried_eq V c t.val t.isLt r e ⟨t.val / 32, hbl⟩ ⟨1024 * ((t.val / 8) % 4) + r.val, hql⟩ rfl rfl, h7]
  exact row_attn (fused V c) hreal ⟨t.val / 32, hbl⟩ ⟨1024 * ((t.val / 8) % 4) + r.val, hql⟩ e

/-- What a last key tile writes back is its block of the layer over the fused array. -/
theorem flushed_eq (c : Dev nD) (hreal : ∀ i, ∃ r : ℝ, fused V c i = r) (t : Fin cfg1.N) (hf : (cfg1.win 3).flush t = true) :
    (dat1 V c).flushed 3 t = ((cfg1.win 3).blk t).view.read (Elt Ideal) (attnOf (fused V c)) := by
  have h7 : t.val % 8 = 7 := (flush1_3 t).mp hf
  show (cfg1.win 3).cut (grid1.coords t) ((dat1 V c).after 3 t) = _
  rw [after1_3]
  funext y
  exact out_apply V c hreal t h7 y

/-- THE REGION'S VALUE: over a real fused projection array the output array ends holding the layer over it. -/
theorem attn_eq (c : Dev nD) (hreal : ∀ i, ∃ r : ℝ, fused V c i = r) :
    (dat1 (F := Ideal) V c).arrAt 3 cfg1.N = attnOf (fused V c) :=
  (dat1 V c).arrAt_eq_of_cover 3 (attnOf (fused V c)) (fun t hf => flushed_eq V c hreal t hf) cover3

end Cert.KernelIdeal.HandValue

end
-- ==== Proof.KI.Final.lean ====
/-
  What the attention region leaves in the result array, in terms of the launch arrays: the layer's function `G`.

  The region is entered with the fused projection array holding, in its three column blocks, the projections of the
  input onto the three weight matrices (the projection region's output, reshaped). Finite inputs make those entries
  real numbers, which is what the tile-by-tile form of the normalized exponential weighting needs to equal the
  one-pass form; the one-pass form over those projections is `G`.
-/
import proofs.«104880_j49323404427787_2_alg».proof.Proof.KI.RunData
import proofs.«104880_j49323404427787_2_alg».proof.Proof.KI.Bridge
import proofs.«104880_j49323404427787_2_alg».proof.Proof.KI.R1Value
import proofs.«104880_j49323404427787_2_alg».proof.Proof.KI.R1Attn
import proofs.«104880_j49323404427787_2_alg».proof.Proof.Finite

noncomputable section

namespace Cert.KernelIdeal.HandValue

open Cert.KernelIdeal Cert.KernelIdeal.Gen Cert.KernelIdeal.Hand
open Idealize.ShloMosaic Idealize.ShloMosaic.TcCoe Idealize.SL.Sem

/-- Under the precondition (every input entry finite) the attention region's output array is `G` of the four
    launch arrays. -/
theorem out5_eq_G [Cert.Pre_finite_inputs.Facts] (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    out5 (F := Ideal) m ρ c = Cert.Attn.G (xOf m c) (wqOf m c) (wkOf m c) (wvOf m c) := by
  obtain ⟨hx, hq, hk, hv⟩ := Cert.Attn.Finite.of_pre _ _ _ _ hpre
  unfold out5
  rw [attn_eq (E3 m ρ) c (entry_real m ρ c hx hq hk hv)]
  exact attnOf_eq_G _ _ _ _ _ (entry_q m ρ c) (entry_k m ρ c) (entry_v m ρ c)

end Cert.KernelIdeal.HandValue

end
-- ==== Proof.RefValue.lean ====
/-
  The reference program's result, read as one function of its four argument arrays over the extended reals, is the
  attention layer `Cert.Attn.G`.

  The reference projects the input three times, contracts the query and key projections over the feature axis, divides
  by `sqrt 1024`, subtracts each row's maximum, exponentiates, divides by each row's sum and contracts with the value
  projection over the key positions. Read at an index `(b, q, e)`, stage by stage, this is `G` term for term. The
  only laws used hold at every extended real: `sqrt 1024 = 32`; division by the real `32` is multiplication by `1/32`;
  `max ⊥ y = y`; a fold of `max` from `⊥` is a finite supremum; `0 + s = s + 0`. So no finiteness hypothesis appears.
-/
import proofs.«104880_j49323404427787_2_alg».proof.Proof.Gen.ReferenceIdeal.Read
import proofs.«104880_j49323404427787_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Attn

/-! ## The literal words -/

/-- The word with exponent field 137 and significand zero denotes `2 ^ 10 = 1024`. -/
theorem ofBits_1024 : Ideal.ofBits .f32 0x44800000#32 = ((1024 : ℝ) : EReal) := by
  simp [Ideal.ofBits, Ideal.ieee, -EReal.coe_mul]
  norm_num

/-- The word with sign set, exponent all ones and significand zero denotes `-∞`. -/
theorem ofBits_neg_inf : Ideal.ofBits .f32 0xFF800000#32 = ⊥ := by
  simp [Ideal.ofBits, Ideal.ieee]

/-- `1024 = 32 ^ 2`, so its square root is `32`. -/
theorem sqrt_1024 : Ideal.sqrt (((1024 : ℝ) : EReal)) = ((32 : ℝ) : EReal) := by
  rw [Ideal.sqrt_coe, if_neg (by norm_num)]
  have h : (1024 : ℝ) = 32 ^ 2 := by norm_num
  rw [h, Real.sqrt_sq (by norm_num)]

/-! ## Operand indices by coordinates

Each operation reads its operands at an index assembled from the result index and, for a contraction or a row sum, the
summation coordinate. At a result index given by its coordinates these are again indices given by coordinates. -/

theorem lidx0 (b : Fin 4) (s : Fin 4096) (e : Fin 1024) (k : Fin 1024) : lidx_main_v0 (ix3 b s e) k = ix3 b s k :=
  funext fun a => Fin.ext (by match a with | ⟨0, _⟩ => rfl | ⟨1, _⟩ => rfl | ⟨2, _⟩ => rfl)
theorem ridx0 (b : Fin 4) (s : Fin 4096) (e : Fin 1024) (k : Fin 1024) : ridx_main_v0 (ix3 b s e) k = ix2 k e :=
  funext fun a => Fin.ext (by match a with | ⟨0, _⟩ => rfl | ⟨1, _⟩ => rfl)
theorem lidx1 (b : Fin 4) (s : Fin 4096) (e : Fin 1024) (k : Fin 1024) : lidx_main_v1 (ix3 b s e) k = ix3 b s k :=
  funext fun a => Fin.ext (by match a with | ⟨0, _⟩ => rfl | ⟨1, _⟩ => rfl | ⟨2, _⟩ => rfl)
theorem ridx1 (b : Fin 4) (s : Fin 4096) (e : Fin 1024) (k : Fin 1024) : ridx_main_v1 (ix3 b s e) k = ix2 k e :=
  funext fun a => Fin.ext (by match a with | ⟨0, _⟩ => rfl | ⟨1, _⟩ => rfl)
theorem lidx2 (b : Fin 4) (s : Fin 4096) (e : Fin 1024) (k : Fin 1024) : lidx_main_v2 (ix3 b s e) k = ix3 b s k :=
  funext fun a => Fin.ext (by match a with | ⟨0, _⟩ => rfl | ⟨1, _⟩ => rfl | ⟨2, _⟩ => rfl)
theorem ridx2 (b : Fin 4) (s : Fin 4096) (e : Fin 1024) (k : Fin 1024) : ridx_main_v2 (ix3 b s e) k = ix2 k e :=
  funext fun a => Fin.ext (by match a with | ⟨0, _⟩ => rfl | ⟨1, _⟩ => rfl)
theorem lidx3 (b : Fin 4) (q k : Fin 4096) (e : Fin 1024) : lidx_main_v3 (ix3 b q k) e = ix3 b q e :=
  funext fun a => Fin.ext (by match a with | ⟨0, _⟩ => rfl | ⟨1, _⟩ => rfl | ⟨2, _⟩ => rfl)
theorem ridx3 (b : Fin 4) (q k : Fin 4096) (e : Fin 1024) : ridx_main_v3 (ix3 b q k) e = ix3 b k e :=
  funext fun a => Fin.ext (by match a with | ⟨0, _⟩ => rfl | ⟨1, _⟩ => rfl | ⟨2, _⟩ => rfl)
theorem idx10_11 (b : Fin 4) (q k : Fin 4096) : idx_main_v10 (idx_main_v11 (ix3 b q k)) = ix2 b q :=
  funext fun a => Fin.ext (by match a with | ⟨0, _⟩ => rfl | ⟨1, _⟩ => rfl)
theorem idx14 (b : Fin 4) (q k : Fin 4096) : idx_main_v14 (ix2 b q) k = ix3 b q k :=
  funext fun a => Fin.ext (by match a with | ⟨0, _⟩ => rfl | ⟨1, _⟩ => rfl | ⟨2, _⟩ => rfl)
theorem idx15_16 (b : Fin 4) (q k : Fin 4096) : idx_main_v15 (idx_main_v16 (ix3 b q k)) = ix2 b q :=
  funext fun a => Fin.ext (by match a with | ⟨0, _⟩ => rfl | ⟨1, _⟩ => rfl)
theorem lidx18 (b : Fin 4) (q k : Fin 4096) (e : Fin 1024) : lidx_main_v18 (ix3 b q e) k = ix3 b q k :=
  funext fun a => Fin.ext (by match a with | ⟨0, _⟩ => rfl | ⟨1, _⟩ => rfl | ⟨2, _⟩ => rfl)
theorem ridx18 (b : Fin 4) (q k : Fin 4096) (e : Fin 1024) : ridx_main_v18 (ix3 b q e) k = ix3 b k e :=
  funext fun a => Fin.ext (by match a with | ⟨0, _⟩ => rfl | ⟨1, _⟩ => rfl | ⟨2, _⟩ => rfl)

/-! ## The three projections -/

/-- The query projection at `(b, s, e)` is the contraction of row `(b, s)` of the input with column `e` of the weights. -/
theorem proj_q (x : FVec Ideal S4x4096x1024 .f32) (w : FVec Ideal S1024x1024 .f32) (b : Fin 4) (s : Fin 4096) (e : Fin 1024) :
    val_main_v0 (F := Ideal) x w (ix3 b s e) = proj x w b s e := by
  rw [val_main_v0_apply]
  exact Finset.sum_congr rfl fun k _ => by rw [lidx0, ridx0]

/-- The key projection, likewise. -/
theorem proj_k (x : FVec Ideal S4x4096x1024 .f32) (w : FVec Ideal S1024x1024 .f32) (b : Fin 4) (s : Fin 4096) (e : Fin 1024) :
    val_main_v1 (F := Ideal) x w (ix3 b s e) = proj x w b s e := by
  rw [val_main_v1_apply]
  exact Finset.sum_congr rfl fun k _ => by rw [lidx1, ridx1]

/-- The value projection, likewise. -/
theorem proj_v (x : FVec Ideal S4x4096x1024 .f32) (w : FVec Ideal S1024x1024 .f32) (b : Fin 4) (s : Fin 4096) (e : Fin 1024) :
    val_main_v2 (F := Ideal) x w (ix3 b s e) = proj x w b s e := by
  rw [val_main_v2_apply]
  exact Finset.sum_congr rfl fun k _ => by rw [lidx2, ridx2]

/-! ## Scores -/

/-- The divisor broadcast over the score array is `sqrt 1024 = 32` everywhere. -/
theorem scale_eq (i : S4x4096x4096.Idx) : val_main_v5 (F := Ideal) i = ((32 : ℝ) : EReal) := by
  rw [val_main_v5_apply, val_main_v4_apply, val_main_cst_apply, Ideal.hostUnary_sqrt_def, Ideal.ofBits_def, ofBits_1024,
    sqrt_1024]

/-- The scaled score at `(b, q, k)`: dividing by the real `32` is multiplying by `1/32` on every extended real, the
    infinities included, so no finiteness is used. -/
theorem score_eq (x : FVec Ideal S4x4096x1024 .f32) (wq wk : FVec Ideal S1024x1024 .f32) (b : Fin 4) (q k : Fin 4096) :
    val_main_v6 (F := Ideal) x wq wk (ix3 b q k) = score x wq wk b q k := by
  rw [val_main_v6_apply, val_main_v3_apply, scale_eq, Ideal.hostDivf_def, Ideal.div_coe (by norm_num : (32 : ℝ) ≠ 0)]
  unfold score
  refine congrArg (· * _) ?_
  exact Finset.sum_congr rfl fun e _ => by rw [lidx3, ridx3, proj_q, proj_k]

/-! ## The row maximum -/

/-- Dropping the last axis of `[4, 4096, 4096]` leaves `[4, 4096]`. -/
theorem reduces_d2 : S4x4096x4096.Reduces [2] S4x4096 := by decide

/-- The row index `(b, q)` with key position `k` put back on the dropped axis is `(b, q, k)`. -/
theorem lift_row (b : Fin 4) (q : Fin 4096) (k : Fin (S4x4096x4096.size 2)) :
    reduces_d2.lift (ix2 b q) k = ix3 b q (⟨k.val, k.isLt⟩ : Fin 4096) := by
  funext c; apply Fin.ext
  fin_cases c <;> rfl

/-- The maximum with `-∞` of the max-reduction of row `(b, q)` from `-∞` is the supremum of the row's scores:
    `max ⊥ y = y`, and a fold of `max` from `⊥` over all key positions is the finite supremum. -/
theorem rowMax_eq (x : FVec Ideal S4x4096x1024 .f32) (wq wk : FVec Ideal S1024x1024 .f32) (b : Fin 4) (q : Fin 4096) :
    val_main_v9 (F := Ideal) x wq wk (ix2 b q) = rowMax x wq wk b q := by
  rw [val_main_v9_apply, val_main_v8_apply, val_main_cst_1_apply]
  unfold val_main_v7
  rw [Host.reduce_eq_fold_single FloatOps.maximumf _ _ _ reduces_d2 _]
  have hf : (val_main_v6 (F := Ideal) x wq wk ∘ reduces_d2.lift (ix2 b q)) = fun k : Fin 4096 => score x wq wk b q k :=
    funext fun k => by
      show val_main_v6 (F := Ideal) x wq wk (reduces_d2.lift (ix2 b q) k) = _
      rw [lift_row, score_eq]
      rfl
  rw [hf, val_main_cst_0_apply, Ideal.ofBits_def, ofBits_neg_inf, Ideal.maximumf_def, max_eq_right bot_le]
  rfl

/-- The row maximum broadcast back along the key axis. -/
theorem max_at (x : FVec Ideal S4x4096x1024 .f32) (wq wk : FVec Ideal S1024x1024 .f32) (b : Fin 4) (q k : Fin 4096) :
    val_main_v11 (F := Ideal) x wq wk (ix3 b q k) = rowMax x wq wk b q := by
  rw [val_main_v11_apply, val_main_v10_apply, idx10_11, rowMax_eq]

/-! ## Exponentials, the normalizer, the weights -/

/-- The exponential of the score shifted by its row's maximum. -/
theorem expo_eq (x : FVec Ideal S4x4096x1024 .f32) (wq wk : FVec Ideal S1024x1024 .f32) (b : Fin 4) (q k : Fin 4096) :
    val_main_v13 (F := Ideal) x wq wk (ix3 b q k) = Ideal.exp (score x wq wk b q k - rowMax x wq wk b q) := by
  rw [val_main_v13_apply, val_main_v12_apply, score_eq, max_at, Ideal.subf_def, Ideal.hostUnary_exp_def]

/-- The row sum from the initial value `0`: `0 + s = s = s + 0`. -/
theorem rowSum_eq (x : FVec Ideal S4x4096x1024 .f32) (wq wk : FVec Ideal S1024x1024 .f32) (b : Fin 4) (q : Fin 4096) :
    val_main_v14 (F := Ideal) x wq wk (ix2 b q) = rowSum x wq wk b q + ((0 : ℝ) : EReal) := by
  rw [val_main_v14_apply, val_main_cst_2_apply, Ideal.ofBits_def, Ideal.ofBits_zero_f32, zero_add, EReal.coe_zero, add_zero]
  unfold rowSum
  exact Finset.sum_congr rfl fun k _ => by rw [idx14, expo_eq]

/-- The normalizer broadcast back along the key axis. -/
theorem sum_at (x : FVec Ideal S4x4096x1024 .f32) (wq wk : FVec Ideal S1024x1024 .f32) (b : Fin 4) (q k : Fin 4096) :
    val_main_v16 (F := Ideal) x wq wk (ix3 b q k) = rowSum x wq wk b q + ((0 : ℝ) : EReal) := by
  rw [val_main_v16_apply, val_main_v15_apply, idx15_16, rowSum_eq]

/-- The softmax weight at `(b, q, k)`. -/
theorem weight_eq (x : FVec Ideal S4x4096x1024 .f32) (wq wk : FVec Ideal S1024x1024 .f32) (b : Fin 4) (q k : Fin 4096) :
    val_main_v17 (F := Ideal) x wq wk (ix3 b q k)
      = Ideal.div (Ideal.exp (score x wq wk b q k - rowMax x wq wk b q)) (rowSum x wq wk b q + ((0 : ℝ) : EReal)) := by
  rw [val_main_v17_apply, expo_eq, sum_at, Ideal.hostDivf_def]

/-! ## The result -/

/-- The reference's result, as a function of its four argument arrays, is the attention layer `G`, on all extended-real
    arrays: the last contraction runs over the key positions, its left factor the weight, its right factor the value
    projection. -/
theorem ref_eq (x : FVec Ideal S4x4096x1024 .f32) (wq wk wv : FVec Ideal S1024x1024 .f32) :
    val_main_v18 (F := Ideal) x wq wk wv = G x wq wk wv := by
  funext i
  obtain ⟨b, q, e, rfl⟩ : ∃ (b : Fin 4) (q : Fin 4096) (e : Fin 1024), i = ix3 b q e := ⟨i 0, i 1, i 2, eq_ix3 i⟩
  rw [val_main_v18_apply]
  show _ = ∑ k : Fin 4096, Ideal.div (Ideal.exp (score x wq wk b q k - rowMax x wq wk b q))
      (rowSum x wq wk b q + ((0 : ℝ) : EReal)) * proj x wv b k e
  exact Finset.sum_congr rfl fun k _ => by rw [lidx18, ridx18, weight_eq, proj_v]

end Cert.ReferenceIdeal.RefValue

end
-- ==== Proof.RefRun.lean ====
/-
  The reference program's run, stated over the attention layer `Cert.Attn.G`.

  Every weakly fair execution of the reference terminates with its result array at the composed term of its
  operations applied to the four argument arrays as launched, and with those arrays unchanged. That term is `G` of the
  launch arrays, so the run's post can be stated with `G`; dropping the result gives the frame.
-/
import proofs.«104880_j49323404427787_2_alg».proof.Defs
import proofs.«104880_j49323404427787_2_alg».proof.Proof.Gen.Pre_finite_inputs
import proofs.«104880_j49323404427787_2_alg».proof.Proof.RefValue

noncomputable section

namespace Cert.Attn.Ref

open Idealize.ShloMosaic Idealize.ShloMosaic.TcCoe Idealize.SL.Sem

/-- The reference runs to the end, faults nowhere and leaves its four argument arrays unchanged: its run with the
    result forgotten. The precondition is not used. -/
theorem frame_ri : Cert.frame_ReferenceIdeal := fun m ρ _ =>
  (θ_run Cert.ReferenceIdeal.defs _ _).mono (fun _ h c => (h c).2) (Cert.ReferenceIdeal.Value.run (F := Ideal) m ρ)

/-- From any launch memory `m'`, the reference ends with its result array equal to `G` of the four launch arrays,
    and with those arrays unchanged. No finiteness is needed on this side. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v18)
            = Cert.Attn.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((Cert.ReferenceIdeal.Read.val_main_v18_eq _ _ _ _).trans
        (Cert.ReferenceIdeal.RefValue.ref_eq _ _ _ _)), (h c).2⟩)
    (Cert.ReferenceIdeal.Value.run (F := Ideal) m' ρ')

end Cert.Attn.Ref

end
-- ==== Proof.lean ====
/-
  The certificate of a dense self-attention layer: a two-launch kernel program against its one-pass reference.

  The kernel program concatenates the three weight matrices, multiplies the input rows by them in one tiled matrix
  product (first launch), and then runs attention tile by tile (second launch): for each batch and tile of query
  rows it walks the tiles of key rows keeping a running row maximum, a running sum of `exp (score - maximum)` and
  the same sum weighted by the value rows, rescaling both sums whenever the maximum grows, and divides at the end.
  The reference computes the three projections, all scores divided by `sqrt 1024`, a softmax along each row and the
  weighted sum of the value rows.

  Over the extended reals both are one function `G` of the four arrays (Proof/Spec.lean). For the reference this
  holds for all extended-real inputs: dividing by `sqrt 1024 = 32` is multiplying by `1/32`, the kernel's scale, on
  every extended real. For the kernel it uses that the inputs are finite: then every score is a real number, and for
  real scores the tile-by-tile fold with rescaling equals the one-pass weighting, and the final division distributes
  over the sum of the weighted values.

  The three frames: each kernel program's run is assembled from its two regions and the host operations between them
  (Proof/KI for the idealized program, Proof/K the same text for the word-level one); the reference's is its generated
  run. The idealization rewrote nothing, so there is nothing to preserve.
-/
import proofs.«104880_j49323404427787_2_alg».proof.Defs
import proofs.«104880_j49323404427787_2_alg».proof.Proof.Gen.Kernel
import proofs.«104880_j49323404427787_2_alg».proof.Proof.Gen.KernelIdeal
import proofs.«104880_j49323404427787_2_alg».proof.Proof.Gen.ReferenceIdeal
import proofs.«104880_j49323404427787_2_alg».proof.Proof.Gen.Pre_finite_inputs
import proofs.«104880_j49323404427787_2_alg».proof.Proof.K.Run
import proofs.«104880_j49323404427787_2_alg».proof.Proof.K.R1Frame
import proofs.«104880_j49323404427787_2_alg».proof.Proof.KI.Run
import proofs.«104880_j49323404427787_2_alg».proof.Proof.KI.R1Frame
import proofs.«104880_j49323404427787_2_alg».proof.Proof.KI.Final
import proofs.«104880_j49323404427787_2_alg».proof.Proof.RefRun

noncomputable section

namespace Cert.Proof

open Idealize.ShloMosaic Idealize.SL.Sem

/-- The word-level kernel program runs to the end, faults nowhere and leaves its arguments unchanged. -/
theorem frame_k : Cert.frame_Kernel := fun m ρ _ =>
  Cert.Kernel.Hand.frame_all (F := Bits) m ρ fun c => Cert.Kernel.Hand.body_obligation1 _ c

/-- So does the idealized kernel program. -/
theorem frame_ki : Cert.frame_KernelIdeal := fun m ρ _ =>
  Cert.KernelIdeal.Hand.frame_all (F := Ideal) m ρ fun c => Cert.KernelIdeal.Hand.body_obligation1 _ c

/-- From memories agreeing on the arguments, the idealized kernel program ends with `G` of its launch arrays in its
    result array, and the idealized reference with `G` of its own, which are the same arrays. -/
theorem algebraic : Cert.algebraic_KernelIdeal_ReferenceIdeal := by
  intro m ρ m' ρ' hpre hagree
  refine ⟨fun c => Cert.Attn.G (Cert.KernelIdeal.HandValue.xOf m c) (Cert.KernelIdeal.HandValue.wqOf m c)
      (Cert.KernelIdeal.HandValue.wkOf m c) (Cert.KernelIdeal.HandValue.wvOf m c), ?_, ?_⟩
  · exact (θ_run (Cert.KernelIdeal.defs (F := Ideal)) _ _).mono
      (fun _ h c => ⟨(h c).1.trans (Cert.KernelIdeal.HandValue.out5_eq_G m ρ c (hpre c)), (h c).2⟩)
      (Cert.KernelIdeal.Hand.run_valued (F := Ideal) m ρ fun c => Cert.KernelIdeal.Hand.body_obligation1 _ c)
  · refine (θ_run (Cert.ReferenceIdeal.defs (F := Ideal)) _ _).mono (fun _ h c => ⟨?_, (h c).2⟩) (Cert.Attn.Ref.ref_run m' ρ')
    rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, Cert.Attn.Ref.frame_ri, trivial, algebraic⟩

end Cert.Proof

end
